-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_arg8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S400000x40 : Shape := ⟨2, ![400000, 40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S400000x40 : S_.BroadcastsInDim S400000x40 (![] : Fin 0 → Fin S400000x40.rank)
  reducesTo_S400000x40_S_d0_1 : S400000x40.ReducesTo [0, 1] S_

variable [Facts]

def fn_part2 {F : FTy → Type} [FloatOps F] (main_arg8 : FVec F S400000x40 .f32) (main_v33 : IVec S_ 1) : IVec S_ 1 :=
  let main_v34 : FVec F S400000x40 .f32 := Host.absf main_arg8
  let main_cst_12 : FVec F S_ .f32 := constant S_ .f32 0x7F800000#32
  let main_v35 : FVec F S400000x40 .f32 := broadcastInDim S400000x40 ![] bcast_S_S400000x40 main_cst_12
  let main_v36 : IVec S400000x40 1 := cmpf .olt main_v34 main_v35
  let main_c_13 : IVec S_ 1 := constantI S_ 1 1#1
  let main_v37 : IVec S_ 1 := (fun x v => Host.reduce IntOp.andi x v reducesTo_S400000x40_S_d0_1 h_S_) main_v36 main_c_13
  let main_v38 : IVec S_ 1 := andi main_v33 main_v37
  main_v38

def fn_part1 {F : FTy → Type} [FloatOps F] (main_arg5 : FVec F S256x40 .f32) (main_arg6 : FVec F S40 .f32) (main_arg7 : FVec F S256x40 .f32) (main_arg8 : FVec F S400000x40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x40 .f32 := Host.absf main_arg5
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S256x40 .f32 := Host.absf main_arg7
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256x40 .f32) (main_arg6 : FVec F S40 .f32) (main_arg7 : FVec F S256x40 .f32) (main_arg8 : FVec F S400000x40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S400000x40 : Shape := ⟨2, ![400000, 40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x40 : Shape := ⟨2, ![50000, 40]⟩
abbrev S2000x256 : Shape := ⟨2, ![2000, 256]⟩
abbrev S2000x1 : Shape := ⟨2, ![2000, 1]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 57
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x40, .f32⟩
  | .hbm, ⟨6, _⟩ => ⟨S40, .f32⟩
  | .hbm, ⟨7, _⟩ => ⟨S256x40, .f32⟩
  | .hbm, ⟨8, _⟩ => ⟨S400000x40, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x40, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x40, .f32⟩
  | .hbm, ⟨51, _⟩ => ⟨S_, .f32⟩
  | .hbm, ⟨52, _⟩ => ⟨S50000x40, .f32⟩
  | .hbm, ⟨53, _⟩ => ⟨S800000x1, .i32⟩
  | .hbm, ⟨54, _⟩ => ⟨S50000x40, .f32⟩
  | .hbm, ⟨55, _⟩ => ⟨S1x40, .f32⟩
  | .hbm, ⟨56, _⟩ => ⟨S50000x40, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S256x40, .f32⟩
  | .local _ .vmem, ⟨10, _⟩ => ⟨S2000x256, .f32⟩
  | .local _ .vmem, ⟨11, _⟩ => ⟨S2000x256, .f32⟩
  | .local _ .vmem, ⟨12, _⟩ => ⟨S2000x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x1, .f32⟩
  | .local _ .vmem, ⟨17, _⟩ => ⟨S2000x1, .f32⟩
  | .local _ .vmem, ⟨18, _⟩ => ⟨S2000x256, .f32⟩
  | .local _ .vmem, ⟨19, _⟩ => ⟨S2000x256, .f32⟩
  | .local _ .vmem, ⟨20, _⟩ => ⟨S256x40, .f32⟩
  | .local _ .vmem, ⟨21, _⟩ => ⟨S1x40, .f32⟩
  | .local _ .vmem, ⟨22, _⟩ => ⟨S2000x40, .f32⟩
  | .local _ .vmem, ⟨23, _⟩ => ⟨S2000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x40 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x40_S256x40_0_0 : ∀ a, (![0, 0] : Fin 2 → Nat) a + S256x40.size a ≤ S256x40.size a
  h_S256x40 : 0 < S256x40.numel
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  broadcasts_S2000x1_S2000x40 : S2000x1.Broadcasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x40_S2000x40_1_0_0_1_n_n_wf : DotDims.WF S2000x256 S256x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x40.size a ≤ S256x40.size a
  hwx0_6 : ∀ i : grid0.Coords, EltTy.bits .f32 = 32 ∨ (Rect.block (s := S256x40) S256x40.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x40.size a ≤ S50000x40.size a
  hwx0_8 : ∀ i : grid0.Coords, EltTy.bits .f32 = 32 ∨ (Rect.block (s := S50000x40) S2000x40.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x40.size a ≤ S50000x40.size a
  hwx1_0 : ∀ i : grid1.Coords, EltTy.bits .f32 = 32 ∨ (Rect.block (s := S50000x40) S2000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x40.size a ≤ S256x40.size a
  hwx1_3 : ∀ i : grid1.Coords, EltTy.bits .f32 = 32 ∨ (Rect.block (s := S256x40) S256x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x40.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_1) S2000x40.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v34) S2000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24_0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S256x40 : Shape := ⟨2, ![256, 40]⟩
abbrev S40 : Shape := ⟨1, ![40]⟩
abbrev S400000x40 : Shape := ⟨2, ![400000, 40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S50000x40 : Shape := ⟨2, ![50000, 40]⟩
abbrev S1x40 : Shape := ⟨2, ![1, 40]⟩

abbrev nBuf : Space → Nat
  | .hbm => 90
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x40, .f32⟩
  | .hbm, ⟨6, _⟩ => ⟨S40, .f32⟩
  | .hbm, ⟨7, _⟩ => ⟨S256x40, .f32⟩
  | .hbm, ⟨8, _⟩ => ⟨S400000x40, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .i1⟩
  | .hbm, ⟨47, _⟩ => ⟨S_, .f32⟩
  | .hbm, ⟨48, _⟩ => ⟨S50000x256, .f32⟩
  | .hbm, ⟨49, _⟩ => ⟨S50000x256, .i1⟩
  | .hbm, ⟨50, _⟩ => ⟨S_, .f32⟩
  | .hbm, ⟨51, _⟩ => ⟨S_, .f32⟩
  | .hbm, ⟨52, _⟩ => ⟨S50000x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x256, .f32⟩
  | .hbm, ⟨68, _⟩ => ⟨S_, .f32⟩
  | .hbm, ⟨69, _⟩ => ⟨S50000x256, .f32⟩
  | .hbm, ⟨70, _⟩ => ⟨S800000x1, .i32⟩
  | .hbm, ⟨71, _⟩ => ⟨S50000x256, .f32⟩
  | .hbm, ⟨72, _⟩ => ⟨S_, .f32⟩
  | .hbm, ⟨73, _⟩ => ⟨S800000, .f32⟩
  | .hbm, ⟨74, _⟩ => ⟨S_, .f32⟩
  | .hbm, ⟨75, _⟩ => ⟨S50000, .f32⟩
  | .hbm, ⟨76, _⟩ => ⟨S800000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .f32⟩
  | .hbm, ⟨81, _⟩ => ⟨S50000x1, .f32⟩
  | .hbm, ⟨82, _⟩ => ⟨S50000x256, .f32⟩
  | .hbm, ⟨83, _⟩ => ⟨S50000x256, .f32⟩
  | .hbm, ⟨84, _⟩ => ⟨S50000x40, .f32⟩
  | .hbm, ⟨85, _⟩ => ⟨S1x40, .f32⟩
  | .hbm, ⟨86, _⟩ => ⟨S50000x40, .f32⟩
  | .hbm, ⟨87, _⟩ => ⟨S50000x40, .f32⟩
  | .hbm, ⟨88, _⟩ => ⟨S50000x40, .f32⟩
  | .hbm, ⟨89, _⟩ => ⟨S50000x40, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_cst_1 : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_v4 : Ref sig .tc := ⟨.hbm, 53, rfl⟩
abbrev main_call0_v5 : Ref sig .tc := ⟨.hbm, 54, rfl⟩
abbrev main_call0_cst_2 : Ref sig .tc := ⟨.hbm, 55, rfl⟩
abbrev main_call0_v6 : Ref sig .tc := ⟨.hbm, 56, rfl⟩
abbrev main_call0_v7 : Ref sig .tc := ⟨.hbm, 57, rfl⟩
abbrev main_v29 : Ref sig .tc := ⟨.hbm, 58, rfl⟩
abbrev main_c_4 : Ref sig .tc := ⟨.hbm, 59, rfl⟩
abbrev main_v30 : Ref sig .tc := ⟨.hbm, 60, rfl⟩
abbrev main_v31 : Ref sig .tc := ⟨.hbm, 61, rfl⟩
abbrev main_c_5 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_6 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_7 : Ref sig .tc := ⟨.hbm, 72, rfl⟩
abbrev main_v40 : Ref sig .tc := ⟨.hbm, 73, rfl⟩
abbrev main_cst_8 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_9 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.KRun.lean ====
/-
  The idealized two-call program's run with its result named.

  Every weakly fair execution of @main from a memory with zero counters terminates without a fault; the final state
  holds, in the result buffer of the second call, the contents `W4` that the run's fold through the host stretches and
  the two calls' write-backs assigns to it, and every argument array as launched.
-/
import proofs.«113936_j65163243815283_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the second call's result buffer read at the last boundary's contents, the returned argument and the
    nine arguments as launched (the order in which the equivalence claim lists them). -/
theorem run_named : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg8) = m ((c.tc : Thread nD τ).loc main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg8 (by decide))).trans (W4_main_arg8 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KRun

end
-- ==== Proof.KTerm.lean ====
/-
  The two-call program's host-side stages as terms of its argument arrays.

  Before the first call: the destination and source index columns of the edge list, the aggregated input rows, the
  reciprocal of the in-degree raised to at least one (as a column), and the first bias as a row.  Between the calls: the
  aggregated rows of the first call's 40-column projection, and the second bias as a row.
-/
import proofs.«113936_j65163243815283_2_alg».proof.KernelIdeal
import Idealize.ShloMosaic.PureOps.Ideal

noncomputable section

namespace Cert.KTerm

open Cert.KernelIdeal Idealize.ShloMosaic

variable [Cert.KernelIdeal.Facts]
open Cert.KernelIdeal.Facts₀ Cert.KernelIdeal.Facts

/-- The destination index column: row 1 of the edge list, as `[800000, 1]`. -/
def dstT (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- Row 0 of the edge list, flat. -/
def src1T (ei : IVec S2x800000 32) : IVec S800000 32 :=
  shapeCast S800000 (extractStridedSlice S1x800000 ![0, 0] ei slices_S2x800000_S1x800000_0_0) shapeCasts_S1x800000_S800000

/-- The source index column: a negative index word raised by the node count, as `[800000, 1]`. -/
def srcT (ei : IVec S2x800000 32) : IVec S800000x1 32 :=
  broadcastInDim S800000x1 ![0] bcast_S800000_S800000x1_0
    (select (cmpi .slt (src1T ei) (broadcastInDim S800000 ![] bcast_S_S800000 (constantI S_ 32 0#32)))
      (addi (src1T ei) (broadcastInDim S800000 ![] bcast_S_S800000 (constantI S_ 32 50000#32))) (src1T ei))

/-- The aggregated rows of a 256-column array: its rows gathered at the sources and added into zero at the destinations. -/
def aggT (h : FVec Ideal S50000x256 .f32) (dsti srci : IVec S800000x1 32) : FVec Ideal S50000x256 .f32 :=
  Host.scatterAdd scatter_S50000x256_S800000x1_S800000x256_1_0_0_1
    (broadcastInDim S50000x256 ![] bcast_S_S50000x256 (constant (F := Ideal) S_ .f32 0x00000000#32)) dsti
    (Host.gather gather_S50000x256_S800000x1_S800000x256_1_0_n_n_0_1_1256 h srci)

/-- The same for a 40-column array. -/
def agg40T (p : FVec Ideal S50000x40 .f32) (dsti srci : IVec S800000x1 32) : FVec Ideal S50000x40 .f32 :=
  Host.scatterAdd scatter_S50000x40_S800000x1_S800000x40_1_0_0_1
    (broadcastInDim S50000x40 ![] bcast_S_S50000x40 (constant (F := Ideal) S_ .f32 0x00000000#32)) dsti
    (Host.gather gather_S50000x40_S800000x1_S800000x40_1_0_n_n_0_1_140 p srci)

/-- The in-degree (ones added into zero at the destinations) raised to at least one. -/
def dmaxT (dsti : IVec S800000x1 32) : FVec Ideal S50000 .f32 :=
  maximumf
    (Host.scatterAdd scatter_S50000_S800000x1_S800000_n_0_0_1
      (broadcastInDim S50000 ![] bcast_S_S50000 (constant (F := Ideal) S_ .f32 0x00000000#32)) dsti
      (broadcastInDim S800000 ![] bcast_S_S800000 (constant (F := Ideal) S_ .f32 0x3F800000#32)))
    (broadcastInDim S50000 ![] bcast_S_S50000 (constant (F := Ideal) S_ .f32 0x3F800000#32))

/-- One over that degree, as a column `[50000, 1]`. -/
def invT (dsti : IVec S800000x1 32) : FVec Ideal S50000x1 .f32 :=
  broadcastInDim S50000x1 ![0] bcast_S50000_S50000x1_0
    (Host.divf (F := Ideal) (broadcastInDim S50000 ![] bcast_S_S50000 (constant (F := Ideal) S_ .f32 0x3F800000#32)) (dmaxT dsti))

/-- The first bias as a row `[1, 256]`. -/
def b1rT (b1 : FVec Ideal S256 .f32) : FVec Ideal S1x256 .f32 := fun i => shapeCast S1x256 b1 shapeCasts_S256_S1x256 i

/-- The second bias as a row `[1, 40]`. -/
def b2rT (b2 : FVec Ideal S40 .f32) : FVec Ideal S1x40 .f32 := fun i => shapeCast S1x40 b2 shapeCasts_S40_S1x40 i

end Cert.KTerm

end
-- ==== Proof.KHost.lean ====
/-
  What each call of the two-call program finds in the arrays it reads, as terms of the launch memory.

  The first call reads the aggregated input rows, the reciprocal-degree column, the inputs and weights as launched and
  the first bias as a row.  The second call reads the aggregated rows of the first call's 40-column result, the same
  reciprocal-degree column, the first call's 256-column result, a weight as launched and the second bias as a row.
-/
import proofs.«113936_j65163243815283_2_alg».proof.Proof.Gen.KernelIdeal.Frame
import proofs.«113936_j65163243815283_2_alg».proof.Proof.KTerm
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first call -/

attribute [local irreducible] Host.gather Host.scatterAdd in
theorem V1_v22 (c : Dev nD) :
    (V1 m ρ c main_v22 : S50000x256.Idx → EReal)
      = Cert.KTerm.aggT (m ((c.tc : Thread nD τ).loc main_arg0)) (Cert.KTerm.dstT (m ((c.tc : Thread nD τ).loc main_arg1))) (Cert.KTerm.srcT (m ((c.tc : Thread nD τ).loc main_arg1))) := by
  dsimp only [V1, W1, hostOps0]
  after_results_simp
  rfl

attribute [local irreducible] Host.gather Host.scatterAdd in
theorem V1_v12 (c : Dev nD) :
    (V1 m ρ c main_v12 : S50000x1.Idx → EReal) = Cert.KTerm.invT (Cert.KTerm.dstT (m ((c.tc : Thread nD τ).loc main_arg1))) := by
  dsimp only [V1, W1, hostOps0]
  after_results_simp
  rfl

attribute [local irreducible] Host.gather Host.scatterAdd in
theorem V1_v23 (c : Dev nD) : (V1 m ρ c main_v23 : S1x256.Idx → EReal) = Cert.KTerm.b1rT (m ((c.tc : Thread nD τ).loc main_arg3)) := by
  dsimp only [V1, W1, hostOps0]
  after_results_simp
  rfl

attribute [local irreducible] Host.gather Host.scatterAdd in
theorem V1_v1 (c : Dev nD) : (V1 m ρ c main_v1 : S800000.Idx → BitVec 32) = Cert.KTerm.src1T (m ((c.tc : Thread nD τ).loc main_arg1)) := by
  dsimp only [V1, W1, hostOps0]
  after_results_simp
  rfl

attribute [local irreducible] Host.gather Host.scatterAdd in
theorem V1_v3 (c : Dev nD) :
    (V1 m ρ c main_v3 : S800000.Idx → BitVec 32)
      = shapeCast S800000 (extractStridedSlice S1x800000 ![1, 0] (m ((c.tc : Thread nD τ).loc main_arg1)) Facts₀.slices_S2x800000_S1x800000_1_0) Facts₀.shapeCasts_S1x800000_S800000 := by
  dsimp only [V1, W1, hostOps0]
  after_results_simp
  rfl

attribute [local irreducible] Host.gather Host.scatterAdd in
theorem V1_arg0 (c : Dev nD) : V1 m ρ c main_arg0 = m ((c.tc : Thread nD τ).loc main_arg0) := by
  dsimp only [V1, W1, hostOps0]
  after_results_simp

attribute [local irreducible] Host.gather Host.scatterAdd in
theorem V1_arg2 (c : Dev nD) : V1 m ρ c main_arg2 = m ((c.tc : Thread nD τ).loc main_arg2) := by
  dsimp only [V1, W1, hostOps0]
  after_results_simp

attribute [local irreducible] Host.gather Host.scatterAdd in
theorem V1_arg4 (c : Dev nD) : V1 m ρ c main_arg4 = m ((c.tc : Thread nD τ).loc main_arg4) := by
  dsimp only [V1, W1, hostOps0]
  after_results_simp

attribute [local irreducible] Host.gather Host.scatterAdd in
theorem V1_arg5 (c : Dev nD) : V1 m ρ c main_arg5 = m ((c.tc : Thread nD τ).loc main_arg5) := by
  dsimp only [V1, W1, hostOps0]
  after_results_simp

attribute [local irreducible] Host.gather Host.scatterAdd in
theorem V1_arg6 (c : Dev nD) : V1 m ρ c main_arg6 = m ((c.tc : Thread nD τ).loc main_arg6) := by
  dsimp only [V1, W1, hostOps0]
  after_results_simp

attribute [local irreducible] Host.gather Host.scatterAdd in
theorem V1_arg7 (c : Dev nD) : V1 m ρ c main_arg7 = m ((c.tc : Thread nD τ).loc main_arg7) := by
  dsimp only [V1, W1, hostOps0]
  after_results_simp

/-! ## Between the calls: the first call's exit contents, then the second host stretch -/

/-- A buffer the first call does not own keeps its entry contents. -/
theorem W2_v1 (c : Dev nD) : (W2 m ρ c (Proc.devRef .tc main_v1) : S800000.Idx → BitVec 32) = Cert.KTerm.src1T (m ((c.tc : Thread nD τ).loc main_arg1)) :=
  (W2_of_ne m ρ c main_v1 (by decide)).trans (V1_v1 m ρ c)

theorem W2_v3 (c : Dev nD) :
    (W2 m ρ c (Proc.devRef .tc main_v3) : S800000.Idx → BitVec 32)
      = shapeCast S800000 (extractStridedSlice S1x800000 ![1, 0] (m ((c.tc : Thread nD τ).loc main_arg1)) Facts₀.slices_S2x800000_S1x800000_1_0) Facts₀.shapeCasts_S1x800000_S800000 :=
  (W2_of_ne m ρ c main_v3 (by decide)).trans (V1_v3 m ρ c)

theorem W2_arg6 (c : Dev nD) : W2 m ρ c (Proc.devRef .tc main_arg6) = m ((c.tc : Thread nD τ).loc main_arg6) :=
  (W2_of_ne m ρ c main_arg6 (by decide)).trans (V1_arg6 m ρ c)

theorem W2_arg7 (c : Dev nD) : W2 m ρ c (Proc.devRef .tc main_arg7) = m ((c.tc : Thread nD τ).loc main_arg7) :=
  (W2_of_ne m ρ c main_arg7 (by decide)).trans (V1_arg7 m ρ c)

/-- An array the first call only reads is left as entered. -/
theorem W2_v12 (c : Dev nD) :
    (W2 m ρ c (Proc.devRef .tc main_v12) : S50000x1.Idx → EReal) = Cert.KTerm.invT (Cert.KTerm.dstT (m ((c.tc : Thread nD τ).loc main_arg1))) :=
  (W2_arr m ρ c 1).trans (((dat0 (V1 m ρ) c).arrAt_in 1 rfl _).trans ((A_eq0 (V1 m ρ) c 1).trans (V1_v12 m ρ c)))

/-- The first call's two results are what its write-backs leave. -/
theorem W2_v24_0 (c : Dev nD) : W2 m ρ c (Proc.devRef .tc main_v24_0) = (dat0 (V1 m ρ) c).arrAt 7 cfg0.N := W2_arr m ρ c 7
theorem W2_v24_1 (c : Dev nD) : W2 m ρ c (Proc.devRef .tc main_v24_1) = (dat0 (V1 m ρ) c).arrAt 8 cfg0.N := W2_arr m ρ c 8

attribute [local irreducible] Host.gather Host.scatterAdd in
theorem V3_v34 (c : Dev nD) :
    (V3 m ρ c main_v34 : S50000x40.Idx → EReal)
      = Cert.KTerm.agg40T (W2 m ρ c (Proc.devRef .tc main_v24_1)) (Cert.KTerm.dstT (m ((c.tc : Thread nD τ).loc main_arg1))) (Cert.KTerm.srcT (m ((c.tc : Thread nD τ).loc main_arg1))) := by
  dsimp only [V3, W3, hostOps1]
  after_results_simp
  rw [W2_v1 m ρ c, W2_v3 m ρ c]
  rfl

attribute [local irreducible] Host.gather Host.scatterAdd in
theorem V3_v12 (c : Dev nD) :
    (V3 m ρ c main_v12 : S50000x1.Idx → EReal) = Cert.KTerm.invT (Cert.KTerm.dstT (m ((c.tc : Thread nD τ).loc main_arg1))) := by
  dsimp only [V3, W3, hostOps1]
  after_results_simp
  exact W2_v12 m ρ c

attribute [local irreducible] Host.gather Host.scatterAdd in
theorem V3_v24_0 (c : Dev nD) : V3 m ρ c main_v24_0 = (dat0 (V1 m ρ) c).arrAt 7 cfg0.N := by
  dsimp only [V3, W3, hostOps1]
  after_results_simp
  exact W2_v24_0 m ρ c

attribute [local irreducible] Host.gather Host.scatterAdd in
theorem V3_arg7 (c : Dev nD) : V3 m ρ c main_arg7 = m ((c.tc : Thread nD τ).loc main_arg7) := by
  dsimp only [V3, W3, hostOps1]
  after_results_simp
  exact W2_arg7 m ρ c

attribute [local irreducible] Host.gather Host.scatterAdd in
theorem V3_v35 (c : Dev nD) : (V3 m ρ c main_v35 : S1x40.Idx → EReal) = Cert.KTerm.b2rT (m ((c.tc : Thread nD τ).loc main_arg6)) := by
  dsimp only [V3, W3, hostOps1]
  after_results_simp
  rw [W2_arg6 m ρ c]
  rfl

end Cert.KernelIdeal.KHost

end
-- ==== Proof.Spec.lean ====
/-
  The two-layer mean-aggregating graph convolution, written index by index over the extended reals.

  Nodes n < 50000, edges e < 800000, features k < 256, classes c < 40.  An edge e sends the row `rowOf srci e`
  (its source index word, read signed and clamped into the node range) to every node n that its destination index
  word names (`(dsti (e,0)).toInt = n`); `segsum` is the resulting sum over edges, started from the zero word.
  `D n` is a node's in-degree raised to at least one.

  One arrangement (`preK`, `hidK`, `projK`, `outK`) scales an aggregated row by the reciprocal `I (n,0)` of `D n`,
  and for the second layer aggregates the rows of `H · W2l` (40 columns) instead of the rows of `H` (256 columns).
  The other (`preR`, `hidR`, `outR`) divides an aggregated row by `D n` and multiplies by `W2l` afterwards.
  The activation is x for x > 0 and exp x − 1 otherwise, spelt once through `exp` and once through `exp(·) − 1` of
  a clamped argument.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

abbrev SNK : Shape := ⟨2, ![50000, 256]⟩
abbrev SNC : Shape := ⟨2, ![50000, 40]⟩
abbrev SN1 : Shape := ⟨2, ![50000, 1]⟩
abbrev SN : Shape := ⟨1, ![50000]⟩
abbrev SKK : Shape := ⟨2, ![256, 256]⟩
abbrev SKC : Shape := ⟨2, ![256, 40]⟩
abbrev S1K : Shape := ⟨2, ![1, 256]⟩
abbrev S1C : Shape := ⟨2, ![1, 40]⟩
abbrev SK : Shape := ⟨1, ![256]⟩
abbrev SC : Shape := ⟨1, ![40]⟩
abbrev SE1 : Shape := ⟨2, ![800000, 1]⟩
abbrev SEK : Shape := ⟨2, ![800000, 256]⟩
abbrev SEC : Shape := ⟨2, ![800000, 40]⟩

/-- A function of two literal coordinates as an array of shape `[a, b]`. -/
def of2 {α : Type} {a b : Nat} (f : Fin a → Fin b → α) : (⟨2, ![a, b]⟩ : Shape).Idx → α :=
  fun i => f ⟨(i 0).val, idx2_lt0 i⟩ ⟨(i 1).val, idx2_lt1 i⟩

theorem of2_ix2 {α : Type} {a b : Nat} (f : Fin a → Fin b → α) (p : Fin a) (q : Fin b) : of2 f (ix2 p q) = f p q := rfl

/-- The zero word and the one word of the 32-bit format, as extended reals. -/
abbrev z0 : EReal := Ideal.ofBits .f32 0x00000000#32
abbrev o1 : EReal := Ideal.ofBits .f32 0x3F800000#32

/-- The activation through `exp`: x for x > 0, else 1 · (exp x − 1). -/
def eluK (a : EReal) : EReal :=
  Scalar.select (Ideal.cmp .ogt a z0) a (o1 * (Ideal.exp a - o1))

/-- The activation through `exp(·) − 1` of the argument clamped to zero from above. -/
def eluR (a : EReal) : EReal :=
  Scalar.select (Ideal.cmp .ogt a z0) a (o1 * (Ideal.exp (Scalar.select (Ideal.cmp .ogt a z0) z0 a) - 1))

/-- The node an edge reads: its source index word, signed, clamped into `[0, 49999]`. -/
def rowOf (srci : IVec SE1 32) (e : Fin 800000) : Fin 50000 :=
  ⟨min (srci (ix2 e (0 : Fin 1))).toInt.toNat 49999, by omega⟩

/-- The sum, started from the zero word, of `U` at the source rows of the edges whose destination word names `n`. -/
def segsum (dsti srci : IVec SE1 32) (U : Fin 50000 → EReal) (n : Fin 50000) : EReal :=
  z0 + ∑ e : Fin 800000, if (dsti (ix2 e (0 : Fin 1))).toInt = (n.val : Int) then U (rowOf srci e) else 0

/-! ## The arrangement that scales by a reciprocal -/

/-- First layer before the activation: (Σ_k (A(n,k) · I(n,0)) · Wl(k,j) + Σ_k X(n,k) · Wr(k,j)) + B(0,j). -/
def preK (A : SNK.Idx → EReal) (I : SN1.Idx → EReal) (X : SNK.Idx → EReal) (Wl : SKK.Idx → EReal)
    (B : S1K.Idx → EReal) (Wr : SKK.Idx → EReal) (n : Fin 50000) (j : Fin 256) : EReal :=
  ((∑ k : Fin 256, (A (ix2 n k) * I (ix2 n (0 : Fin 1))) * Wl (ix2 k j)) + ∑ k : Fin 256, X (ix2 n k) * Wr (ix2 k j))
    + B (ix2 (0 : Fin 1) j)

def hidK (A : SNK.Idx → EReal) (I : SN1.Idx → EReal) (X : SNK.Idx → EReal) (Wl : SKK.Idx → EReal)
    (B : S1K.Idx → EReal) (Wr : SKK.Idx → EReal) (n : Fin 50000) (j : Fin 256) : EReal :=
  eluK (preK A I X Wl B Wr n j)

/-- A hidden row projected to the 40 classes: Σ_k H(n,k) · W(k,c). -/
def projK (H : SNK.Idx → EReal) (W : SKC.Idx → EReal) (n : Fin 50000) (c : Fin 40) : EReal :=
  ∑ k : Fin 256, H (ix2 n k) * W (ix2 k c)

/-- Second layer: (A2(n,c) · I(n,0) + Σ_k H(n,k) · Wr(k,c)) + B(0,c). -/
def outK (A2 : SNC.Idx → EReal) (I : SN1.Idx → EReal) (H : SNK.Idx → EReal) (Wr : SKC.Idx → EReal)
    (B : S1C.Idx → EReal) (n : Fin 50000) (c : Fin 40) : EReal :=
  (A2 (ix2 n c) * I (ix2 n (0 : Fin 1)) + ∑ k : Fin 256, H (ix2 n k) * Wr (ix2 k c)) + B (ix2 (0 : Fin 1) c)

/-! ## The arrangement that divides -/

/-- First layer before the activation: (Σ_k (A(n,k) / D n) · Wl(k,j) + b j) + Σ_k X(n,k) · Wr(k,j). -/
def preR (A : SNK.Idx → EReal) (D : SN.Idx → EReal) (X : SNK.Idx → EReal) (Wl : SKK.Idx → EReal)
    (b : SK.Idx → EReal) (Wr : SKK.Idx → EReal) (n : Fin 50000) (j : Fin 256) : EReal :=
  ((∑ k : Fin 256, Ideal.div (A (ix2 n k)) (D (ix1 n)) * Wl (ix2 k j)) + b (ix1 j))
    + ∑ k : Fin 256, X (ix2 n k) * Wr (ix2 k j)

def hidR (A : SNK.Idx → EReal) (D : SN.Idx → EReal) (X : SNK.Idx → EReal) (Wl : SKK.Idx → EReal)
    (b : SK.Idx → EReal) (Wr : SKK.Idx → EReal) (n : Fin 50000) (j : Fin 256) : EReal :=
  eluR (preR A D X Wl b Wr n j)

/-- Second layer: (Σ_k (segsum of H's column k at n / D n) · W2l(k,c) + b2 c) + Σ_k H(n,k) · W2r(k,c). -/
def outR (dsti srci : IVec SE1 32) (D : SN.Idx → EReal) (H : SNK.Idx → EReal) (W2l : SKC.Idx → EReal)
    (b2 : SC.Idx → EReal) (W2r : SKC.Idx → EReal) (n : Fin 50000) (c : Fin 40) : EReal :=
  ((∑ k : Fin 256, Ideal.div (segsum dsti srci (fun r => H (ix2 r k)) n) (D (ix1 n)) * W2l (ix2 k c)) + b2 (ix1 c))
    + ∑ k : Fin 256, H (ix2 n k) * W2r (ix2 k c)

end Cert.Sage

end
-- ==== Proof.Bridge.lean ====
/-
  The two-call program's result buffer as one term of its launch memory.

  The second call's output array is its body's function of the arrays it reads; those are the aggregated rows of the
  first call's 40-column output, the reciprocal-degree column, the first call's 256-column output, a weight and the second
  bias row; the first call's outputs are its body's functions of the aggregated input rows, the same column, the inputs,
  the weights and the first bias row.
-/
import proofs.«113936_j65163243815283_2_alg».proof.Proof.KRun
import proofs.«113936_j65163243815283_2_alg».proof.Proof.KHost
import proofs.«113936_j65163243815283_2_alg».proof.Proof.Spec

set_option maxRecDepth 16384

noncomputable section

namespace Cert.Bridge

open Cert.KernelIdeal Cert.KernelIdeal.Gen Idealize.ShloMosaic Idealize.ShloMosaic.TcCoe Idealize.SL.Sem Idealize.ShloMosaic.ValueIdx Cert.Sage

variable (m : (ℓ : Loc nD τ sig) → Buf (Elt Ideal) ℓ) (ρ : Dev nD → PrngReg)

/-- From what each call leaves in its output arrays (as functions of the arrays it reads) to the result buffer's
    contents after the run. -/
theorem kernel_array_of (c : Dev nD)
    (h1 : (dat1 (F := Ideal) (V3 m ρ) c).arrAt 5 cfg1.N
      = of2 (outK (V3 m ρ c main_v34) (V3 m ρ c main_v12) (V3 m ρ c main_v24_0) (V3 m ρ c main_arg7) (V3 m ρ c main_v35)))
    (h0h : (dat0 (F := Ideal) (V1 m ρ) c).arrAt 7 cfg0.N
      = of2 (hidK (V1 m ρ c main_v22) (V1 m ρ c main_v12) (V1 m ρ c main_arg0) (V1 m ρ c main_arg2) (V1 m ρ c main_v23) (V1 m ρ c main_arg4)))
    (h0p : (dat0 (F := Ideal) (V1 m ρ) c).arrAt 8 cfg0.N
      = of2 (projK (of2 (hidK (V1 m ρ c main_v22) (V1 m ρ c main_v12) (V1 m ρ c main_arg0) (V1 m ρ c main_arg2) (V1 m ρ c main_v23) (V1 m ρ c main_arg4)))
          (V1 m ρ c main_arg5))) :
    W4 m ρ c (Proc.devRef .tc main_v36)
      = of2 (outK
        (Cert.KTerm.agg40T
          (of2 (projK (of2 (hidK (Cert.KTerm.aggT (m ((c.tc : Thread nD τ).loc main_arg0)) (Cert.KTerm.dstT (m ((c.tc : Thread nD τ).loc main_arg1))) (Cert.KTerm.srcT (m ((c.tc : Thread nD τ).loc main_arg1))))
            (Cert.KTerm.invT (Cert.KTerm.dstT (m ((c.tc : Thread nD τ).loc main_arg1)))) (m ((c.tc : Thread nD τ).loc main_arg0)) (m ((c.tc : Thread nD τ).loc main_arg2)) (Cert.KTerm.b1rT (m ((c.tc : Thread nD τ).loc main_arg3))) (m ((c.tc : Thread nD τ).loc main_arg4)))) (m ((c.tc : Thread nD τ).loc main_arg5))))
          (Cert.KTerm.dstT (m ((c.tc : Thread nD τ).loc main_arg1))) (Cert.KTerm.srcT (m ((c.tc : Thread nD τ).loc main_arg1))))
        (Cert.KTerm.invT (Cert.KTerm.dstT (m ((c.tc : Thread nD τ).loc main_arg1))))
        (of2 (hidK (Cert.KTerm.aggT (m ((c.tc : Thread nD τ).loc main_arg0)) (Cert.KTerm.dstT (m ((c.tc : Thread nD τ).loc main_arg1))) (Cert.KTerm.srcT (m ((c.tc : Thread nD τ).loc main_arg1))))
          (Cert.KTerm.invT (Cert.KTerm.dstT (m ((c.tc : Thread nD τ).loc main_arg1)))) (m ((c.tc : Thread nD τ).loc main_arg0)) (m ((c.tc : Thread nD τ).loc main_arg2)) (Cert.KTerm.b1rT (m ((c.tc : Thread nD τ).loc main_arg3))) (m ((c.tc : Thread nD τ).loc main_arg4))))
        (m ((c.tc : Thread nD τ).loc main_arg7)) (Cert.KTerm.b2rT (m ((c.tc : Thread nD τ).loc main_arg6)))) := by
  refine (W4_arr m ρ c 5).trans ?_
  refine h1.trans ?_
  rw [Cert.KernelIdeal.KHost.V3_v34 m ρ c, Cert.KernelIdeal.KHost.V3_v12 m ρ c, Cert.KernelIdeal.KHost.V3_v24_0 m ρ c,
    Cert.KernelIdeal.KHost.V3_arg7 m ρ c, Cert.KernelIdeal.KHost.V3_v35 m ρ c, Cert.KernelIdeal.KHost.W2_v24_1 m ρ c, h0p, h0h,
    Cert.KernelIdeal.KHost.V1_v22 m ρ c, Cert.KernelIdeal.KHost.V1_v12 m ρ c, Cert.KernelIdeal.KHost.V1_v23 m ρ c,
    Cert.KernelIdeal.KHost.V1_arg0 m ρ c, Cert.KernelIdeal.KHost.V1_arg2 m ρ c, Cert.KernelIdeal.KHost.V1_arg4 m ρ c,
    Cert.KernelIdeal.KHost.V1_arg5 m ρ c]

end Cert.Bridge

end
-- ==== Proof.Law.lean ====
/-
  The algebra, over the extended reals, that joins the two arrangements of the specification.

  Small facts first: the one word is the real 1 and the zero word is 0; the two spellings of the activation agree
  (on the branch where the argument is not above zero the clamp returns the argument itself); the activation, the
  raised degree and the edge sum keep real values real.

  Then the two layers.  The first layer needs no finiteness: for a real d ≠ 0, x / d = x · (1/d) for every extended
  real x, so the two arrangements agree term by term and differ only in the order of three summands.  The second
  layer is distributivity,
      (0 + Σ_e [e→n] Σ_k H(row e,k)·W(k,c)) · (1·(1/d))  =  Σ_k ((0 + Σ_e [e→n] H(row e,k)) · (1/d)) · W(k,c),
  which fails at infinities on the extended reals: it is proved in ℝ over abstract finite index types and carried
  to the extended reals through the coercion, for H and W with real entries.
-/
import proofs.«113936_j65163243815283_2_alg».proof.Proof.Spec
import Idealize.ShloMosaic.PureOps.Ideal
import Idealize.ShloMosaic.PureOps.Ideal.Laws
import Idealize.ShloMosaic.Lib.ValueIdx

noncomputable section

namespace Cert.Sage.Law

open Idealize.ShloMosaic Idealize.ShloMosaic.ValueIdx Cert.Sage

/-- a value is a real number -/
def IsReal (x : EReal) : Prop := ∃ r : ℝ, x = (r : EReal)

/-! ## The two words -/

/-- The word 0x3F800000 has sign 0, exponent 127 and fraction 0: it is 2^23 · 2^(-23) = 1. -/
theorem o1_eq : o1 = ((1 : ℝ) : EReal) := by
  simp [Ideal.ofBits, Ideal.ieee]
  rw [← EReal.coe_mul, ← EReal.coe_one]; congr 1; norm_num

theorem z0_eq : z0 = 0 := Ideal.ofBits_zero_f32

theorem o1_one : o1 = 1 := by rw [o1_eq, EReal.coe_one]

/-! ## Real values are closed under the operations used -/

theorem isReal_zero : IsReal 0 := ⟨0, EReal.coe_zero.symm⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A real divided by a nonzero real is its product with the reciprocal, a real. -/
theorem IsReal.div {x : EReal} (hx : IsReal x) {d : ℝ} (hd : d ≠ 0) : IsReal (Ideal.div x (d : EReal)) := by
  rw [Ideal.div_coe hd]; exact hx.mul (isReal_coe _)

/-- A finite sum of reals is a real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-! ## The activation -/

/-- Where the argument is not above zero the clamp `select (a > 0) 0 a` is `a`, and the one word is 1; where it is
    above zero both spellings return the argument. -/
theorem eluR_eq_eluK (a : EReal) : eluR a = eluK a := by
  unfold eluR eluK
  rcases BitVec.eq_zero_or_eq_one (Ideal.cmp .ogt a z0) with h | h
  · rw [h, select_zero, select_zero, select_zero, o1_one]
  · rw [h, select_one, select_one]

/-- exp of a real is a real; so is 1 · (exp r − 1). -/
theorem eluK_real {a : EReal} (h : IsReal a) : IsReal (eluK a) := by
  obtain ⟨r, rfl⟩ := h
  unfold eluK
  rcases BitVec.eq_zero_or_eq_one (Ideal.cmp .ogt (r : EReal) z0) with hc | hc
  · rw [hc, select_zero, o1_eq, Ideal.exp_coe]
    exact (isReal_coe 1).mul ((isReal_coe _).sub (isReal_coe 1))
  · rw [hc, select_one]; exact isReal_coe r

/-- The maximum of a real and 1 is a real that is at least 1, so not 0. -/
theorem dmax_real {x : EReal} (h : IsReal x) : ∃ d : ℝ, d ≠ 0 ∧ max x o1 = (d : EReal) := by
  obtain ⟨r, rfl⟩ := h
  rw [o1_eq]
  rcases le_total r 1 with hr | hr
  · exact ⟨1, one_ne_zero, max_eq_right (EReal.coe_le_coe_iff.mpr hr)⟩
  · exact ⟨r, (lt_of_lt_of_le one_pos hr).ne', max_eq_left (EReal.coe_le_coe_iff.mpr hr)⟩

/-- The edge sum of real rows, started from the zero word, is a real. -/
theorem segsum_real (dsti srci : IVec SE1 32) (U : Fin 50000 → EReal) (hU : ∀ r, IsReal (U r)) (n : Fin 50000) :
    IsReal (segsum dsti srci U n) := by
  unfold segsum
  rw [z0_eq]
  refine isReal_zero.add (IsReal.sum _ _ fun e _ => ?_)
  split_ifs
  · exact hU _
  · exact isReal_zero

/-! ## The first layer -/

/-- Termwise A(n,k) · (1/d) = A(n,k) / d for every extended real A(n,k); then (P + Q) + b = (P + b) + Q. -/
theorem hid_eq (A : SNK.Idx → EReal) (D : SN.Idx → EReal) (X : SNK.Idx → EReal) (Wl : SKK.Idx → EReal) (b : SK.Idx → EReal) (Wr : SKK.Idx → EReal)
    (I : SN1.Idx → EReal) (B : S1K.Idx → EReal)
    (hD : ∀ n : Fin 50000, ∃ d : ℝ, d ≠ 0 ∧ D (ix1 n) = (d : EReal))
    (hI : ∀ n : Fin 50000, I (ix2 n (0 : Fin 1)) = Ideal.div o1 (D (ix1 n)))
    (hB : ∀ j : Fin 256, B (ix2 (0 : Fin 1) j) = b (ix1 j)) (n : Fin 50000) (j : Fin 256) :
    hidK A I X Wl B Wr n j = hidR A D X Wl b Wr n j := by
  obtain ⟨d, hd, hDn⟩ := hD n
  have e : ∀ k : Fin 256, (A (ix2 n k) * Ideal.div o1 (d : EReal)) * Wl (ix2 k j)
      = Ideal.div (A (ix2 n k)) (d : EReal) * Wl (ix2 k j) := fun k => by
    rw [Ideal.div_coe hd, Ideal.div_coe hd, o1_one, one_mul]
  unfold hidK hidR
  rw [eluR_eq_eluK]
  congr 1
  unfold preK preR
  rw [hI n, hB j, hDn]
  simp only [e]
  exact add_right_comm _ _ _

/-- Every summand of the first layer is a real, and the activation keeps reals real. -/
theorem hidR_real (A : SNK.Idx → EReal) (D : SN.Idx → EReal) (X : SNK.Idx → EReal) (Wl : SKK.Idx → EReal) (b : SK.Idx → EReal) (Wr : SKK.Idx → EReal)
    (hA : ∀ i, IsReal (A i)) (hD : ∀ n : Fin 50000, ∃ d : ℝ, d ≠ 0 ∧ D (ix1 n) = (d : EReal)) (hX : ∀ i, IsReal (X i)) (hWl : ∀ i, IsReal (Wl i))
    (hb : ∀ i, IsReal (b i)) (hWr : ∀ i, IsReal (Wr i)) (n : Fin 50000) (j : Fin 256) : IsReal (hidR A D X Wl b Wr n j) := by
  obtain ⟨d, hd, hDn⟩ := hD n
  unfold hidR
  rw [eluR_eq_eluK]
  refine eluK_real ?_
  unfold preR
  rw [hDn]
  exact ((IsReal.sum _ _ fun k _ => ((hA _).div hd).mul (hWl _)).add (hb _)).add
    (IsReal.sum _ _ fun k _ => (hX _).mul (hWr _))

/-! ## The second layer -/

/-- The law in ℝ: scaling the edge sum of projected rows by t is projecting the scaled edge sums.  Both sides are
    Σ_e Σ_k [p e] h(g e,k) · t · w k: the left by distributing t over the edge sum and then over k, the right by
    distributing w k and t over the edge sum and exchanging the two sums. -/
theorem agg_real {E N K : Type} [Fintype E] [Fintype K] (p : E → Prop) [DecidablePred p] (g : E → N)
    (h : N → K → ℝ) (w : K → ℝ) (t : ℝ) :
    (0 + ∑ e, if p e then ∑ k, h (g e) k * w k else 0) * (1 * t)
      = ∑ k, ((0 + ∑ e, if p e then h (g e) k else 0) * t) * w k := by
  simp only [zero_add, one_mul, Finset.sum_mul]
  rw [Finset.sum_comm]
  refine Finset.sum_congr rfl fun e _ => ?_
  by_cases hp : p e
  · simp only [if_pos hp, Finset.sum_mul]
    exact Finset.sum_congr rfl fun k _ => by ring
  · simp only [if_neg hp, zero_mul, Finset.sum_const_zero]

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A choice between a coerced real and 0 is the coercion of the choice. -/
theorem coe_ite (c : Prop) [Decidable c] (r : ℝ) : ((if c then r else 0 : ℝ) : EReal) = if c then (r : EReal) else 0 := by
  split_ifs
  · rfl
  · exact EReal.coe_zero

/-- The same law on the extended reals, for coerced reals: both sides are the coercion of the two sides in ℝ. -/
theorem agg_law {E N K : Type} [Fintype E] [Fintype K] (p : E → Prop) [DecidablePred p] (g : E → N)
    (h : N → K → ℝ) (w : K → ℝ) (t : ℝ) :
    ((0 : EReal) + ∑ e, if p e then ∑ k, (h (g e) k : EReal) * (w k : EReal) else 0) * ((1 : EReal) * (t : EReal))
      = ∑ k, (((0 : EReal) + ∑ e, if p e then (h (g e) k : EReal) else 0) * (t : EReal)) * (w k : EReal) := by
  have key := congrArg (fun x : ℝ => (x : EReal)) (agg_real p g h w t)
  simp only [EReal.coe_mul, EReal.coe_add, EReal.coe_zero, EReal.coe_one, coe_sum, coe_ite] at key
  exact key

/-- The law of the second layer: aggregating the projected rows and scaling by 1/d equals projecting the
    aggregated, divided rows.  The aggregated term is rewritten by `agg_law` with real witnesses for H and W2l; the
    other two summands are arbitrary extended reals and only change places. -/
theorem out_eq (dsti srci : IVec SE1 32) (D : SN.Idx → EReal) (H : SNK.Idx → EReal) (W2l : SKC.Idx → EReal) (b2 : SC.Idx → EReal) (W2r : SKC.Idx → EReal)
    (I : SN1.Idx → EReal) (B : S1C.Idx → EReal)
    (hD : ∀ n : Fin 50000, ∃ d : ℝ, d ≠ 0 ∧ D (ix1 n) = (d : EReal))
    (hI : ∀ n : Fin 50000, I (ix2 n (0 : Fin 1)) = Ideal.div o1 (D (ix1 n)))
    (hB : ∀ c : Fin 40, B (ix2 (0 : Fin 1) c) = b2 (ix1 c))
    (hH : ∀ i, IsReal (H i)) (hW : ∀ i, IsReal (W2l i)) (n : Fin 50000) (c : Fin 40) :
    outK (of2 fun n' c' => segsum dsti srci (fun r => projK H W2l r c') n') I H W2r B n c = outR dsti srci D H W2l b2 W2r n c := by
  obtain ⟨d, hd, hDn⟩ := hD n
  choose h hh using hH
  choose w hw using hW
  have key : segsum dsti srci (fun r => projK H W2l r c) n * Ideal.div o1 (d : EReal)
      = ∑ k : Fin 256, Ideal.div (segsum dsti srci (fun r => H (ix2 r k)) n) (d : EReal) * W2l (ix2 k c) := by
    simp only [Ideal.div_coe hd, segsum, projK, z0_eq, o1_one, hh, hw]
    exact agg_law (fun e : Fin 800000 => (dsti (ix2 e (0 : Fin 1))).toInt = (n.val : Int)) (rowOf srci)
      (fun r k => h (ix2 r k)) (fun k => w (ix2 k c)) (1 / d)
  unfold outK outR
  rw [of2_ix2, hI n, hB c, hDn, key]
  exact add_right_comm _ _ _

end Cert.Sage.Law

end
-- ==== Proof.LibLayout.lean ====
/-
  LAYOUT OPERATIONS READ AT AN INDEX GIVEN BY COORDINATES, at the shapes a hash-grid embedding lookup meets.
  Each lemma reads one layout operation (a broadcast along named axes, a concatenation of two unit pieces, a gather
  of table rows, a reshape, a transpose) applied at an index written by its coordinates as the operand at the index
  the operation's definition names, with the coordinate arithmetic already discharged. The side-condition proof of
  every operation is an explicit argument of arbitrary proof term, so a lemma applies whatever proof a term carries.
-/
import Idealize.ShloMosaic.Lib.ValueIdx
import Idealize.ShloMosaic.Lib.Pipeline.Value
import Idealize.ShloMosaic.Lib.ValueLayout
import Idealize.ShloMosaic.PureOps

noncomputable section

namespace Cert.LibLayout

open Idealize.ShloMosaic Idealize.ShloMosaic.ValueIdx

variable {α : Type}

/-! ## A broadcast along named axes, read at an index -/

/-- A scalar broadcast to any shape reads the scalar at every index. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector `[n]` viewed as a column `[n, 1]` (its axis sent to axis 0) reads, at `(a, z)`, the vector at `a`. -/
theorem bcast_n_n1 {n : Nat} (h : (⟨1, ![n]⟩ : Shape).BroadcastsInDim ⟨2, ![n, 1]⟩ ![0])
    (u : (⟨1, ![n]⟩ : Shape).Idx → α) (a : Fin n) (z : Fin 1) :
    broadcastInDim ⟨2, ![n, 1]⟩ ![0] h u (ix2 a z) = u (ix1 a) :=
  broadcastInDim_apply _ h u _ _ (fun ax => by
    match ax with
    | ⟨0, _⟩ =>
      show a.val = if n = 1 then 0 else a.val
      split
      · have := a.isLt; omega
      · rfl)

/-- A vector `[n]` viewed as a row `[1, n]` (its axis sent to axis 1) reads, at `(z, a)`, the vector at `a`. -/
theorem bcast_n_1n {n : Nat} (h : (⟨1, ![n]⟩ : Shape).BroadcastsInDim ⟨2, ![1, n]⟩ ![1])
    (u : (⟨1, ![n]⟩ : Shape).Idx → α) (z : Fin 1) (a : Fin n) :
    broadcastInDim ⟨2, ![1, n]⟩ ![1] h u (ix2 z a) = u (ix1 a) :=
  broadcastInDim_apply _ h u _ _ (fun ax => by
    match ax with
    | ⟨0, _⟩ =>
      show a.val = if n = 1 then 0 else a.val
      split
      · have := a.isLt; omega
      · rfl)

/-- A column `[n, 1]` repeated along its unit axis to `[n, m]` reads, at `(a, b)`, the column at `(a, 0)`. -/
theorem bcast_n1_nm {n m : Nat} (h : (⟨2, ![n, 1]⟩ : Shape).BroadcastsInDim ⟨2, ![n, m]⟩ ![0, 1])
    (w : (⟨2, ![n, 1]⟩ : Shape).Idx → α) (a : Fin n) (b : Fin m) :
    broadcastInDim ⟨2, ![n, m]⟩ ![0, 1] h w (ix2 a b) = w (ix2 a (0 : Fin 1)) :=
  broadcastInDim_apply _ h w _ _ (fun ax => by
    match ax with
    | ⟨0, _⟩ =>
      show a.val = if n = 1 then 0 else a.val
      split
      · have := a.isLt; omega
      · rfl
    | ⟨1, _⟩ => rfl)

/-- A row `[1, n]` repeated along its unit axis to `[m, n]` reads, at `(b, a)`, the row at `(0, a)`. -/
theorem bcast_1n_mn {n m : Nat} (h : (⟨2, ![1, n]⟩ : Shape).BroadcastsInDim ⟨2, ![m, n]⟩ ![0, 1])
    (w : (⟨2, ![1, n]⟩ : Shape).Idx → α) (b : Fin m) (a : Fin n) :
    broadcastInDim ⟨2, ![m, n]⟩ ![0, 1] h w (ix2 b a) = w (ix2 (0 : Fin 1) a) :=
  broadcastInDim_apply _ h w _ _ (fun ax => by
    match ax with
    | ⟨0, _⟩ => rfl
    | ⟨1, _⟩ =>
      show a.val = if n = 1 then 0 else a.val
      split
      · have := a.isLt; omega
      · rfl)

/-- A matrix `[A, B]` given a trailing unit axis, `[A, B, 1]`, reads, at `(a, b, z)`, the matrix at `(a, b)`. -/
theorem bcast_ab_ab1 {A B : Nat} (h : (⟨2, ![A, B]⟩ : Shape).BroadcastsInDim ⟨3, ![A, B, 1]⟩ ![0, 1])
    (w : (⟨2, ![A, B]⟩ : Shape).Idx → α) (a : Fin A) (b : Fin B) (z : Fin 1) :
    broadcastInDim ⟨3, ![A, B, 1]⟩ ![0, 1] h w (ix3 a b z) = w (ix2 a b) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl)

/-- An array `[A, B, 1]` repeated along its trailing unit axis to `[A, B, m]` reads, at `(a, b, f)`, the array at
    `(a, b, 0)`. -/
theorem bcast_ab1_abm {A B m : Nat} (h : (⟨3, ![A, B, 1]⟩ : Shape).BroadcastsInDim ⟨3, ![A, B, m]⟩ ![0, 1, 2])
    (w : (⟨3, ![A, B, 1]⟩ : Shape).Idx → α) (a : Fin A) (b : Fin B) (f : Fin m) :
    broadcastInDim ⟨3, ![A, B, m]⟩ ![0, 1, 2] h w (ix3 a b f) = w (ix3 a b (0 : Fin 1)) :=
  broadcastInDim_apply _ h w _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ => rfl)

/-! ## Two unit pieces concatenated along the last axis -/

/-- Two `[A, B, 1]` pieces concatenated along the last axis read, at `(a, b, 0)`, the first piece at `(a, b, 0)`. -/
theorem concat_ab1_left {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (0 : Fin 2))
      = p (ix3 a b (0 : Fin 1)) :=
  concatenate_pair_apply_left 2 p q h _ rfl _ (fun ax => by
    match ax with
    | ⟨0, _⟩ => rfl
    | ⟨1, _⟩ => rfl
    | ⟨2, _⟩ => rfl)

/-- Two `[A, B, 1]` pieces concatenated along the last axis read, at `(a, b, 1)`, the second piece at `(a, b, 0)`. -/
theorem concat_ab1_right {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B) :
    concatenate ⟨3, ![A, B, 2]⟩ 2 [⟨⟨3, ![A, B, 1]⟩, p⟩, ⟨⟨3, ![A, B, 1]⟩, q⟩] h (ix3 a b (1 : Fin 2))
      = q (ix3 a b (0 : Fin 1)) :=
  concatenate_pair_apply_right 2 p q h _ rfl rfl _ (fun ax hax => by
    match ax, hax with
    | ⟨0, _⟩, _ => rfl
    | ⟨1, _⟩, _ => rfl
    | ⟨2, _⟩, hax => exact absurd rfl hax) rfl

/-- Two `[A, B, 1]` pieces concatenated along the last axis read, at `(a, b, c)`, the first piece when `c = 0` and
    the second otherwise, each at `(a, b, 0)`. -/
theorem concat_ab1_apply {A B : Nat} (p q : (⟨3, ![A, B, 1]⟩ : Shape).Idx → α)
    (h : Shape.Concatenates [(⟨3, ![A, B, 1]⟩ : Shape), ⟨3, ![A, B, 1]⟩] ⟨3, ![A, B, 2]⟩ 2) (a : Fin A) (b : Fin B)
    (c : Fin 2) :
    concatenate ⟨3, ![A, B, 2]⟩ 2 [⟨⟨3, ![A, B, 1]⟩, p⟩, ⟨⟨3, ![A, B, 1]⟩, q⟩] h (ix3 a b c)
      = if c.val = 0 then p (ix3 a b (0 : Fin 1)) else q (ix3 a b (0 : Fin 1)) := by
  match c with
  | ⟨0, _⟩ => exact concat_ab1_left p q h a b
  | ⟨1, _⟩ => exact concat_ab1_right p q h a b

/-! ## The gather of table rows: operand `[16, 524288, 4]` at start indices `[A, B, 2]`

What `table[level, slot]` of a table `[16, 524288, 4]` at two integer arrays of one shape `[A, B]`, stacked on a last
axis, lowers to: the start index's two components name the first two operand axes (both collapsed), the third operand
axis is read whole as the result's last axis. Result element `(a, b, f)` is the table at the two components
`idx[a, b, 0]`, `idx[a, b, 1]`, each read signed and clamped into its axis, and at `f`. -/

/-- Those dimension numbers for start indices `[A, B, 2]` and result `[A, B, 4]`; their conditions `wf` are decided
    on a program's literal shapes. -/
abbrev rowDims (A B : Nat)
    (wf : GatherDims.WF ⟨3, ![16, 524288, 4]⟩ ⟨3, ![A, B, 2]⟩ ⟨3, ![A, B, 4]⟩ [2] [0, 1] [] [0, 1] [] 2 ![1, 1, 4]) :
    GatherDims ⟨3, ![16, 524288, 4]⟩ ⟨3, ![A, B, 2]⟩ ⟨3, ![A, B, 4]⟩ where
  offsetDims := [2]
  collapsedSliceDims := [0, 1]
  operandBatchingDims := []
  startIndicesBatchingDims := []
  startIndexMap := [0, 1]
  indexVectorDim := 2
  sliceSizes := ![1, 1, 4]
  wf := wf

/-- The table index a pair of start-index words and a feature name: each word read signed and clamped into its axis.
    It mentions neither extent of the index arrays. -/
def rowAt {w : Nat} (i0 i1 : BitVec w) (f : Fin 4) : (⟨3, ![16, 524288, 4]⟩ : Shape).Idx :=
  ix3 (⟨min i0.toInt.toNat 15, by omega⟩ : Fin 16) (⟨min i1.toInt.toNat 524287, by omega⟩ : Fin 524288) f

/-- THE GATHER READ AT `(a, b, f)`: the table at the clamped start-index components `idx[a, b, 0]`, `idx[a, b, 1]` and
    at `f`. -/
theorem gather_row_apply {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (ix3 (⟨min (idx (ix3 a b (0 : Fin 2))).toInt.toNat 15, by omega⟩ : Fin 16)
          (⟨min (idx (ix3 a b (1 : Fin 2))).toInt.toNat 524287, by omega⟩ : Fin 524288) f) := by
  have m0 : (0 : Fin 3) ∈ ([0, 1] : List (Fin 3)) := by decide
  have m1 : (1 : Fin 3) ∈ ([0, 1] : List (Fin 3)) := by decide
  have n2 : (2 : Fin 3) ∉ ([0, 1] : List (Fin 3)) := by decide
  -- the start-indices index of component `c` of the start index of `(a, b, f)` is `(a, b, c)`
  have hsi : ∀ (c : Fin 2) (hc : c.val < (rowDims A B wf).startIndexMap.length),
      (rowDims A B wf).siIdx (ix3 a b f) ⟨c.val, hc⟩ = ix3 a b c := by
    intro c hc
    funext d; refine Fin.ext ?_
    match d with
    | ⟨0, _⟩ => rfl
    | ⟨1, _⟩ => rfl
    | ⟨2, _⟩ => rfl
  -- axis 0: the clamped first component, no offset
  have e0 : (rowDims A B wf).start (ix3 a b f) idx 0 + (rowDims A B wf).offCoord (ix3 a b f) 0
      = min (idx (ix3 a b (0 : Fin 2))).toInt.toNat 15 := by
    rw [GatherDims.offCoord_eq_zero _ _ _ (fun hm => ((GatherDims.mem_sKept _ _).mp hm).1 m0), Nat.add_zero]
    unfold GatherDims.start
    rw [dif_pos (show (0 : Fin 3) ∈ (rowDims A B wf).startIndexMap from m0)]
    exact congrArg (fun k => min (idx k).toInt.toNat 15) (hsi 0 Nat.zero_lt_two)
  -- axis 1: the clamped second component, no offset
  have e1 : (rowDims A B wf).start (ix3 a b f) idx 1 + (rowDims A B wf).offCoord (ix3 a b f) 1
      = min (idx (ix3 a b (1 : Fin 2))).toInt.toNat 524287 := by
    rw [GatherDims.offCoord_eq_zero _ _ _ (fun hm => ((GatherDims.mem_sKept _ _).mp hm).1 m1), Nat.add_zero]
    unfold GatherDims.start
    rw [dif_pos (show (1 : Fin 3) ∈ (rowDims A B wf).startIndexMap from m1)]
    exact congrArg (fun k => min (idx k).toInt.toNat 524287) (hsi 1 Nat.one_lt_two)
  -- axis 2: no start, the offset is the result's last coordinate
  have e2 : (rowDims A B wf).start (ix3 a b f) idx 2 + (rowDims A B wf).offCoord (ix3 a b f) 2 = f.val := by
    unfold GatherDims.start
    rw [dif_neg (show (2 : Fin 3) ∉ (rowDims A B wf).startIndexMap from n2), Nat.zero_add]
    unfold GatherDims.offCoord
    rw [dif_pos ((GatherDims.mem_sKept _ _).mpr ⟨n2, List.not_mem_nil⟩)]
    rfl
  unfold Host.gather
  congr 1
  funext ax
  refine Fin.ext ?_
  show (rowDims A B wf).start (ix3 a b f) idx ax + (rowDims A B wf).batchCoord (ix3 a b f) ax
    + (rowDims A B wf).offCoord (ix3 a b f) ax = _
  rw [GatherDims.batchCoord_eq_zero _ _ _ List.not_mem_nil, Nat.add_zero]
  match ax with
  | ⟨0, _⟩ => exact e0
  | ⟨1, _⟩ => exact e1
  | ⟨2, _⟩ => exact e2

/-- The gather read at `(a, b, f)` through `rowAt`: one function of the two start-index words and `f`. -/
theorem gather_row_apply_rowAt {A B w : Nat}
    (wf : GatherDims.WF ⟨3, ![16, 524288, 4]⟩ ⟨3, ![A, B, 2]⟩ ⟨3, ![A, B, 4]⟩ [2] [0, 1] [] [0, 1] [] 2 ![1, 1, 4])
    (x : (⟨3, ![16, 524288, 4]⟩ : Shape).Idx → α) (idx : IVec ⟨3, ![A, B, 2]⟩ w) (a : Fin A) (b : Fin B) (f : Fin 4) :
    Host.gather (rowDims A B wf) x idx (ix3 a b f)
      = x (rowAt (idx (ix3 a b (0 : Fin 2))) (idx (ix3 a b (1 : Fin 2))) f) :=
  gather_row_apply wf x idx a b f

/-! ## Reshapes and a transpose, read at an index -/

/-- `[2097152, 16, 4]` flattened to `[2097152, 64]` reads, at `(b, j)`, the operand at `(b, j / 4, j % 4)`. -/
theorem reshape_Bx16x4_Bx64 (x : (⟨3, ![2097152, 16, 4]⟩ : Shape).Idx → α)
    (h : (⟨3, ![2097152, 16, 4]⟩ : Shape).ShapeCasts ⟨2, ![2097152, 64]⟩) (b : Fin 2097152) (j : Fin 64) :
    shapeCast ⟨2, ![2097152, 64]⟩ x h (ix2 b j)
      = x (ix3 b (⟨j.val / 4, by have := j.isLt; omega⟩ : Fin 16) (⟨j.val % 4, by omega⟩ : Fin 4)) :=
  shapeCast_apply x h _ _ (by
    rw [Shape.rowMajor_val_three, Shape.rowMajor_val_two]
    show (b.val * 16 + j.val / 4) * 4 + j.val % 4 = b.val * 64 + j.val
    omega)

/-- `[2097152, 64]` regrouped as `[1048576, 128]` (two rows per row) reads, at `(n, q)`, the operand at
    `(2 n + q / 64, q % 64)`. -/
theorem reshape_Bx64_Hx128 (x : (⟨2, ![2097152, 64]⟩ : Shape).Idx → α)
    (h : (⟨2, ![2097152, 64]⟩ : Shape).ShapeCasts ⟨2, ![1048576, 128]⟩) (n : Fin 1048576) (q : Fin 128) :
    shapeCast ⟨2, ![1048576, 128]⟩ x h (ix2 n q)
      = x (ix2 (⟨2 * n.val + q.val / 64, by have := n.isLt; have := q.isLt; omega⟩ : Fin 2097152)
          (⟨q.val % 64, by omega⟩ : Fin 64)) :=
  shapeCast_apply x h _ _ (by
    rw [Shape.rowMajor_val_two, Shape.rowMajor_val_two]
    show (2 * n.val + q.val / 64) * 64 + q.val % 64 = n.val * 128 + q.val
    omega)

/-- `[2097152, 16]` regrouped as `[1048576, 32]` (two rows per row) reads, at `(n, k)`, the operand at
    `(2 n + k / 16, k % 16)`. -/
theorem reshape_Bx16_Hx32 (x : (⟨2, ![2097152, 16]⟩ : Shape).Idx → α)
    (h : (⟨2, ![2097152, 16]⟩ : Shape).ShapeCasts ⟨2, ![1048576, 32]⟩) (n : Fin 1048576) (k : Fin 32) :
    shapeCast ⟨2, ![1048576, 32]⟩ x h (ix2 n k)
      = x (ix2 (⟨2 * n.val + k.val / 16, by have := n.isLt; have := k.isLt; omega⟩ : Fin 2097152)
          (⟨k.val % 16, by omega⟩ : Fin 16)) :=
  shapeCast_apply x h _ _ (by
    rw [Shape.rowMajor_val_two, Shape.rowMajor_val_two]
    show (2 * n.val + k.val / 16) * 16 + k.val % 16 = n.val * 32 + k.val
    omega)

/-- `[1048576, 128]` split back into `[2097152, 64]` (each row in two halves) reads, at `(b, j)`, the operand at
    `(b / 2, (b % 2) * 64 + j)`. -/
theorem reshape_Hx128_Bx64 (x : (⟨2, ![1048576, 128]⟩ : Shape).Idx → α)
    (h : (⟨2, ![1048576, 128]⟩ : Shape).ShapeCasts ⟨2, ![2097152, 64]⟩) (b : Fin 2097152) (j : Fin 64) :
    shapeCast ⟨2, ![2097152, 64]⟩ x h (ix2 b j)
      = x (ix2 (⟨b.val / 2, by have := b.isLt; omega⟩ : Fin 1048576)
          (⟨(b.val % 2) * 64 + j.val, by have := j.isLt; omega⟩ : Fin 128)) :=
  shapeCast_apply x h _ _ (by
    rw [Shape.rowMajor_val_two, Shape.rowMajor_val_two]
    show b.val / 2 * 128 + ((b.val % 2) * 64 + j.val) = b.val * 64 + j.val
    omega)

/-- `[16, 2097152, 4]` with its first two axes swapped reads, at `(b, l, f)`, the operand at `(l, b, f)`. -/
theorem transpose_102_apply {A B C : Nat} (x : (⟨3, ![A, B, C]⟩ : Shape).Idx → α)
    (h : (⟨3, ![A, B, C]⟩ : Shape).Transposes [1, 0, 2] ⟨3, ![B, A, C]⟩) (b : Fin B) (l : Fin A) (f : Fin C) :
    transpose ⟨3, ![B, A, C]⟩ [1, 0, 2] x h (ix3 b l f) = x (ix3 l b f) :=
  transpose_apply _ x h _ _ fun c => match c with | ⟨0, _⟩ => rfl | ⟨1, _⟩ => rfl | ⟨2, _⟩ => rfl

/-! ## Composites both programs meet -/

/-- The gather of table rows at a PAIR of index arrays `[A, B]`, each given a trailing unit axis and the two stacked on
    it: result element `(a, b, f)` is the table at the clamped words `i0[a, b]`, `i1[a, b]` and at `f`. -/
theorem gather_pair_apply {A B w : Nat}
    (wf : GatherDims.WF ⟨3, ![16, 524288, 4]⟩ ⟨3, ![A, B, 2]⟩ ⟨3, ![A, B, 4]⟩ [2] [0, 1] [] [0, 1] [] 2 ![1, 1, 4])
    (h0 h1 : (⟨2, ![A, B]⟩ : Shape).BroadcastsInDim ⟨3, ![A, B, 1]⟩ ![0, 1])
    (hc : Shape.Concatenates [(⟨3, ![A, B, 1]⟩ : Shape), ⟨3, ![A, B, 1]⟩] ⟨3, ![A, B, 2]⟩ 2)
    (x : (⟨3, ![16, 524288, 4]⟩ : Shape).Idx → α) (i0 i1 : IVec ⟨2, ![A, B]⟩ w) (a : Fin A) (b : Fin B) (f : Fin 4) :
    Host.gather (rowDims A B wf) x
        (concatenate ⟨3, ![A, B, 2]⟩ 2 [⟨⟨3, ![A, B, 1]⟩, broadcastInDim ⟨3, ![A, B, 1]⟩ ![0, 1] h0 i0⟩,
          ⟨⟨3, ![A, B, 1]⟩, broadcastInDim ⟨3, ![A, B, 1]⟩ ![0, 1] h1 i1⟩] hc) (ix3 a b f)
      = x (rowAt (i0 (ix2 a b)) (i1 (ix2 a b)) f) := by
  rw [gather_row_apply_rowAt, concat_ab1_left, concat_ab1_right, bcast_ab_ab1, bcast_ab_ab1]

/-- `[A, B, 4]` with its first two axes swapped and then its last two axes merged, `[B, 4 A]`, at the literal extents
    `A = 16`, `B = 2097152`: reads, at `(b, j)`, the operand at `(j / 4, b, j % 4)`. -/
theorem reshape_transpose_apply (x : (⟨3, ![16, 2097152, 4]⟩ : Shape).Idx → α)
    (ht : (⟨3, ![16, 2097152, 4]⟩ : Shape).Transposes [1, 0, 2] ⟨3, ![2097152, 16, 4]⟩)
    (hs : (⟨3, ![2097152, 16, 4]⟩ : Shape).ShapeCasts ⟨2, ![2097152, 64]⟩) (b : Fin 2097152) (j : Fin 64) :
    shapeCast ⟨2, ![2097152, 64]⟩ (transpose ⟨3, ![2097152, 16, 4]⟩ [1, 0, 2] x ht) hs (ix2 b j)
      = x (ix3 (⟨j.val / 4, by have := j.isLt; omega⟩ : Fin 16) b (⟨j.val % 4, by omega⟩ : Fin 4)) := by
  rw [reshape_Bx16x4_Bx64, transpose_102_apply]

end Cert.LibLayout

end
-- ==== Proof.LibScatterRows.lean ====
import Idealize.ShloMosaic.PureOps.Ideal
import Idealize.ShloMosaic.PureOps.Ideal.Laws
import Idealize.ShloMosaic.Lib.ValueIdx
import Idealize.ShloMosaic.Lib.Pipeline.Value
noncomputable section
namespace Cert.ScatterRows
open Idealize.ShloMosaic Idealize.ShloMosaic.ValueIdx

/-! ## The result index of a scatter, as an equation per axis -/

/-- An update lands at operand index `i` exactly when, on every axis, its window start plus its window
    coordinate is `i`'s coordinate (as integers: a start is read signed, and a sum outside the operand
    equals no coordinate). -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some_inj]
    constructor
    · intro hh a
      have h1 := h a
      have h2 := congrArg (fun f => (f a).val) hh
      simp only at h2
      omega
    · intro hh
      funext a
      apply Fin.ext
      have := hh a
      simp only
      omega
  · rename_i h
    constructor
    · intro hh; cases hh
    · intro hh
      exfalso; apply h
      intro a
      have := hh a
      have := (i a).isLt
      omega

/-! ## The row scatter's dimension numbers: operand `[N,K]`, indices `[E,1]`, updates `[E,K]`,
    update row `e` added to operand row `idx (e,0)`, column by column -/

section Rows
variable {N E K : Nat}

/-- The operand's axes that are not inserted: the column axis. -/
theorem kept0 : (⟨2, ![N, K]⟩ : Shape).kept [0] = [1] := by
  show (List.finRange 2).filter (· ∉ [0]) = [1]
  decide

variable {w : Nat}
    (wf : ScatterDims.WF (⟨2, ![N, K]⟩ : Shape) (⟨2, ![E, 1]⟩ : Shape) (⟨2, ![E, K]⟩ : Shape) [1] [0] [0] 1)

/-- The row scatter's dimension numbers with their literal lists. -/
abbrev rowDims (wf : ScatterDims.WF (⟨2, ![N, K]⟩ : Shape) (⟨2, ![E, 1]⟩ : Shape) (⟨2, ![E, K]⟩ : Shape) [1] [0] [0] 1) :
    ScatterDims (⟨2, ![N, K]⟩ : Shape) (⟨2, ![E, 1]⟩ : Shape) (⟨2, ![E, K]⟩ : Shape) := ⟨[1], [0], [0], 1, wf⟩

/-- On the row axis (inserted) the window coordinate is zero. -/
theorem window0 (j : (⟨2, ![E, K]⟩ : Shape).Idx) : (rowDims wf).window j 0 = 0 := by
  unfold ScatterDims.window
  rw [dif_neg]
  show ¬ ((0 : Fin 2) ∈ (⟨2, ![N, K]⟩ : Shape).kept [0])
  rw [kept0]
  show ¬ ((0 : Fin 2) ∈ [(1 : Fin 2)])
  decide

/-- On the column axis the window coordinate is the update's column. -/
theorem window1 (j : (⟨2, ![E, K]⟩ : Shape).Idx) : (rowDims wf).window j 1 = (j 1).val := by
  unfold ScatterDims.window
  rw [dif_pos]
  · rfl
  · show ((1 : Fin 2) ∈ (⟨2, ![N, K]⟩ : Shape).kept [0])
    rw [kept0]
    show ((1 : Fin 2) ∈ [(1 : Fin 2)])
    decide

/-- On the column axis (not named by the map) the window starts at zero. -/
theorem start1 (j : (⟨2, ![E, K]⟩ : Shape).Idx) (idx : IVec (⟨2, ![E, 1]⟩ : Shape) w) :
    (rowDims wf).start j idx 1 = 0 := by
  unfold ScatterDims.start
  rw [dif_neg]
  show ¬ ((1 : Fin 2) ∈ [(0 : Fin 2)])
  decide

/-- Update row `e` reads its one start component at scatter-indices element `(e,0)`. -/
theorem siIdx0 (j : (⟨2, ![E, K]⟩ : Shape).Idx) (c : Fin (rowDims wf).scatterDimsToOperandDims.length) :
    (rowDims wf).siIdx j c = ix2 (j 0) (0 : Fin 1) := by
  funext b
  match b with
  | ⟨0, _⟩ => rfl
  | ⟨1, _⟩ =>
    apply Fin.ext
    show c.val = 0
    have h : c.val < 1 := c.isLt
    omega

/-- On the row axis the window starts at the index word of the update's row, read signed. -/
theorem start0 (j : (⟨2, ![E, K]⟩ : Shape).Idx) (idx : IVec (⟨2, ![E, 1]⟩ : Shape) w) :
    (rowDims wf).start j idx 0 = (idx (ix2 (j 0) (0 : Fin 1))).toInt := by
  unfold ScatterDims.start
  rw [dif_pos]
  · exact congrArg (fun t => (idx t).toInt) (siIdx0 wf j _)
  · show ((0 : Fin 2) ∈ [(0 : Fin 2)])
    decide

/-- Update element `(e,c)` lands at operand element `(n,k)` exactly when row `e`'s index word names row `n`
    and the columns agree. -/
theorem resultIdx?_rows (idx : IVec (⟨2, ![E, 1]⟩ : Shape) w) (e : Fin E) (c : Fin K) (n : Fin N) (k : Fin K) :
    (rowDims wf).resultIdx? (ix2 e c) idx = some (ix2 n k)
      ↔ (idx (ix2 e (0 : Fin 1))).toInt = (n.val : Int) ∧ c = k := by
  rw [resultIdx?_eq_some_iff]
  constructor
  · intro h
    have h0 := h 0
    have h1 := h 1
    rw [start0, window0] at h0
    rw [start1, window1] at h1
    have h0' : (idx (ix2 e (0 : Fin 1))).toInt + ((0 : Nat) : Int) = (n.val : Int) := h0
    have h1' : (0 : Int) + (c.val : Int) = (k.val : Int) := h1
    refine ⟨by omega, Fin.ext (by omega)⟩
  · rintro ⟨h0, rfl⟩ a
    match a with
    | ⟨0, _⟩ =>
      show (rowDims wf).start (ix2 e c) idx 0 + ((rowDims wf).window (ix2 e c) 0 : Int) = (n.val : Int)
      rw [start0, window0]
      show (idx (ix2 e (0 : Fin 1))).toInt + ((0 : Nat) : Int) = (n.val : Int)
      omega
    | ⟨1, _⟩ =>
      show (rowDims wf).start (ix2 e c) idx 1 + ((rowDims wf).window (ix2 e c) 1 : Int) = (c.val : Int)
      rw [start1, window1]
      show (0 : Int) + (c.val : Int) = (c.val : Int)
      omega

end Rows

/-- A row scatter-add read at an index: operand element (n,k) plus the sum, over the update rows e whose index word names row n, of update element (e,k). -/
theorem scatterAdd_rows_apply {N E K : Nat} {φ : FTy} {w : Nat}
    (d : ScatterDims (⟨2, ![N, K]⟩ : Shape) (⟨2, ![E, 1]⟩ : Shape) (⟨2, ![E, K]⟩ : Shape))
    (huw : d.updateWindowDims = [1]) (hiw : d.insertedWindowDims = [0])
    (hsd : d.scatterDimsToOperandDims = [0]) (hiv : d.indexVectorDim = 1)
    (x : FVec Ideal (⟨2, ![N, K]⟩ : Shape) φ) (idx : IVec (⟨2, ![E, 1]⟩ : Shape) w)
    (upd : FVec Ideal (⟨2, ![E, K]⟩ : Shape) φ) (n : Fin N) (k : Fin K) :
    Host.scatterAdd d x idx upd (ix2 n k)
      = x (ix2 n k) + ∑ e : Fin E, if (idx (ix2 e (0 : Fin 1))).toInt = (n.val : Int) then upd (ix2 e k) else 0 := by
  obtain ⟨uw, iw, sd, iv, wf⟩ := d
  simp only at huw hiw hsd hiv
  subst huw hiw hsd hiv
  unfold Host.scatterAdd
  rw [Ideal.hostScatterAdd_def]
  unfold Ideal.hostScatterAdd
  congr 1
  rw [Finset.sum_filter, sum_idx2]
  refine Finset.sum_congr rfl fun e _ => ?_
  by_cases h : (idx (ix2 e (0 : Fin 1))).toInt = (n.val : Int)
  · rw [if_pos h, Finset.sum_eq_single k]
    · rw [if_pos ((resultIdx?_rows wf idx e k n k).2 ⟨h, rfl⟩)]
    · intro c _ hc
      rw [if_neg (fun hh => hc ((resultIdx?_rows wf idx e c n k).1 hh).2)]
    · intro hk; exact absurd (Finset.mem_univ k) hk
  · rw [if_neg h]
    refine Finset.sum_eq_zero fun c _ => ?_
    rw [if_neg (fun hh => h ((resultIdx?_rows wf idx e c n k).1 hh).1)]

/-! ## One 16-column row scatter against two 8-column ones -/

/-- One scatter-add of rows joined from two 8-column halves is the join of the halves' scatter-adds (bases constant z). -/
theorem scatterAdd_concat_cols
    (dW : ScatterDims (⟨2, ![500000, 16]⟩ : Shape) (⟨2, ![16000000, 1]⟩ : Shape) (⟨2, ![16000000, 16]⟩ : Shape))
    (hW : dW.updateWindowDims = [1] ∧ dW.insertedWindowDims = [0] ∧ dW.scatterDimsToOperandDims = [0] ∧ dW.indexVectorDim = 1)
    (dH : ScatterDims (⟨2, ![500000, 8]⟩ : Shape) (⟨2, ![16000000, 1]⟩ : Shape) (⟨2, ![16000000, 8]⟩ : Shape))
    (hH : dH.updateWindowDims = [1] ∧ dH.insertedWindowDims = [0] ∧ dH.scatterDimsToOperandDims = [0] ∧ dH.indexVectorDim = 1)
    (hcE : Shape.Concatenates [(⟨2, ![16000000, 8]⟩ : Shape), (⟨2, ![16000000, 8]⟩ : Shape)] (⟨2, ![16000000, 16]⟩ : Shape) 1)
    (hcN : Shape.Concatenates [(⟨2, ![500000, 8]⟩ : Shape), (⟨2, ![500000, 8]⟩ : Shape)] (⟨2, ![500000, 16]⟩ : Shape) 1)
    (z : EReal) (xW : FVec Ideal (⟨2, ![500000, 16]⟩ : Shape) .f32) (xa xb : FVec Ideal (⟨2, ![500000, 8]⟩ : Shape) .f32)
    (hxW : ∀ i, xW i = z) (hxa : ∀ i, xa i = z) (hxb : ∀ i, xb i = z)
    (idx : IVec (⟨2, ![16000000, 1]⟩ : Shape) 32) (g ea : FVec Ideal (⟨2, ![16000000, 8]⟩ : Shape) .f32) :
    Host.scatterAdd dW xW idx (concatenate (⟨2, ![16000000, 16]⟩ : Shape) 1 [⟨(⟨2, ![16000000, 8]⟩ : Shape), g⟩, ⟨(⟨2, ![16000000, 8]⟩ : Shape), ea⟩] hcE)
      = concatenate (⟨2, ![500000, 16]⟩ : Shape) 1 [⟨(⟨2, ![500000, 8]⟩ : Shape), Host.scatterAdd dH xa idx g⟩, ⟨(⟨2, ![500000, 8]⟩ : Shape), Host.scatterAdd dH xb idx ea⟩] hcN := by
  obtain ⟨hW1, hW2, hW3, hW4⟩ := hW
  obtain ⟨hH1, hH2, hH3, hH4⟩ := hH
  funext i
  obtain ⟨n, b, rfl⟩ : ∃ (n : Fin 500000) (b : Fin 16), i = ix2 n b := ⟨i 0, i 1, eq_ix2 i⟩
  refine (scatterAdd_rows_apply dW hW1 hW2 hW3 hW4 xW idx _ n b).trans ?_
  by_cases hb : b.val < 8
  · -- a column of the first half
    refine Eq.trans ?_ (concatenate_pair_apply_left (1 : Fin 2) (Host.scatterAdd dH xa idx g) (Host.scatterAdd dH xb idx ea) hcN (ix2 n b) rfl (ix2 n (⟨b.val, hb⟩ : Fin 8))
      (fun b' => match b' with | ⟨0, _⟩ => rfl | ⟨1, _⟩ => rfl)).symm
    refine Eq.trans ?_ (scatterAdd_rows_apply dH hH1 hH2 hH3 hH4 xa idx g n (⟨b.val, hb⟩ : Fin 8)).symm
    rw [hxW, hxa]
    refine congrArg (fun t => z + t) ?_
    refine Finset.sum_congr rfl fun e _ => ?_
    rw [concatenate_pair_apply_left (1 : Fin 2) g ea hcE (ix2 e b) rfl (ix2 e (⟨b.val, hb⟩ : Fin 8))
      (fun b' => match b' with | ⟨0, _⟩ => rfl | ⟨1, _⟩ => rfl)]
  · -- a column of the second half
    have hb16 : b.val < 16 := b.isLt
    have hb' : b.val - 8 < 8 := by omega
    refine Eq.trans ?_ (concatenate_pair_apply_right (1 : Fin 2) (Host.scatterAdd dH xa idx g) (Host.scatterAdd dH xb idx ea) hcN (ix2 n b) rfl rfl (ix2 n (⟨b.val - 8, hb'⟩ : Fin 8))
      (fun b' hne => match b', hne with | ⟨0, _⟩, _ => rfl | ⟨1, _⟩, hne => absurd rfl hne)
      (show (b.val - 8) + 8 = b.val by omega)).symm
    refine Eq.trans ?_ (scatterAdd_rows_apply dH hH1 hH2 hH3 hH4 xb idx ea n (⟨b.val - 8, hb'⟩ : Fin 8)).symm
    rw [hxW, hxb]
    refine congrArg (fun t => z + t) ?_
    refine Finset.sum_congr rfl fun e _ => ?_
    rw [concatenate_pair_apply_right (1 : Fin 2) g ea hcE (ix2 e b) rfl rfl (ix2 e (⟨b.val - 8, hb'⟩ : Fin 8))
      (fun b' hne => match b', hne with | ⟨0, _⟩, _ => rfl | ⟨1, _⟩, hne => absurd rfl hne)
      (show (b.val - 8) + 8 = b.val by omega)]

end Cert.ScatterRows
-- ==== Proof.LibScatterVec.lean ====
import Idealize.ShloMosaic.PureOps.Ideal
import Idealize.ShloMosaic.Lib.ValueIdx
import Idealize.ShloMosaic.Lib.Pipeline.Value
import proofs.«113936_j65163243815283_2_alg».proof.Proof.LibScatterRows
noncomputable section
namespace Cert.ScatterVec
open Idealize.ShloMosaic Idealize.ShloMosaic.ValueIdx

/-! ## Sums over a rank-1 index set -/

/-- A rank-1 index set is its coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The vector scatter's dimension numbers: operand `[N]`, indices `[E,1]`, updates `[E]`,
    update `e` added to the operand element named by the index word at `(e,0)` -/

section Vec
variable {N E : Nat}

/-- The operand's one axis is inserted: no axis is kept. -/
theorem kept0 : (⟨1, ![N]⟩ : Shape).kept [0] = [] := by
  show (List.finRange 1).filter (· ∉ [0]) = []
  decide

variable {w : Nat}
    (wf : ScatterDims.WF (⟨1, ![N]⟩ : Shape) (⟨2, ![E, 1]⟩ : Shape) (⟨1, ![E]⟩ : Shape) [] [0] [0] 1)

/-- The vector scatter's dimension numbers with their literal lists. -/
abbrev vecDims (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) := ⟨[], [0], [0], 1, wf⟩

/-- On the operand's axis (inserted) the window coordinate is zero. -/
theorem window0 (j : (⟨1, ![E]⟩ : Shape).Idx) : (vecDims wf).window j 0 = 0 := by
  unfold ScatterDims.window
  rw [dif_neg]
  show ¬ ((0 : Fin 1) ∈ (⟨1, ![N]⟩ : Shape).kept [0])
  rw [kept0]
  exact List.not_mem_nil

/-- Update `e` reads its one start component at scatter-indices element `(e,0)`. -/
theorem siIdx0 (j : (⟨1, ![E]⟩ : Shape).Idx) (c : Fin (vecDims wf).scatterDimsToOperandDims.length) :
    (vecDims wf).siIdx j c = ix2 (j 0) (0 : Fin 1) := by
  funext b
  match b with
  | ⟨0, _⟩ => rfl
  | ⟨1, _⟩ =>
    apply Fin.ext
    show c.val = 0
    have h : c.val < 1 := c.isLt
    omega

/-- On the operand's axis the window starts at the update's index word, read signed. -/
theorem start0 (j : (⟨1, ![E]⟩ : Shape).Idx) (idx : IVec (⟨2, ![E, 1]⟩ : Shape) w) :
    (vecDims wf).start j idx 0 = (idx (ix2 (j 0) (0 : Fin 1))).toInt := by
  unfold ScatterDims.start
  rw [dif_pos]
  · exact congrArg (fun t => (idx t).toInt) (siIdx0 wf j _)
  · show ((0 : Fin 1) ∈ [(0 : Fin 1)])
    decide

/-- Update `e` lands at operand element `n` exactly when its index word names `n`. -/
theorem resultIdx?_vec (idx : IVec (⟨2, ![E, 1]⟩ : Shape) w) (e : Fin E) (n : Fin N) :
    (vecDims wf).resultIdx? (ix1 e) idx = some (ix1 n) ↔ (idx (ix2 e (0 : Fin 1))).toInt = (n.val : Int) := by
  rw [Cert.ScatterRows.resultIdx?_eq_some_iff]
  constructor
  · intro h
    have h0 := h 0
    rw [start0, window0] at h0
    have h0' : (idx (ix2 e (0 : Fin 1))).toInt + ((0 : Nat) : Int) = (n.val : Int) := h0
    omega
  · intro h0 a
    match a with
    | ⟨0, _⟩ =>
      show (vecDims wf).start (ix1 e) idx 0 + ((vecDims wf).window (ix1 e) 0 : Int) = (n.val : Int)
      rw [start0, window0]
      show (idx (ix2 e (0 : Fin 1))).toInt + ((0 : Nat) : Int) = (n.val : Int)
      omega

end Vec

/-- A vector scatter-add read at an index: operand element n plus the sum, over the updates e whose index word names n, of update element e. -/
theorem scatterAdd_vec_apply {N E : Nat} {φ : FTy} {w : Nat}
    (d : ScatterDims (⟨1, ![N]⟩ : Shape) (⟨2, ![E, 1]⟩ : Shape) (⟨1, ![E]⟩ : Shape))
    (huw : d.updateWindowDims = []) (hiw : d.insertedWindowDims = [0]) (hsd : d.scatterDimsToOperandDims = [0]) (hiv : d.indexVectorDim = 1)
    (x : FVec Ideal (⟨1, ![N]⟩ : Shape) φ) (idx : IVec (⟨2, ![E, 1]⟩ : Shape) w) (upd : FVec Ideal (⟨1, ![E]⟩ : Shape) φ) (n : Fin N) :
    Host.scatterAdd d x idx upd (ix1 n) = x (ix1 n) + ∑ e : Fin E, if (idx (ix2 e (0 : Fin 1))).toInt = (n.val : Int) then upd (ix1 e) else 0 := by
  obtain ⟨uw, iw, sd, iv, wf⟩ := d
  simp only at huw hiw hsd hiv
  subst huw hiw hsd hiv
  unfold Host.scatterAdd
  rw [Ideal.hostScatterAdd_def]
  unfold Ideal.hostScatterAdd
  congr 1
  rw [Finset.sum_filter, sum_idx1]
  refine Finset.sum_congr rfl fun e _ => ?_
  by_cases h : (idx (ix2 e (0 : Fin 1))).toInt = (n.val : Int)
  · rw [if_pos h, if_pos ((resultIdx?_vec wf idx e n).2 h)]
  · rw [if_neg h, if_neg (fun hh => h ((resultIdx?_vec wf idx e n).1 hh))]

end Cert.ScatterVec
-- ==== Proof.LibGatherRows.lean ====
import Idealize.ShloMosaic.PureOps.Ideal
import Idealize.ShloMosaic.Lib.ValueIdx
import Idealize.ShloMosaic.Lib.Pipeline.Value
noncomputable section
namespace Cert.GatherRows
open Idealize.ShloMosaic Idealize.ShloMosaic.ValueIdx

/-! ## The row gather's dimension numbers: operand `[N,K]`, start indices `[E,1]`, result `[E,K]`;
    result row `e` is the operand row named by the index word at `(e,0)`, clamped into the operand -/

section Rows
variable {N E K : Nat}

/-- The operand's axes that are neither collapsed nor batching: the column axis. -/
theorem kept0 : (⟨2, ![N, K]⟩ : Shape).kept ([0] ++ []) = [1] := by
  show (List.finRange 2).filter (· ∉ [0] ++ []) = [1]
  decide

variable {w : Nat}
    (wf : GatherDims.WF (⟨2, ![N, K]⟩ : Shape) (⟨2, ![E, 1]⟩ : Shape) (⟨2, ![E, K]⟩ : Shape) [1] [0] [] [0] [] 1 ![1, K])

/-- The row gather's dimension numbers with their literal lists. -/
abbrev rowDims
    (wf : GatherDims.WF (⟨2, ![N, K]⟩ : Shape) (⟨2, ![E, 1]⟩ : Shape) (⟨2, ![E, K]⟩ : Shape) [1] [0] [] [0] [] 1 ![1, K]) :
    GatherDims (⟨2, ![N, K]⟩ : Shape) (⟨2, ![E, 1]⟩ : Shape) (⟨2, ![E, K]⟩ : Shape) :=
  ⟨[1], [0], [], [], [0], 1, ![1, K], wf⟩

/-- The row axis is collapsed: it is not among the kept axes. -/
theorem not_mem_sKept0 : ¬ ((0 : Fin 2) ∈ (rowDims wf).sKept) := by
  show ¬ ((0 : Fin 2) ∈ (⟨2, ![N, K]⟩ : Shape).kept ([0] ++ []))
  rw [kept0]
  show ¬ ((0 : Fin 2) ∈ [(1 : Fin 2)])
  decide

/-- The column axis is kept. -/
theorem mem_sKept1 : (1 : Fin 2) ∈ (rowDims wf).sKept := by
  show ((1 : Fin 2) ∈ (⟨2, ![N, K]⟩ : Shape).kept ([0] ++ []))
  rw [kept0]
  show ((1 : Fin 2) ∈ [(1 : Fin 2)])
  decide

/-- Result row `e` reads its one start component at start-indices element `(e,0)`. -/
theorem siIdx0 (j : (⟨2, ![E, K]⟩ : Shape).Idx) (c : Fin (rowDims wf).startIndexMap.length) :
    (rowDims wf).siIdx j c = ix2 (j 0) (0 : Fin 1) := by
  funext b
  match b with
  | ⟨0, _⟩ => rfl
  | ⟨1, _⟩ =>
    apply Fin.ext
    show c.val = 0
    have h : c.val < 1 := c.isLt
    omega

/-- On the row axis the slice starts at the index word of the result's row, read signed and clamped
    into `[0, N − 1]` (the operand's extent minus the slice size one). -/
theorem start0 (j : (⟨2, ![E, K]⟩ : Shape).Idx) (idx : IVec (⟨2, ![E, 1]⟩ : Shape) w) :
    (rowDims wf).start j idx 0 = min (idx (ix2 (j 0) (0 : Fin 1))).toInt.toNat (N - 1) := by
  unfold GatherDims.start
  rw [dif_pos (show (0 : Fin 2) ∈ [(0 : Fin 2)] from List.mem_singleton.mpr rfl)]
  rw [siIdx0]
  rfl

/-- On the column axis (not named by the start index map) the slice starts at zero. -/
theorem start1 (j : (⟨2, ![E, K]⟩ : Shape).Idx) (idx : IVec (⟨2, ![E, 1]⟩ : Shape) w) :
    (rowDims wf).start j idx 1 = 0 := by
  unfold GatherDims.start
  rw [dif_neg]
  show ¬ ((1 : Fin 2) ∈ [(0 : Fin 2)])
  decide

/-- On the column axis the offset coordinate is the result's column. -/
theorem offCoord1 (j : (⟨2, ![E, K]⟩ : Shape).Idx) : (rowDims wf).offCoord j 1 = (j 1).val := by
  unfold GatherDims.offCoord
  rw [dif_pos (mem_sKept1 wf)]
  rfl

end Rows

/-- THE ROW GATHER READ AT `(e, k)`: the operand at the row named by the index word at `(e,0)`, read signed
    and clamped into `[0, N − 1]`, and at the column `k`. -/
theorem gather_rows_apply {α : Type} {N E K w : Nat} (hN : 0 < N)
    (d : GatherDims (⟨2, ![N, K]⟩ : Shape) (⟨2, ![E, 1]⟩ : Shape) (⟨2, ![E, K]⟩ : Shape))
    (hod : d.offsetDims = [1]) (hcs : d.collapsedSliceDims = [0]) (hob : d.operandBatchingDims = [])
    (hsb : d.startIndicesBatchingDims = []) (hsm : d.startIndexMap = [0]) (hiv : d.indexVectorDim = 1) (hss : d.sliceSizes = ![1, K])
    (x : (⟨2, ![N, K]⟩ : Shape).Idx → α) (idx : IVec (⟨2, ![E, 1]⟩ : Shape) w) (e : Fin E) (k : Fin K) :
    Host.gather d x idx (ix2 e k) = x (ix2 (⟨min (idx (ix2 e (0 : Fin 1))).toInt.toNat (N - 1), by omega⟩ : Fin N) k) := by
  obtain ⟨od, cd, ob, sb, sm, iv, ss, wf⟩ := d
  simp only at hod hcs hob hsb hsm hiv hss
  subst hod hcs hob hsb hsm hiv hss
  unfold Host.gather
  congr 1
  funext a
  refine Fin.ext ?_
  match a with
  | ⟨0, _⟩ =>
    show (rowDims wf).start (ix2 e k) idx 0 + (rowDims wf).batchCoord (ix2 e k) 0 + (rowDims wf).offCoord (ix2 e k) 0
      = min (idx (ix2 e (0 : Fin 1))).toInt.toNat (N - 1)
    rw [GatherDims.batchCoord_eq_zero _ _ _ List.not_mem_nil, GatherDims.offCoord_eq_zero _ _ _ (not_mem_sKept0 wf), start0]
    rfl
  | ⟨1, _⟩ =>
    show (rowDims wf).start (ix2 e k) idx 1 + (rowDims wf).batchCoord (ix2 e k) 1 + (rowDims wf).offCoord (ix2 e k) 1
      = k.val
    rw [GatherDims.batchCoord_eq_zero _ _ _ List.not_mem_nil, start1, offCoord1]
    show 0 + 0 + k.val = k.val
    omega

end Cert.GatherRows
-- ==== Proof.KAlg.lean ====
/-
  The two-call program's host-side stages read at an index.

  The reciprocal column at (n,0) is one over the degree at n; a bias row at (0,j) is the bias at j; the degree raised to
  at least one is a nonzero real; an aggregated array at (n,k) is the sum, from zero, over the edges whose destination
  names n of the source row's entry in column k.
-/
import proofs.«113936_j65163243815283_2_alg».proof.Proof.KTerm
import proofs.«113936_j65163243815283_2_alg».proof.Proof.Spec
import proofs.«113936_j65163243815283_2_alg».proof.Proof.Law
import proofs.«113936_j65163243815283_2_alg».proof.Proof.LibLayout
import proofs.«113936_j65163243815283_2_alg».proof.Proof.LibScatterRows
import proofs.«113936_j65163243815283_2_alg».proof.Proof.LibScatterVec
import proofs.«113936_j65163243815283_2_alg».proof.Proof.LibGatherRows
import Idealize.ShloMosaic.Lib.ValueIdx
import Idealize.ShloMosaic.Lib.ValueLayout
import Idealize.ShloMosaic.Lib.Pipeline.Value
import Idealize.ShloMosaic.PureOps.Ideal.Laws

noncomputable section

namespace Cert.KAlg

open Cert.KernelIdeal Cert.KernelIdeal.Facts₀ Cert.KernelIdeal.Facts Idealize.ShloMosaic Idealize.ShloMosaic.ValueIdx Cert.Sage

variable [Cert.KernelIdeal.Facts]

/-- A bias cast to a row reads, at (0, j), the bias at j. -/
theorem b1rT_apply (b1 : FVec Ideal S256 .f32) (j : Fin 256) : Cert.KTerm.b1rT b1 (ix2 (0 : Fin 1) j) = b1 (ix1 j) := by
  unfold Cert.KTerm.b1rT
  exact shapeCast_a_1a_apply b1 _ 0 j

theorem b2rT_apply (b2 : FVec Ideal S40 .f32) (c : Fin 40) : Cert.KTerm.b2rT b2 (ix2 (0 : Fin 1) c) = b2 (ix1 c) := by
  unfold Cert.KTerm.b2rT
  exact shapeCast_a_1a_apply b2 _ 0 c

/-- The in-degree is a real number: a sum, from zero, of ones. -/
theorem deg_real (dsti : IVec S800000x1 32) (n : Fin 50000) :
    Law.IsReal (Host.scatterAdd scatter_S50000_S800000x1_S800000_n_0_0_1
      (broadcastInDim S50000 ![] bcast_S_S50000 (constant (F := Ideal) S_ .f32 0x00000000#32)) dsti
      (broadcastInDim S800000 ![] bcast_S_S800000 (constant (F := Ideal) S_ .f32 0x3F800000#32)) (ix1 n)) := by
  rw [Cert.ScatterVec.scatterAdd_vec_apply scatter_S50000_S800000x1_S800000_n_0_0_1 rfl rfl rfl rfl]
  refine Law.IsReal.add ?_ (Law.IsReal.sum _ _ fun e _ => ?_)
  · rw [Cert.LibLayout.bcast_scalar]
    show Law.IsReal z0
    rw [Law.z0_eq]; exact Law.isReal_zero
  · split
    · rw [Cert.LibLayout.bcast_scalar]
      show Law.IsReal o1
      rw [Law.o1_eq]; exact Law.isReal_coe 1
    · exact Law.isReal_zero

/-- The degree raised to at least one is a nonzero real. -/
theorem dmax_fact (dsti : IVec S800000x1 32) (n : Fin 50000) :
    ∃ d : ℝ, d ≠ 0 ∧ Cert.KTerm.dmaxT dsti (ix1 n) = (d : EReal) := by
  have h : Cert.KTerm.dmaxT dsti (ix1 n)
      = max (Host.scatterAdd scatter_S50000_S800000x1_S800000_n_0_0_1
          (broadcastInDim S50000 ![] bcast_S_S50000 (constant (F := Ideal) S_ .f32 0x00000000#32)) dsti
          (broadcastInDim S800000 ![] bcast_S_S800000 (constant (F := Ideal) S_ .f32 0x3F800000#32)) (ix1 n)) o1 := by
    unfold Cert.KTerm.dmaxT
    rw [maximumf_apply, Cert.LibLayout.bcast_scalar]
    rfl
  rw [h]
  exact Law.dmax_real (deg_real dsti n)

/-- A host division reads pointwise. -/
theorem hostDivf_apply {s : Shape} (a b : FVec Ideal s .f32) (i : s.Idx) : Host.divf (F := Ideal) a b i = Ideal.div (a i) (b i) := rfl

/-- The reciprocal column at (n, 0) is one over the degree at n. -/
theorem invT_apply (dsti : IVec S800000x1 32) (n : Fin 50000) :
    Cert.KTerm.invT dsti (ix2 n (0 : Fin 1)) = Ideal.div o1 (Cert.KTerm.dmaxT dsti (ix1 n)) := by
  unfold Cert.KTerm.invT
  refine (Cert.LibLayout.bcast_n_n1 bcast_S50000_S50000x1_0 _ n (0 : Fin 1)).trans ?_
  refine (hostDivf_apply _ _ (ix1 n)).trans ?_
  refine congrArg (fun t => Ideal.div t (Cert.KTerm.dmaxT dsti (ix1 n))) ?_
  exact (Cert.LibLayout.bcast_scalar _ _ _ _ _).trans rfl

/-- A gathered row: the operand's row at the clamped source index, column by column. -/
theorem gather256_apply (h : FVec Ideal S50000x256 .f32) (srci : IVec S800000x1 32) (e : Fin 800000) (k : Fin 256) :
    Host.gather gather_S50000x256_S800000x1_S800000x256_1_0_n_n_0_1_1256 h srci (ix2 e k) = h (ix2 (rowOf srci e) k) :=
  Cert.GatherRows.gather_rows_apply (by decide) gather_S50000x256_S800000x1_S800000x256_1_0_n_n_0_1_1256 rfl rfl rfl rfl rfl rfl rfl h srci e k

theorem gather40_apply (p : FVec Ideal S50000x40 .f32) (srci : IVec S800000x1 32) (e : Fin 800000) (c : Fin 40) :
    Host.gather gather_S50000x40_S800000x1_S800000x40_1_0_n_n_0_1_140 p srci (ix2 e c) = p (ix2 (rowOf srci e) c) :=
  Cert.GatherRows.gather_rows_apply (by decide) gather_S50000x40_S800000x1_S800000x40_1_0_n_n_0_1_140 rfl rfl rfl rfl rfl rfl rfl p srci e c

/-- The aggregated 256-column array at (n, k). -/
theorem aggT_apply (h : FVec Ideal S50000x256 .f32) (dsti srci : IVec S800000x1 32) (n : Fin 50000) (k : Fin 256) :
    Cert.KTerm.aggT h dsti srci (ix2 n k) = segsum dsti srci (fun r => h (ix2 r k)) n := by
  unfold Cert.KTerm.aggT segsum
  refine (Cert.ScatterRows.scatterAdd_rows_apply scatter_S50000x256_S800000x1_S800000x256_1_0_0_1 rfl rfl rfl rfl _ dsti _ n k).trans ?_
  rw [Cert.LibLayout.bcast_scalar]
  refine congrArg (fun t => z0 + t) ?_
  refine Finset.sum_congr rfl fun e _ => ?_
  rw [gather256_apply]

/-- The aggregated 40-column array at (n, c). -/
theorem agg40T_apply (p : FVec Ideal S50000x40 .f32) (dsti srci : IVec S800000x1 32) (n : Fin 50000) (c : Fin 40) :
    Cert.KTerm.agg40T p dsti srci (ix2 n c) = segsum dsti srci (fun r => p (ix2 r c)) n := by
  unfold Cert.KTerm.agg40T segsum
  refine (Cert.ScatterRows.scatterAdd_rows_apply scatter_S50000x40_S800000x1_S800000x40_1_0_0_1 rfl rfl rfl rfl _ dsti _ n c).trans ?_
  rw [Cert.LibLayout.bcast_scalar]
  refine congrArg (fun t => z0 + t) ?_
  refine Finset.sum_congr rfl fun e _ => ?_
  rw [gather40_apply]

end Cert.KAlg

end
-- ==== Proof.RefTerm.lean ====
/-
  The reference program's result as one term of its argument arrays, in named stages.

  The head stages are shared by both layers: the destination and source index columns of the edge list, the aggregated
  input rows, and the in-degree raised to at least one.  `tail` is everything after them: both layers' divisions,
  products, biases and the activation, as a function of the head stages and the weights.
-/
import proofs.«113936_j65163243815283_2_alg».proof.ReferenceIdeal
import Idealize.ShloMosaic.PureOps.Ideal

noncomputable section

namespace Cert.RefTerm

open Cert.ReferenceIdeal Idealize.ShloMosaic

variable [Cert.ReferenceIdeal.Facts]
open Cert.ReferenceIdeal.Facts₀ Cert.ReferenceIdeal.Facts

/-- The destination index column: row 1 of the edge list, as `[800000, 1]`. -/
def dstT (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

/-- Row 0 of the edge list, flat. -/
def src1T (ei : IVec S2x800000 32) : IVec S800000 32 :=
  shapeCast S800000 (extractStridedSlice S1x800000 ![0, 0] ei slices_S2x800000_S1x800000_0_0) shapeCasts_S1x800000_S800000

/-- The source index column: a negative index word raised by the node count, as `[800000, 1]`. -/
def srcT (ei : IVec S2x800000 32) : IVec S800000x1 32 :=
  broadcastInDim S800000x1 ![0] bcast_S800000_S800000x1_0
    (select (cmpi .slt (src1T ei) (broadcastInDim S800000 ![] bcast_S_S800000 (constantI S_ 32 0#32)))
      (addi (src1T ei) (broadcastInDim S800000 ![] bcast_S_S800000 (constantI S_ 32 50000#32))) (src1T ei))

/-- The aggregated rows of `h`: its rows gathered at the sources and added into zero at the destinations. -/
def aggT (h : FVec Ideal S50000x256 .f32) (dsti srci : IVec S800000x1 32) : FVec Ideal S50000x256 .f32 :=
  Host.scatterAdd scatter_S50000x256_S800000x1_S800000x256_1_0_0_1
    (broadcastInDim S50000x256 ![] bcast_S_S50000x256 (constant (F := Ideal) S_ .f32 0x00000000#32)) dsti
    (Host.gather gather_S50000x256_S800000x1_S800000x256_1_0_n_n_0_1_1256 h srci)

/-- The in-degree (ones added into zero at the destinations) raised to at least one. -/
def dmaxT (dsti : IVec S800000x1 32) : FVec Ideal S50000 .f32 :=
  maximumf
    (Host.scatterAdd scatter_S50000_S800000x1_S800000_n_0_0_1
      (broadcastInDim S50000 ![] bcast_S_S50000 (constant (F := Ideal) S_ .f32 0x00000000#32)) dsti
      (broadcastInDim S800000 ![] bcast_S_S800000 (constant (F := Ideal) S_ .f32 0x3F800000#32)))
    (broadcastInDim S50000 ![] bcast_S_S50000 (constant (F := Ideal) S_ .f32 0x3F800000#32))

/-- An aggregated array divided row by row by the degree. -/
def meanT (A : FVec Ideal S50000x256 .f32) (D : FVec Ideal S50000 .f32) : FVec Ideal S50000x256 .f32 :=
  Host.divf (F := Ideal) A
    (broadcastInDim S50000x256 ![0, 1] bcast_S50000x1_S50000x256_0_1 (broadcastInDim S50000x1 ![0] bcast_S50000_S50000x1_0 D))

/-- The first layer before the activation. -/
def pre1T (A : FVec Ideal S50000x256 .f32) (D : FVec Ideal S50000 .f32) (x : FVec Ideal S50000x256 .f32)
    (W1l : FVec Ideal S256x256 .f32) (b1 : FVec Ideal S256 .f32) (W1r : FVec Ideal S256x256 .f32) : FVec Ideal S50000x256 .f32 :=
  addf
    (addf (Host.dotGeneral (F := Ideal) dot_S50000x256_S256x256_S50000x256_1_0_0_1_n_n none (meanT A D) W1l)
      (broadcastInDim S50000x256 ![0, 1] bcast_S1x256_S50000x256_0_1 (broadcastInDim S1x256 ![1] bcast_S256_S1x256_1 b1)))
    (Host.dotGeneral (F := Ideal) dot_S50000x256_S256x256_S50000x256_1_0_0_1_n_n none x W1r)

/-- The activation as the program spells it: x where x > 0, else 1 · (exp(clamped x) − 1). -/
def actT (a : FVec Ideal S50000x256 .f32) : FVec Ideal S50000x256 .f32 :=
  select (cmpf .ogt a (broadcastInDim S50000x256 ![] bcast_S_S50000x256 (constant (F := Ideal) S_ .f32 0x00000000#32))) a
    (mulf (broadcastInDim S50000x256 ![] bcast_S_S50000x256 (constant (F := Ideal) S_ .f32 0x3F800000#32))
      (Host.expm1 (F := Ideal)
        (select (cmpf .ogt a (broadcastInDim S50000x256 ![] bcast_S_S50000x256 (constant (F := Ideal) S_ .f32 0x00000000#32)))
          (broadcastInDim S50000x256 ![] bcast_S_S50000x256 (id (constant (F := Ideal) S_ .f32 0x00000000#32))) a)))

/-- The second layer from the hidden array. -/
def out2T (h : FVec Ideal S50000x256 .f32) (D : FVec Ideal S50000 .f32) (dsti srci : IVec S800000x1 32)
    (W2l : FVec Ideal S256x40 .f32) (b2 : FVec Ideal S40 .f32) (W2r : FVec Ideal S256x40 .f32) : FVec Ideal S50000x40 .f32 :=
  addf
    (addf (Host.dotGeneral (F := Ideal) dot_S50000x256_S256x40_S50000x40_1_0_0_1_n_n none (meanT (aggT h dsti srci) D) W2l)
      (broadcastInDim S50000x40 ![0, 1] bcast_S1x40_S50000x40_0_1 (broadcastInDim S1x40 ![1] bcast_S40_S1x40_1 b2)))
    (Host.dotGeneral (F := Ideal) dot_S50000x256_S256x40_S50000x40_1_0_0_1_n_n none h W2r)

/-- Everything after the head stages. -/
def tail (A : FVec Ideal S50000x256 .f32) (D : FVec Ideal S50000 .f32) (dsti srci : IVec S800000x1 32)
    (x : FVec Ideal S50000x256 .f32) (W1l : FVec Ideal S256x256 .f32) (b1 : FVec Ideal S256 .f32) (W1r : FVec Ideal S256x256 .f32)
    (W2l : FVec Ideal S256x40 .f32) (b2 : FVec Ideal S40 .f32) (W2r : FVec Ideal S256x40 .f32) : FVec Ideal S50000x40 .f32 :=
  out2T (actT (pre1T A D x W1l b1 W1r)) D dsti srci W2l b2 W2r

/-- The whole result from the arguments. -/
def out (x : FVec Ideal S50000x256 .f32) (ei : IVec S2x800000 32) (W1l : FVec Ideal S256x256 .f32) (b1 : FVec Ideal S256 .f32)
    (W1r : FVec Ideal S256x256 .f32) (W2l : FVec Ideal S256x40 .f32) (b2 : FVec Ideal S40 .f32) (W2r : FVec Ideal S256x40 .f32) :
    FVec Ideal S50000x40 .f32 :=
  tail (aggT x (dstT ei) (srcT ei)) (dmaxT (dstT ei)) (dstT ei) (srcT ei) x W1l b1 W1r W2l b2 W2r

end Cert.RefTerm

end
-- ==== Proof.RefRead.lean ====
/-
  The reference's composed term read at an index.

  Each stage of the two-layer mean-aggregating graph convolution — the row-by-row division by the degree, the two
  products, the bias rows, the activation, the aggregation over the edge list — read at coordinates is the formula
  the index-by-index specification writes for it; composing the stages gives the second layer's value at (n, c).
-/
import proofs.«113936_j65163243815283_2_alg».proof.Proof.RefTerm
import proofs.«113936_j65163243815283_2_alg».proof.Proof.Spec
import proofs.«113936_j65163243815283_2_alg».proof.Proof.LibLayout
import proofs.«113936_j65163243815283_2_alg».proof.Proof.LibScatterRows
import proofs.«113936_j65163243815283_2_alg».proof.Proof.LibGatherRows
import Idealize.ShloMosaic.Lib.ValueIdx
import Idealize.ShloMosaic.Lib.ValueLayout
import Idealize.ShloMosaic.Lib.Pipeline.Value
import Idealize.ShloMosaic.PureOps.Ideal.Laws

noncomputable section

namespace Cert.RefRead

open Cert.ReferenceIdeal Cert.ReferenceIdeal.Facts₀ Cert.ReferenceIdeal.Facts Idealize.ShloMosaic Idealize.ShloMosaic.ValueIdx Cert.Sage

/-! ## A plain product m×k by k×n at an index -/

/-- The product of an m×k by a k×n matrix, contracting the left operand's columns against the right operand's rows,
    read at (a, b): the sum over the contracted coordinate c of A(a,c) · B(c,b). -/
theorem dot_mkn_apply {m k n : Nat} {φ₁ φ₂ : FTy}
    (w : DotDims.WF (⟨2, ![m, k]⟩ : Shape) (⟨2, ![k, n]⟩ : Shape) (⟨2, ![m, n]⟩ : Shape) [1] [0] [0] [1] [] [])
    (prec : Option ContractPrecision) (A : FVec Ideal (⟨2, ![m, k]⟩ : Shape) φ₁) (B : FVec Ideal (⟨2, ![k, n]⟩ : Shape) φ₂)
    (a : Fin m) (b : Fin n) :
    Host.dotGeneral (⟨[1], [0], [0], [1], [], [], w⟩ : DotDims (⟨2, ![m, k]⟩ : Shape) (⟨2, ![k, n]⟩ : Shape) (⟨2, ![m, n]⟩ : Shape))
        prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims (⟨2, ![m, k]⟩ : Shape) (⟨2, ![k, n]⟩ : Shape) (⟨2, ![m, n]⟩ : Shape)) k rfl rfl).symm]
  refine Finset.sum_congr rfl fun c _ => ?_
  have hc := contrEquiv1_symm_val
    (⟨[1], [0], [0], [1], [], [], w⟩ : DotDims (⟨2, ![m, k]⟩ : Shape) (⟨2, ![k, n]⟩ : Shape) (⟨2, ![m, n]⟩ : Shape)) k rfl rfl c
  -- the left operand's index: the result's row, then the contracted coordinate
  have el : (⟨[1], [0], [0], [1], [], [], w⟩ : DotDims (⟨2, ![m, k]⟩ : Shape) (⟨2, ![k, n]⟩ : Shape) (⟨2, ![m, n]⟩ : Shape)).lhsIdx (ix2 a b)
      ((contrEquiv1 _ k rfl rfl).symm c) = ix2 a c := by
    funext ax; apply Fin.ext
    match ax with
    | ⟨0, _⟩ => simp [DotDims.lhsIdx]; rfl
    | ⟨1, _⟩ => exact (DotDims.lhsIdx_val_of_single _ rfl _ _).trans hc
  -- the right operand's index: the contracted coordinate, then the result's column
  have er : (⟨[1], [0], [0], [1], [], [], w⟩ : DotDims (⟨2, ![m, k]⟩ : Shape) (⟨2, ![k, n]⟩ : Shape) (⟨2, ![m, n]⟩ : Shape)).rhsIdx (ix2 a b)
      ((contrEquiv1 _ k rfl rfl).symm c) = ix2 c b := by
    funext ax; apply Fin.ext
    match ax with
    | ⟨0, _⟩ => exact (DotDims.rhsIdx_val_of_single _ rfl _ _).trans hc
    | ⟨1, _⟩ => simp [DotDims.rhsIdx]; rfl
  rw [el, er]

variable [Cert.ReferenceIdeal.Facts]

/-- The 256-column product at (n, j). -/
theorem dot256_apply (l : FVec Ideal S50000x256 .f32) (r : FVec Ideal S256x256 .f32) (n : Fin 50000) (j : Fin 256) :
    Host.dotGeneral (F := Ideal) dot_S50000x256_S256x256_S50000x256_1_0_0_1_n_n none l r (ix2 n j)
      = ∑ k : Fin 256, l (ix2 n k) * r (ix2 k j) :=
  dot_mkn_apply dot_S50000x256_S256x256_S50000x256_1_0_0_1_n_n_wf none l r n j

/-- The 40-column product at (n, c). -/
theorem dot40_apply (l : FVec Ideal S50000x256 .f32) (r : FVec Ideal S256x40 .f32) (n : Fin 50000) (c : Fin 40) :
    Host.dotGeneral (F := Ideal) dot_S50000x256_S256x40_S50000x40_1_0_0_1_n_n none l r (ix2 n c)
      = ∑ k : Fin 256, l (ix2 n k) * r (ix2 k c) :=
  dot_mkn_apply dot_S50000x256_S256x40_S50000x40_1_0_0_1_n_n_wf none l r n c

/-! ## The broadcasts: the degree as a column repeated along the features, a bias as a row repeated down the nodes -/

/-- An aggregated array divided row by row by the degree, at (n, k): A(n,k) / D(n). -/
theorem meanT_apply (A : FVec Ideal S50000x256 .f32) (D : FVec Ideal S50000 .f32) (n : Fin 50000) (k : Fin 256) :
    Cert.RefTerm.meanT A D (ix2 n k) = Ideal.div (A (ix2 n k)) (D (ix1 n)) := by
  unfold Cert.RefTerm.meanT
  show Ideal.div (A (ix2 n k)) _ = _
  refine congrArg (Ideal.div (A (ix2 n k))) ?_
  exact (Cert.LibLayout.bcast_n1_nm bcast_S50000x1_S50000x256_0_1 _ n k).trans
    (Cert.LibLayout.bcast_n_n1 bcast_S50000_S50000x1_0 D n (0 : Fin 1))

/-- The 256-entry bias as a row repeated down the nodes, at (n, j): b(j). -/
theorem bias256 (b : FVec Ideal S256 .f32) (n : Fin 50000) (j : Fin 256) :
    broadcastInDim S50000x256 ![0, 1] bcast_S1x256_S50000x256_0_1 (broadcastInDim S1x256 ![1] bcast_S256_S1x256_1 b) (ix2 n j)
      = b (ix1 j) :=
  (Cert.LibLayout.bcast_1n_mn bcast_S1x256_S50000x256_0_1 _ n j).trans
    (Cert.LibLayout.bcast_n_1n bcast_S256_S1x256_1 b (0 : Fin 1) j)

/-- The 40-entry bias as a row repeated down the nodes, at (n, c): b(c). -/
theorem bias40 (b : FVec Ideal S40 .f32) (n : Fin 50000) (c : Fin 40) :
    broadcastInDim S50000x40 ![0, 1] bcast_S1x40_S50000x40_0_1 (broadcastInDim S1x40 ![1] bcast_S40_S1x40_1 b) (ix2 n c)
      = b (ix1 c) :=
  (Cert.LibLayout.bcast_1n_mn bcast_S1x40_S50000x40_0_1 _ n c).trans
    (Cert.LibLayout.bcast_n_1n bcast_S40_S1x40_1 b (0 : Fin 1) c)

/-! ## The first layer -/

/-- The first layer before the activation, at (n, j). -/
theorem pre1T_apply (A : FVec Ideal S50000x256 .f32) (D : FVec Ideal S50000 .f32) (x : FVec Ideal S50000x256 .f32)
    (W1l : FVec Ideal S256x256 .f32) (b1 : FVec Ideal S256 .f32) (W1r : FVec Ideal S256x256 .f32) (n : Fin 50000) (j : Fin 256) :
    Cert.RefTerm.pre1T A D x W1l b1 W1r (ix2 n j) = preR A D x W1l b1 W1r n j := by
  unfold Cert.RefTerm.pre1T preR
  rw [addf_apply, addf_apply, dot256_apply, dot256_apply, bias256]
  refine congrArg (fun t => (t + b1 (ix1 j)) + ∑ k : Fin 256, x (ix2 n k) * W1r (ix2 k j)) ?_
  exact Finset.sum_congr rfl fun k _ => by rw [meanT_apply]

/-- The activation at (n, j): x where x > 0, else 1 · (exp(x clamped to zero from above) − 1). -/
theorem actT_apply (a : FVec Ideal S50000x256 .f32) (n : Fin 50000) (j : Fin 256) :
    Cert.RefTerm.actT a (ix2 n j) = eluR (a (ix2 n j)) := by
  unfold Cert.RefTerm.actT eluR
  simp only [select_apply, cmpf_apply, mulf_apply, Cert.LibLayout.bcast_scalar]
  rfl

/-! ## The aggregation over the edge list -/

/-- The rows gathered at the sources, at (e, k): the operand's row named by edge e's source word, at column k. -/
theorem gatherK_apply (h : FVec Ideal S50000x256 .f32) (srci : IVec S800000x1 32) (e : Fin 800000) (k : Fin 256) :
    Host.gather gather_S50000x256_S800000x1_S800000x256_1_0_n_n_0_1_1256 h srci (ix2 e k) = h (ix2 (rowOf srci e) k) :=
  Cert.GatherRows.gather_rows_apply (by decide) gather_S50000x256_S800000x1_S800000x256_1_0_n_n_0_1_1256
    rfl rfl rfl rfl rfl rfl rfl h srci e k

/-- The aggregated rows at (n, k): the zero word plus the sum, over the edges whose destination word names n, of the
    operand's column k at the edge's source row. -/
theorem aggT_apply (h : FVec Ideal S50000x256 .f32) (dsti srci : IVec S800000x1 32) (n : Fin 50000) (k : Fin 256) :
    Cert.RefTerm.aggT h dsti srci (ix2 n k) = segsum dsti srci (fun r => h (ix2 r k)) n := by
  unfold Cert.RefTerm.aggT segsum
  refine (Cert.ScatterRows.scatterAdd_rows_apply scatter_S50000x256_S800000x1_S800000x256_1_0_0_1 rfl rfl rfl rfl _ dsti _ n k).trans ?_
  rw [Cert.LibLayout.bcast_scalar]
  refine congrArg (fun t => z0 + t) ?_
  refine Finset.sum_congr rfl fun e _ => ?_
  rw [gatherK_apply]

/-! ## The second layer, and everything after the head stages -/

/-- The second layer from a hidden array, at (n, c). -/
theorem out2T_apply (h : FVec Ideal S50000x256 .f32) (D : FVec Ideal S50000 .f32) (dsti srci : IVec S800000x1 32)
    (W2l : FVec Ideal S256x40 .f32) (b2 : FVec Ideal S40 .f32) (W2r : FVec Ideal S256x40 .f32) (n : Fin 50000) (c : Fin 40) :
    Cert.RefTerm.out2T h D dsti srci W2l b2 W2r (ix2 n c) = outR dsti srci D h W2l b2 W2r n c := by
  unfold Cert.RefTerm.out2T outR
  rw [addf_apply, addf_apply, dot40_apply, dot40_apply, bias40]
  refine congrArg (fun t => (t + b2 (ix1 c)) + ∑ k : Fin 256, h (ix2 n k) * W2r (ix2 k c)) ?_
  exact Finset.sum_congr rfl fun k _ => by rw [meanT_apply, aggT_apply]

/-- The hidden array: the activation of the first layer, entry by entry. -/
theorem hid_eq (A : FVec Ideal S50000x256 .f32) (D : FVec Ideal S50000 .f32) (x : FVec Ideal S50000x256 .f32)
    (W1l : FVec Ideal S256x256 .f32) (b1 : FVec Ideal S256 .f32) (W1r : FVec Ideal S256x256 .f32) :
    Cert.RefTerm.actT (Cert.RefTerm.pre1T A D x W1l b1 W1r) = of2 (hidR A D x W1l b1 W1r) := by
  funext i
  obtain ⟨n, j, rfl⟩ : ∃ (n : Fin 50000) (j : Fin 256), i = ix2 n j := ⟨i 0, i 1, eq_ix2 i⟩
  rw [actT_apply, pre1T_apply, of2_ix2]
  rfl

/-- Everything after the head stages, at (n, c): the second layer of the dividing arrangement over the hidden array
    of the dividing arrangement. -/
theorem tail_apply (A : FVec Ideal S50000x256 .f32) (D : FVec Ideal S50000 .f32) (dsti srci : IVec S800000x1 32)
    (x : FVec Ideal S50000x256 .f32) (W1l : FVec Ideal S256x256 .f32) (b1 : FVec Ideal S256 .f32) (W1r : FVec Ideal S256x256 .f32)
    (W2l : FVec Ideal S256x40 .f32) (b2 : FVec Ideal S40 .f32) (W2r : FVec Ideal S256x40 .f32) (n : Fin 50000) (c : Fin 40) :
    Cert.RefTerm.tail A D dsti srci x W1l b1 W1r W2l b2 W2r (ix2 n c)
      = Cert.Sage.outR dsti srci D (Cert.Sage.of2 (Cert.Sage.hidR A D x W1l b1 W1r)) W2l b2 W2r n c := by
  unfold Cert.RefTerm.tail
  rw [out2T_apply, hid_eq]

end Cert.RefRead

end
-- ==== Proof.Value.lean ====
/-
  The two programs compute one function of their arguments.

  Both build the same destination and source index columns, the same aggregated input rows A and the same degree D (at
  least one).  With those, the first layer's hidden array is the same on both sides for ANY extended-real inputs: scaling
  by 1/D is dividing by D when D is a nonzero real, and the rest is a regrouping of a sum.  The second layers differ by
  where the 40-column weight is applied — before the aggregation on one side, after it on the other — which is
  distributivity, true where the hidden array and the weight are real: they are, when the inputs are finite.
-/
import proofs.«113936_j65163243815283_2_alg».proof.Proof.KTerm
import proofs.«113936_j65163243815283_2_alg».proof.Proof.KAlg
import proofs.«113936_j65163243815283_2_alg».proof.Proof.RefTerm
import proofs.«113936_j65163243815283_2_alg».proof.Proof.RefRead
import proofs.«113936_j65163243815283_2_alg».proof.Proof.Law
import proofs.«113936_j65163243815283_2_alg».proof.Proof.Spec
import proofs.«113936_j65163243815283_2_alg».proof.Proof.Gen.KernelIdeal
import proofs.«113936_j65163243815283_2_alg».proof.Proof.Gen.ReferenceIdeal

noncomputable section

namespace Cert.Value

open Idealize.ShloMosaic Idealize.ShloMosaic.ValueIdx Cert.Sage

/-! ## The head stages are the same terms in both programs' vocabularies -/

theorem dstT_eq (ei : IVec Cert.KernelIdeal.S2x800000 32) : Cert.KTerm.dstT ei = Cert.RefTerm.dstT ei := rfl
theorem srcT_eq (ei : IVec Cert.KernelIdeal.S2x800000 32) : Cert.KTerm.srcT ei = Cert.RefTerm.srcT ei := rfl
theorem aggT_eq (h : FVec Ideal Cert.KernelIdeal.S50000x256 .f32) (d s : IVec Cert.KernelIdeal.S800000x1 32) :
    Cert.KTerm.aggT h d s = Cert.RefTerm.aggT h d s := rfl
theorem dmaxT_eq (d : IVec Cert.KernelIdeal.S800000x1 32) : Cert.KTerm.dmaxT d = Cert.RefTerm.dmaxT d := rfl

/-- The arrangement that scales by reciprocals, assembled from the stage terms, is the other program's composed term. -/
theorem value_eq (x : FVec Ideal Cert.KernelIdeal.S50000x256 .f32) (ei : IVec Cert.KernelIdeal.S2x800000 32)
    (W1l : FVec Ideal Cert.KernelIdeal.S256x256 .f32) (b1 : FVec Ideal Cert.KernelIdeal.S256 .f32)
    (W1r : FVec Ideal Cert.KernelIdeal.S256x256 .f32) (W2l : FVec Ideal Cert.KernelIdeal.S256x40 .f32)
    (b2 : FVec Ideal Cert.KernelIdeal.S40 .f32) (W2r : FVec Ideal Cert.KernelIdeal.S256x40 .f32)
    (hx : ∀ i, ∃ r : ℝ, x i = (r : EReal)) (hW1l : ∀ i, ∃ r : ℝ, W1l i = (r : EReal)) (hb1 : ∀ i, ∃ r : ℝ, b1 i = (r : EReal))
    (hW1r : ∀ i, ∃ r : ℝ, W1r i = (r : EReal)) (hW2l : ∀ i, ∃ r : ℝ, W2l i = (r : EReal)) :
    of2 (outK
        (Cert.KTerm.agg40T
          (of2 (projK (of2 (hidK (Cert.KTerm.aggT x (Cert.KTerm.dstT ei) (Cert.KTerm.srcT ei)) (Cert.KTerm.invT (Cert.KTerm.dstT ei)) x W1l
            (Cert.KTerm.b1rT b1) W1r)) W2l))
          (Cert.KTerm.dstT ei) (Cert.KTerm.srcT ei))
        (Cert.KTerm.invT (Cert.KTerm.dstT ei))
        (of2 (hidK (Cert.KTerm.aggT x (Cert.KTerm.dstT ei) (Cert.KTerm.srcT ei)) (Cert.KTerm.invT (Cert.KTerm.dstT ei)) x W1l
          (Cert.KTerm.b1rT b1) W1r))
        W2r (Cert.KTerm.b2rT b2))
      = Cert.RefTerm.out x ei W1l b1 W1r W2l b2 W2r := by
  -- names for the shared stages
  generalize hdst : Cert.KTerm.dstT ei = dst
  generalize hsrc : Cert.KTerm.srcT ei = src
  have hdR : Cert.RefTerm.dstT ei = dst := (dstT_eq ei).symm.trans hdst
  have hsR : Cert.RefTerm.srcT ei = src := (srcT_eq ei).symm.trans hsrc
  have hD := Cert.KAlg.dmax_fact dst
  have hI := Cert.KAlg.invT_apply dst
  -- the aggregated input rows are real
  have hA : ∀ i, Law.IsReal (Cert.KTerm.aggT x dst src i) := by
    intro i
    obtain ⟨n, k, rfl⟩ : ∃ (n : Fin 50000) (k : Fin 256), i = ix2 n k := ⟨i 0, i 1, eq_ix2 i⟩
    rw [Cert.KAlg.aggT_apply]
    exact Law.segsum_real dst src _ (fun r => hx _) n
  -- the hidden arrays agree, and are real
  have hH : of2 (hidK (Cert.KTerm.aggT x dst src) (Cert.KTerm.invT dst) x W1l (Cert.KTerm.b1rT b1) W1r)
      = of2 (hidR (Cert.KTerm.aggT x dst src) (Cert.KTerm.dmaxT dst) x W1l b1 W1r) := by
    funext i
    obtain ⟨n, j, rfl⟩ : ∃ (n : Fin 50000) (j : Fin 256), i = ix2 n j := ⟨i 0, i 1, eq_ix2 i⟩
    rw [of2_ix2, of2_ix2]
    exact Law.hid_eq _ _ x W1l b1 W1r _ _ hD hI (Cert.KAlg.b1rT_apply b1) n j
  have hHr : ∀ i, Law.IsReal (of2 (hidR (Cert.KTerm.aggT x dst src) (Cert.KTerm.dmaxT dst) x W1l b1 W1r) i) := by
    intro i
    obtain ⟨n, j, rfl⟩ : ∃ (n : Fin 50000) (j : Fin 256), i = ix2 n j := ⟨i 0, i 1, eq_ix2 i⟩
    rw [of2_ix2]
    exact Law.hidR_real _ _ x W1l b1 W1r hA hD hx hW1l hb1 hW1r n j
  rw [hH]
  generalize hHdef : of2 (hidR (Cert.KTerm.aggT x dst src) (Cert.KTerm.dmaxT dst) x W1l b1 W1r) = H at hHr ⊢
  -- the aggregated projected rows, index by index
  have hagg : Cert.KTerm.agg40T (of2 (projK H W2l)) dst src
      = of2 (fun n' c' => segsum dst src (fun r => projK H W2l r c') n') := by
    funext i
    obtain ⟨n, c, rfl⟩ : ∃ (n : Fin 50000) (c : Fin 40), i = ix2 n c := ⟨i 0, i 1, eq_ix2 i⟩
    rw [Cert.KAlg.agg40T_apply, of2_ix2]
    rfl
  rw [hagg]
  -- the other program's term at an index
  funext i
  obtain ⟨n, c, rfl⟩ : ∃ (n : Fin 50000) (c : Fin 40), i = ix2 n c := ⟨i 0, i 1, eq_ix2 i⟩
  rw [of2_ix2]
  unfold Cert.RefTerm.out
  rw [hdR, hsR, Cert.RefRead.tail_apply, ← aggT_eq, ← dmaxT_eq, hHdef]
  exact Law.out_eq dst src (Cert.KTerm.dmaxT dst) H W2l b2 W2r (Cert.KTerm.invT dst) (Cert.KTerm.b2rT b2) hD hI
    (Cert.KAlg.b2rT_apply b2) hHr hW2l n c

end Cert.Value

end
-- ==== Proof.LibColumnMatmul.lean ====
/-
  Two reads at an index given by coordinates.

  * A column [a, 1] broadcast along its unit axis to [a, b]: entry (p, c) of the result is entry (p, 0) of the column.
  * A matrix product into a zero accumulator whose dimension numbers contract ONE axis of extent n: entry j of the
    result is Σ_{k < n} lhs(L k) · rhs(R k), where L k and R k are the operand indices the dimension numbers assign to
    output index j and contraction coordinate k (the caller names them and shows that they are).
-/
import Idealize.ShloMosaic.Lib.ValueLayout
import Idealize.ShloMosaic.Lib.ValueIdx
import Idealize.ShloMosaic.PureOps.Ideal.Laws

noncomputable section

namespace Cert.LibColumnMatmul

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A product into the zero accumulator, one contracted axis of extent `n`: the sum over that axis of the operands'
    entries at the indices `L k`, `R k` the dimension numbers give. -/
theorem matmul_zero_single {sl sr so : Shape} {φ₁ φ₂ : FTy} (D : DotDims sl sr so) (prec : Option ContractPrecision) (n : ℕ)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hL : ∀ k : Fin n, D.lhsIdx j ((contrEquiv1 D n hr hs).symm k) = L k)
    (hR : ∀ k : Fin n, D.rhsIdx j ((contrEquiv1 D n hr hs).symm k) = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  exact Finset.sum_congr rfl fun k _ => by rw [hL k, hR k]

end Cert.LibColumnMatmul

end
-- ==== Proof.Reg0Pay.lean ====
/-
  The first layer's body arithmetic, read at an index.

  For row p < 2000 of a block and feature q < 256, the hidden value is the activation of
  (Σ_k (a(p,k) · r(p,0)) · wl(k,q) + Σ_k x(p,k) · wr(k,q)) + b(0,q), where a is the aggregated block, r the
  reciprocal-degree column, x the feature block, wl / wr the two weight matrices and b the bias row; the projected
  value at class c < 40 is Σ_k hidden(p,k) · w(k,c).
-/
import proofs.«113936_j65163243815283_2_alg».proof.Proof.Gen.KernelIdeal.Skeleton
import proofs.«113936_j65163243815283_2_alg».proof.Proof.Spec
import proofs.«113936_j65163243815283_2_alg».proof.Proof.LibColumnMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg0

open Cert.KernelIdeal Cert.KernelIdeal.Gen Cert.KernelIdeal.Facts₀ Cert.KernelIdeal.Facts
open Idealize.ShloMosaic Idealize.ShloMosaic.ValueIdx Cert.Sage

/-! ## The two products at an index -/

/-- The KK product: the left operand's row is the output's row, -/
theorem lhs_KK_0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- its column the contraction coordinate; -/
theorem lhs_KK_1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
/-- the right operand's row is the contraction coordinate, -/
theorem rhs_KK_0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
/-- its column the output's column. -/
theorem rhs_KK_1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The KK product into the zero accumulator at (p, c): Σ_k lhs(p,k) · rhs(k,c). -/
theorem matmul_KK_apply (lhs : FVec Ideal S2000x256 .f32) (rhs : FVec Ideal S256x256 .f32) (p : Fin 2000) (c : Fin 256) :
    FloatOps.matmul dot_S2000x256_S256x256_S2000x256_1_0_0_1_n_n none lhs rhs (constant S2000x256 .f32 0x00000000#32) (ix2 p c)
      = ∑ k : Fin 256, lhs (ix2 p k) * rhs (ix2 k c) := by
  refine Cert.LibColumnMatmul.matmul_zero_single dot_S2000x256_S256x256_S2000x256_1_0_0_1_n_n none 256 rfl rfl lhs rhs (ix2 p c)
    (fun k => ix2 p k) (fun k => ix2 k c) (fun k => ?_) (fun k => ?_)
  · have hk := contrEquiv1_symm_val dot_S2000x256_S256x256_S2000x256_1_0_0_1_n_n 256 rfl rfl k
    exact funext fun a => Fin.ext (by
      match a with
      | ⟨0, _⟩ => exact lhs_KK_0 _ _
      | ⟨1, _⟩ => exact (lhs_KK_1 _ _).trans hk)
  · have hk := contrEquiv1_symm_val dot_S2000x256_S256x256_S2000x256_1_0_0_1_n_n 256 rfl rfl k
    exact funext fun a => Fin.ext (by
      match a with
      | ⟨0, _⟩ => exact (rhs_KK_0 _ _).trans hk
      | ⟨1, _⟩ => exact rhs_KK_1 _ _)

/-- The KC product: the left operand's row is the output's row, -/
theorem lhs_KC_0 (i : S2000x40.Idx) (q : dot_S2000x256_S256x40_S2000x40_1_0_0_1_n_n.contr.Idx) : (dot_S2000x256_S256x40_S2000x40_1_0_0_1_n_n.lhsIdx i q 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
/-- its column the contraction coordinate; -/
theorem lhs_KC_1 (i : S2000x40.Idx) (q : dot_S2000x256_S256x40_S2000x40_1_0_0_1_n_n.contr.Idx) : (dot_S2000x256_S256x40_S2000x40_1_0_0_1_n_n.lhsIdx i q 1).val = (q ⟨0, by decide⟩).val :=
  dot_S2000x256_S256x40_S2000x40_1_0_0_1_n_n.lhsIdx_val_of_single rfl i q
/-- the right operand's row is the contraction coordinate, -/
theorem rhs_KC_0 (i : S2000x40.Idx) (q : dot_S2000x256_S256x40_S2000x40_1_0_0_1_n_n.contr.Idx) : (dot_S2000x256_S256x40_S2000x40_1_0_0_1_n_n.rhsIdx i q 0).val = (q ⟨0, by decide⟩).val :=
  dot_S2000x256_S256x40_S2000x40_1_0_0_1_n_n.rhsIdx_val_of_single rfl i q
/-- its column the output's column. -/
theorem rhs_KC_1 (i : S2000x40.Idx) (q : dot_S2000x256_S256x40_S2000x40_1_0_0_1_n_n.contr.Idx) : (dot_S2000x256_S256x40_S2000x40_1_0_0_1_n_n.rhsIdx i q 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-- The KC product into the zero accumulator at (p, c): Σ_k lhs(p,k) · rhs(k,c). -/
theorem matmul_KC_apply (lhs : FVec Ideal S2000x256 .f32) (rhs : FVec Ideal S256x40 .f32) (p : Fin 2000) (c : Fin 40) :
    FloatOps.matmul dot_S2000x256_S256x40_S2000x40_1_0_0_1_n_n none lhs rhs (constant S2000x40 .f32 0x00000000#32) (ix2 p c)
      = ∑ k : Fin 256, lhs (ix2 p k) * rhs (ix2 k c) := by
  refine Cert.LibColumnMatmul.matmul_zero_single dot_S2000x256_S256x40_S2000x40_1_0_0_1_n_n none 256 rfl rfl lhs rhs (ix2 p c)
    (fun k => ix2 p k) (fun k => ix2 k c) (fun k => ?_) (fun k => ?_)
  · have hk := contrEquiv1_symm_val dot_S2000x256_S256x40_S2000x40_1_0_0_1_n_n 256 rfl rfl k
    exact funext fun a => Fin.ext (by
      match a with
      | ⟨0, _⟩ => exact lhs_KC_0 _ _
      | ⟨1, _⟩ => exact (lhs_KC_1 _ _).trans hk)
  · have hk := contrEquiv1_symm_val dot_S2000x256_S256x40_S2000x40_1_0_0_1_n_n 256 rfl rfl k
    exact funext fun a => Fin.ext (by
      match a with
      | ⟨0, _⟩ => exact (rhs_KC_0 _ _).trans hk
      | ⟨1, _⟩ => exact rhs_KC_1 _ _)

/-! ## The body's two values at an index -/

/-- The argument of the activation at (p, q): the two products added, plus the bias row. -/
theorem pre_apply (x0 : Vec Ideal S2000x256 .f32) (x2 : Vec Ideal S2000x1 .f32) (x6 : Vec Ideal S2000x256 .f32)
    (x7 x8 : Vec Ideal S256x256 .f32) (x12 : Vec Ideal S1x256 .f32)
    (h0 : S2000x256.ShapeCasts S2000x256) (h2 : S2000x1.ShapeCasts S2000x1) (hb2 : S2000x1.Broadcasts S2000x256)
    (h12 : S1x256.ShapeCasts S1x256) (hb12 : S1x256.Broadcasts S2000x256) (p : Fin 2000) (q : Fin 256) :
    addf (F := Ideal) (φ := .f32) (addf (F := Ideal) (φ := .f32)
        (FloatOps.matmul (F := Ideal) (φ₁ := .f32) (φ₂ := .f32) dot_S2000x256_S256x256_S2000x256_1_0_0_1_n_n none
          (mulf (F := Ideal) (φ := .f32) (shapeCast S2000x256 x0 h0)
            (broadcastTo S2000x256 (shapeCast S2000x1 x2 h2) hb2))
          x7 (constant (F := Ideal) S2000x256 .f32 0x00000000#32))
        (FloatOps.matmul (F := Ideal) (φ₁ := .f32) (φ₂ := .f32) dot_S2000x256_S256x256_S2000x256_1_0_0_1_n_n none x6 x8 (constant (F := Ideal) S2000x256 .f32 0x00000000#32)))
      (broadcastTo S2000x256 (shapeCast S1x256 x12 h12) hb12) (ix2 p q)
    = ((∑ k : Fin 256, (x0 (ix2 p k) * x2 (ix2 p (0 : Fin 1))) * x7 (ix2 k q)) + ∑ k : Fin 256, x6 (ix2 p k) * x8 (ix2 k q))
        + x12 (ix2 (0 : Fin 1) q) := by
  rw [addf_apply, addf_apply, matmul_KK_apply, matmul_KK_apply, shapeCast_self, shapeCast_self, shapeCast_self,
    broadcastTo_1b_ab_apply]
  refine congrArg (· + x12 (ix2 (0 : Fin 1) q)) (congrArg (· + ∑ k : Fin 256, x6 (ix2 p k) * x8 (ix2 k q)) ?_)
  refine Finset.sum_congr rfl fun k _ => ?_
  rw [mulf_apply, Cert.LibColumnMatmul.broadcastTo_a1_ab_apply]

/-- The hidden value at (p, q): the activation of that argument. -/
theorem pay1_apply (x0 : Vec Ideal S2000x256 .f32) (x2 : Vec Ideal S2000x1 .f32) (x6 : Vec Ideal S2000x256 .f32)
    (x7 x8 : Vec Ideal S256x256 .f32) (x12 : Vec Ideal S1x256 .f32) (p : Fin 2000) (q : Fin 256) :
    k0_pay1 x0 x2 x6 x7 x8 x12 (ix2 p q)
      = eluK (((∑ k : Fin 256, (x0 (ix2 p k) * x2 (ix2 p (0 : Fin 1))) * x7 (ix2 k q)) + ∑ k : Fin 256, x6 (ix2 p k) * x8 (ix2 k q))
          + x12 (ix2 (0 : Fin 1) q)) :=
  congrArg eluK (pre_apply x0 x2 x6 x7 x8 x12 _ _ _ _ _ p q)

/-- The projected value at (p, c): Σ_k hidden(p,k) · w(k,c). -/
theorem pay2_apply (x0 : Vec Ideal S2000x256 .f32) (x2 : Vec Ideal S2000x1 .f32) (x6 : Vec Ideal S2000x256 .f32)
    (x7 x8 : Vec Ideal S256x256 .f32) (x12 : Vec Ideal S1x256 .f32) (x25 : Vec Ideal S256x40 .f32) (p : Fin 2000) (c : Fin 40) :
    k0_pay2 x0 x2 x6 x7 x8 x12 x25 (ix2 p c) = ∑ k : Fin 256, k0_pay1 x0 x2 x6 x7 x8 x12 (ix2 p k) * x25 (ix2 k c) :=
  matmul_KC_apply (k0_pay1 x0 x2 x6 x7 x8 x12) x25 p c

end Cert.KernelIdeal.Reg0

end
-- ==== Proof.Reg0.lean ====
/-
  What the first layer's row-block sweep leaves in its two output arrays.

  The 25 blocks of 2000 rows tile the 50000 rows. Block t of the hidden array is the activation of
  (Σ_k (A(n,k) · I(n,0)) · Wl(k,j) + Σ_k X(n,k) · Wr(k,j)) + B(0,j) at rows n = 2000 t + p, and block t of the projected
  array is Σ_k hidden(n,k) · W(k,c) at the same rows: each is the restriction of one function of the whole input arrays,
  so the arrays end holding those functions.
-/
import proofs.«113936_j65163243815283_2_alg».proof.Proof.Gen.KernelIdeal.Frame
import proofs.«113936_j65163243815283_2_alg».proof.Proof.Spec
import proofs.«113936_j65163243815283_2_alg».proof.Proof.Reg0Pay
import Idealize.ShloMosaic.Lib.Pipeline.Value

set_option maxRecDepth 16384

noncomputable section

namespace Cert.KernelIdeal.Reg0

open Cert.KernelIdeal Cert.KernelIdeal.Gen Cert.KernelIdeal.Facts₀ Cert.KernelIdeal.Facts
open Idealize.ShloMosaic Idealize.ShloMosaic.TcCoe Idealize.SL.Sem Idealize.ShloMosaic.ValueIdx Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Over variables: a row of a block against a row of the arrays -/

/-- If row p of the three row blocks is row n of the three row arrays and the weight and bias blocks are the weight and
    bias arrays, the hidden value at (p, q) is the first layer's at (n, q). -/
theorem hid_row (x0 : Vec Ideal S2000x256 .f32) (x1 : Vec Ideal S2000x1 .f32) (x2 : Vec Ideal S2000x256 .f32)
    (x3 : Vec Ideal S256x256 .f32) (x4 : Vec Ideal S1x256 .f32) (x5 : Vec Ideal S256x256 .f32)
    (A : SNK.Idx → EReal) (I : SN1.Idx → EReal) (X : SNK.Idx → EReal) (Wl : SKK.Idx → EReal) (B : S1K.Idx → EReal)
    (Wr : SKK.Idx → EReal) (n : Fin 50000) (p : Fin 2000)
    (h0 : ∀ k : Fin 256, x0 (ix2 p k) = A (ix2 n k)) (h1 : x1 (ix2 p (0 : Fin 1)) = I (ix2 n (0 : Fin 1)))
    (h2 : ∀ k : Fin 256, x2 (ix2 p k) = X (ix2 n k)) (h3 : ∀ k j : Fin 256, x3 (ix2 k j) = Wl (ix2 k j))
    (h4 : ∀ j : Fin 256, x4 (ix2 (0 : Fin 1) j) = B (ix2 (0 : Fin 1) j)) (h5 : ∀ k j : Fin 256, x5 (ix2 k j) = Wr (ix2 k j))
    (q : Fin 256) :
    k0_pay1 x0 x1 x2 x3 x5 x4 (ix2 p q) = hidK A I X Wl B Wr n q := by
  rw [pay1_apply, h1, h4]
  unfold hidK preK
  simp only [h0, h2, h3, h5]

/-- Under the same hypotheses the projected value at (p, c) is the projection of the first layer's row n. -/
theorem proj_row (x0 : Vec Ideal S2000x256 .f32) (x1 : Vec Ideal S2000x1 .f32) (x2 : Vec Ideal S2000x256 .f32)
    (x3 : Vec Ideal S256x256 .f32) (x4 : Vec Ideal S1x256 .f32) (x5 : Vec Ideal S256x256 .f32) (x6 : Vec Ideal S256x40 .f32)
    (A : SNK.Idx → EReal) (I : SN1.Idx → EReal) (X : SNK.Idx → EReal) (Wl : SKK.Idx → EReal) (B : S1K.Idx → EReal)
    (Wr : SKK.Idx → EReal) (W : SKC.Idx → EReal) (n : Fin 50000) (p : Fin 2000)
    (h0 : ∀ k : Fin 256, x0 (ix2 p k) = A (ix2 n k)) (h1 : x1 (ix2 p (0 : Fin 1)) = I (ix2 n (0 : Fin 1)))
    (h2 : ∀ k : Fin 256, x2 (ix2 p k) = X (ix2 n k)) (h3 : ∀ k j : Fin 256, x3 (ix2 k j) = Wl (ix2 k j))
    (h4 : ∀ j : Fin 256, x4 (ix2 (0 : Fin 1) j) = B (ix2 (0 : Fin 1) j)) (h5 : ∀ k j : Fin 256, x5 (ix2 k j) = Wr (ix2 k j))
    (h6 : ∀ (k : Fin 256) (c : Fin 40), x6 (ix2 k c) = W (ix2 k c)) (c : Fin 40) :
    k0_pay2 x0 x1 x2 x3 x5 x4 x6 (ix2 p c) = projK (of2 (hidK A I X Wl B Wr)) W n c := by
  rw [pay2_apply]
  unfold projK
  refine Finset.sum_congr rfl fun k _ => ?_
  rw [hid_row x0 x1 x2 x3 x4 x5 A I X Wl B Wr n p h0 h1 h2 h3 h4 h5 k, h6, of2_ix2]

/-! ## The index maps over the grid, and each block read -/

/-- The row windows sit at block (t, 0) and the weight and bias windows at block (0, 0), at every point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem lt_N (t : Fin cfg0.N) : t.val < 25 := Nat.lt_of_lt_of_eq t.isLt N_0

/-- Row p of block t is row 2000 t + p of the array. -/
def rowAt (t : Fin cfg0.N) (p : Fin 2000) : Fin 50000 :=
  ⟨t.val * 2000 + p.val, by have := lt_N t; have := p.isLt; omega⟩

/-- The aggregated block at point t, entry (p, k), is the aggregated array at (2000 t + p, k). -/
theorem blk0_apply (c : Dev nD) (t : Fin cfg0.N) (p : Fin 2000) (k : Fin 256) :
    (iblk0 V c 0 t : Vec Ideal S2000x256 .f32) (ix2 p k) = (V c main_v22 : SNK.Idx → EReal) (ix2 (rowAt t p) k) := by
  obtain ⟨⟨e0, e1⟩, -⟩ := idx_facts t
  show V c main_v22 (((cfg0.win 0).blk t).view.emb (ix2 p k)) = V c main_v22 (ix2 (rowAt t p) k)
  refine congrArg (V c main_v22) (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

/-- The reciprocal-degree block at point t, entry (p, 0), is the column at row 2000 t + p. -/
theorem blk1_apply (c : Dev nD) (t : Fin cfg0.N) (p : Fin 2000) (k : Fin 1) :
    (iblk0 V c 1 t : Vec Ideal S2000x1 .f32) (ix2 p k) = (V c main_v12 : SN1.Idx → EReal) (ix2 (rowAt t p) k) := by
  obtain ⟨-, ⟨a0, a1⟩, ⟨b0, b1⟩, -⟩ := idx_facts t
  show V c main_v12 (((cfg0.win 1).blk t).view.emb (ix2 p k)) = V c main_v12 (ix2 (rowAt t p) k)
  refine congrArg (V c main_v12) (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * k.val = k.val; omega

/-- The feature block at point t, entry (p, k), is the feature array at (2000 t + p, k). -/
theorem blk2_apply (c : Dev nD) (t : Fin cfg0.N) (p : Fin 2000) (k : Fin 256) :
    (iblk0 V c 2 t : Vec Ideal S2000x256 .f32) (ix2 p k) = (V c main_arg0 : SNK.Idx → EReal) (ix2 (rowAt t p) k) := by
  obtain ⟨-, ⟨a0, a1⟩, ⟨b0, b1⟩, -⟩ := idx_facts t
  show V c main_arg0 (((cfg0.win 2).blk t).view.emb (ix2 p k)) = V c main_arg0 (ix2 (rowAt t p) k)
  refine congrArg (V c main_arg0) (funext fun a => Fin.ext ?_)
  match a with
  | ⟨0, _⟩ => show win0_2.index t (0 : Fin 2) * 2000 + 1 * p.val = t.val * 2000 + p.val; omega
  | ⟨1, _⟩ => show win0_2.index t (1 : Fin 2) * 256 + 1 * k.val = k.val; omega

/-- The first weight window holds the whole matrix at every point. -/
theorem blk3_apply (c : Dev nD) (t : Fin cfg0.N) (k : Fin 256) (j : Fin 256) :
    (iblk0 V c 3 t : Vec Ideal S256x256 .f32) (ix2 k j) = (V c main_arg2 : SKK.Idx → EReal) (ix2 k j) := by
  obtain ⟨-, -, -, ⟨a0, a1⟩, ⟨b0, b1⟩, ⟨c0, c1⟩, ⟨d0, d1⟩, -⟩ := idx_facts t
  show V c main_arg2 (((cfg0.win 3).blk t).view.emb (ix2 k j)) = V c main_arg2 (ix2 k j)
  refine congrArg (V c main_arg2) (funext fun a => Fin.ext ?_)
  match a with
  | ⟨0, _⟩ => show win0_3.index t (0 : Fin 2) * 256 + 1 * k.val = k.val; omega
  | ⟨1, _⟩ => show win0_3.index t (1 : Fin 2) * 256 + 1 * j.val = j.val; omega

/-- The bias window holds the whole row at every point. -/
theorem blk4_apply (c : Dev nD) (t : Fin cfg0.N) (k : Fin 1) (j : Fin 256) :
    (iblk0 V c 4 t : Vec Ideal S1x256 .f32) (ix2 k j) = (V c main_v23 : S1K.Idx → EReal) (ix2 k j) := by
  obtain ⟨-, -, -, ⟨a0, a1⟩, ⟨b0, b1⟩, ⟨c0, c1⟩, ⟨d0, d1⟩, -⟩ := idx_facts t
  show V c main_v23 (((cfg0.win 4).blk t).view.emb (ix2 k j)) = V c main_v23 (ix2 k j)
  refine congrArg (V c main_v23) (funext fun a => Fin.ext ?_)
  match a with
  | ⟨0, _⟩ => show win0_4.index t (0 : Fin 2) * 1 + 1 * k.val = k.val; omega
  | ⟨1, _⟩ => show win0_4.index t (1 : Fin 2) * 256 + 1 * j.val = j.val; omega

/-- The second weight window holds the whole matrix at every point. -/
theorem blk5_apply (c : Dev nD) (t : Fin cfg0.N) (k : Fin 256) (j : Fin 256) :
    (iblk0 V c 5 t : Vec Ideal S256x256 .f32) (ix2 k j) = (V c main_arg4 : SKK.Idx → EReal) (ix2 k j) := by
  obtain ⟨-, -, -, ⟨a0, a1⟩, ⟨b0, b1⟩, ⟨c0, c1⟩, ⟨d0, d1⟩, -⟩ := idx_facts t
  show V c main_arg4 (((cfg0.win 5).blk t).view.emb (ix2 k j)) = V c main_arg4 (ix2 k j)
  refine congrArg (V c main_arg4) (funext fun a => Fin.ext ?_)
  match a with
  | ⟨0, _⟩ => show win0_5.index t (0 : Fin 2) * 256 + 1 * k.val = k.val; omega
  | ⟨1, _⟩ => show win0_5.index t (1 : Fin 2) * 256 + 1 * j.val = j.val; omega

/-- The projection window holds the whole matrix at every point. -/
theorem blk6_apply (c : Dev nD) (t : Fin cfg0.N) (k : Fin 256) (j : Fin 40) :
    (iblk0 V c 6 t : Vec Ideal S256x40 .f32) (ix2 k j) = (V c main_arg5 : SKC.Idx → EReal) (ix2 k j) := by
  obtain ⟨-, -, -, ⟨a0, a1⟩, ⟨b0, b1⟩, ⟨c0, c1⟩, ⟨d0, d1⟩, -⟩ := idx_facts t
  show V c main_arg5 (((cfg0.win 6).blk t).view.emb (ix2 k j)) = V c main_arg5 (ix2 k j)
  refine congrArg (V c main_arg5) (funext fun a => Fin.ext ?_)
  match a with
  | ⟨0, _⟩ => show win0_6.index t (0 : Fin 2) * 256 + 1 * k.val = k.val; omega
  | ⟨1, _⟩ => show win0_6.index t (1 : Fin 2) * 40 + 1 * j.val = j.val; omega

/-! ## What a point writes back is a block of one function of the arrays -/

/-- The hidden array as a function of the region's input arrays. -/
abbrev hidOf (c : Dev nD) : SNK.Idx → EReal :=
  of2 (hidK (V c main_v22) (V c main_v12) (V c main_arg0) (V c main_arg2) (V c main_v23) (V c main_arg4))

/-- The projected array as a function of the region's input arrays. -/
abbrev projOf (c : Dev nD) : SNC.Idx → EReal :=
  of2 (projK (hidOf V c) (V c main_arg5))

/-- Point t writes back block t of the hidden array. -/
theorem flushed_hid (c : Dev nD) (t : Fin cfg0.N) :
    (dat0 (F := Ideal) V c).flushed 7 t = ((cfg0.win 7).blk t).view.read (Elt Ideal) (hidOf V c) := by
  show (cfg0.win 7).cut (grid0.coords t) ((dat0 (F := Ideal) V c).after 7 t) = _
  rw [after0_7]
  unfold out0_7
  rw [View.canon_unit_zero hz]
  simp only [View.ld_unit_zero (S := S2000x256) hz, View.ld_unit_zero (S := S2000x1) hz, View.ld_unit_zero (S := S256x256) hz,
    View.ld_unit_zero (S := S1x256) hz]
  obtain ⟨-, -, -, -, -, -, -, ⟨e0, e1⟩, -⟩ := idx_facts t
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 5 t) (iblk0 V c 4 t) (ix2 p q)
    = hidOf V c (((cfg0.win 7).blk t).view.emb (ix2 p q))
  have hemb : ((cfg0.win 7).blk t).view.emb (ix2 p q) = ix2 (rowAt t p) q := by
    funext a; apply Fin.ext
    match a with
    | ⟨0, _⟩ => show win0_7.index t (0 : Fin 2) * 2000 + 1 * p.val = t.val * 2000 + p.val; omega
    | ⟨1, _⟩ => show win0_7.index t (1 : Fin 2) * 256 + 1 * q.val = q.val; omega
  rw [hemb]
  exact hid_row _ _ _ _ _ _ _ _ _ _ _ _ (rowAt t p) p (fun k => blk0_apply V c t p k) (blk1_apply V c t p 0)
    (fun k => blk2_apply V c t p k) (fun k j => blk3_apply V c t k j) (fun j => blk4_apply V c t 0 j)
    (fun k j => blk5_apply V c t k j) q

/-- Point t writes back block t of the projected array. -/
theorem flushed_proj (c : Dev nD) (t : Fin cfg0.N) :
    (dat0 (F := Ideal) V c).flushed 8 t = ((cfg0.win 8).blk t).view.read (Elt Ideal) (projOf V c) := by
  show (cfg0.win 8).cut (grid0.coords t) ((dat0 (F := Ideal) V c).after 8 t) = _
  rw [after0_8]
  unfold out0_8
  rw [View.canon_unit_zero hz]
  simp only [View.ld_unit_zero (S := S2000x256) hz, View.ld_unit_zero (S := S2000x1) hz, View.ld_unit_zero (S := S256x256) hz,
    View.ld_unit_zero (S := S1x256) hz, View.ld_unit_zero (S := S256x40) hz]
  obtain ⟨-, -, -, -, -, -, -, -, ⟨e0, e1⟩⟩ := idx_facts t
  funext j
  obtain ⟨p, q, rfl⟩ : ∃ (p : Fin 2000) (q : Fin 40), j = ix2 p q := ⟨j 0, j 1, eq_ix2 j⟩
  show k0_pay2 (iblk0 V c 0 t) (iblk0 V c 1 t) (iblk0 V c 2 t) (iblk0 V c 3 t) (iblk0 V c 5 t) (iblk0 V c 4 t)
      (iblk0 V c 6 t) (ix2 p q)
    = projOf V c (((cfg0.win 8).blk t).view.emb (ix2 p q))
  have hemb : ((cfg0.win 8).blk t).view.emb (ix2 p q) = ix2 (rowAt t p) q := by
    funext a; apply Fin.ext
    match a with
    | ⟨0, _⟩ => show win0_8.index t (0 : Fin 2) * 2000 + 1 * p.val = t.val * 2000 + p.val; omega
    | ⟨1, _⟩ => show win0_8.index t (1 : Fin 2) * 40 + 1 * q.val = q.val; omega
  rw [hemb]
  exact proj_row _ _ _ _ _ _ _ _ _ _ _ _ _ _ (rowAt t p) p (fun k => blk0_apply V c t p k) (blk1_apply V c t p 0)
    (fun k => blk2_apply V c t p k) (fun k j => blk3_apply V c t k j) (fun j => blk4_apply V c t 0 j)
    (fun k j => blk5_apply V c t k j) (fun k j => blk6_apply V c t k j) q

/-! ## The blocks tile the rows -/

/-- An index of the hidden array is in point t's block iff each coordinate is in the block's range on its axis. -/
theorem mem_blk_hid (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v24_0).slice (win0_7.rect t)).set ↔ _
  rw [View.set_slice_whole, Rect.mem_set_unit]
  exact Iff.rfl

/-- The same for the projected array. -/
theorem mem_blk_proj (t : Fin cfg0.N) (i : S50000x40.Idx) :
    i ∈ ((cfg0.win 8).blk t).view.set ↔ ∀ a : Fin 2, win0_8.index t a * S2000x40.size a ≤ (i a).val
      ∧ (i a).val < win0_8.index t a * S2000x40.size a + S2000x40.size a := by
  show i ∈ ((View.whole main_v24_1).slice (win0_8.rect t)).set ↔ _
  rw [View.set_slice_whole, Rect.mem_set_unit]
  exact Iff.rfl

/-- The point whose block holds row r: r / 2000. -/
def pointOf (r : Nat) (hr : r < 50000) : Fin cfg0.N :=
  ⟨r / 2000, Nat.lt_of_lt_of_eq (by omega) N_0.symm⟩

/-- Every index of the hidden array is in the block of the point of its row. -/
theorem cover_hid (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  refine ⟨pointOf (i 0).val hi0, flush0_7 _, ?_⟩
  obtain ⟨-, -, -, -, -, -, -, ⟨e0, e1⟩, -⟩ := idx_facts (pointOf (i 0).val hi0)
  have ht : (pointOf (i 0).val hi0).val = (i 0).val / 2000 := rfl
  rw [mem_blk_hid]
  intro a
  match a with
  | ⟨0, _⟩ =>
    show win0_7.index (pointOf (i 0).val hi0) (0 : Fin 2) * 2000 ≤ (i 0).val
      ∧ (i 0).val < win0_7.index (pointOf (i 0).val hi0) (0 : Fin 2) * 2000 + 2000
    omega
  | ⟨1, _⟩ =>
    show win0_7.index (pointOf (i 0).val hi0) (1 : Fin 2) * 256 ≤ (i 1).val
      ∧ (i 1).val < win0_7.index (pointOf (i 0).val hi0) (1 : Fin 2) * 256 + 256
    omega

/-- Every index of the projected array is in the block of the point of its row. -/
theorem cover_proj (i : S50000x40.Idx) :
    ∃ t : Fin cfg0.N, (cfg0.win 8).flush t = true ∧ i ∈ ((cfg0.win 8).blk t).view.set := by
  have hi0 : (i 0).val < 50000 := (i 0).isLt
  have hi1 : (i 1).val < 40 := (i 1).isLt
  refine ⟨pointOf (i 0).val hi0, flush0_8 _, ?_⟩
  obtain ⟨-, -, -, -, -, -, -, -, ⟨e0, e1⟩⟩ := idx_facts (pointOf (i 0).val hi0)
  have ht : (pointOf (i 0).val hi0).val = (i 0).val / 2000 := rfl
  rw [mem_blk_proj]
  intro a
  match a with
  | ⟨0, _⟩ =>
    show win0_8.index (pointOf (i 0).val hi0) (0 : Fin 2) * 2000 ≤ (i 0).val
      ∧ (i 0).val < win0_8.index (pointOf (i 0).val hi0) (0 : Fin 2) * 2000 + 2000
    omega
  | ⟨1, _⟩ =>
    show win0_8.index (pointOf (i 0).val hi0) (1 : Fin 2) * 40 ≤ (i 1).val
      ∧ (i 1).val < win0_8.index (pointOf (i 0).val hi0) (1 : Fin 2) * 40 + 40
    omega

/-! ## The two arrays after the sweep -/

/-- The hidden array ends holding the first layer of the region's input arrays. -/
theorem hid (c : Dev nD) :
    (Gen.dat0 (F := Ideal) V c).arrAt 7 cfg0.N
      = Cert.Sage.of2 (Cert.Sage.hidK (V c main_v22) (V c main_v12) (V c main_arg0) (V c main_arg2) (V c main_v23) (V c main_arg4)) :=
  (dat0 (F := Ideal) V c).arrAt_eq_of_cover 7 (hidOf V c) (fun t _ => flushed_hid V c t) cover_hid

/-- The projected array ends holding the hidden rows projected to the classes. -/
theorem proj (c : Dev nD) :
    (Gen.dat0 (F := Ideal) V c).arrAt 8 cfg0.N
      = Cert.Sage.of2 (Cert.Sage.projK (Cert.Sage.of2 (Cert.Sage.hidK (V c main_v22) (V c main_v12) (V c main_arg0) (V c main_arg2) (V c main_v23) (V c main_arg4))) (V c main_arg5)) :=
  (dat0 (F := Ideal) V c).arrAt_eq_of_cover 8 (projOf V c) (fun t _ => flushed_proj V c t) cover_proj

end Cert.KernelIdeal.Reg0

end
-- ==== Proof.Reg1.lean ====
import proofs.«113936_j65163243815283_2_alg».proof.Proof.Gen.KernelIdeal.Frame
import proofs.«113936_j65163243815283_2_alg».proof.Proof.Spec
import proofs.«113936_j65163243815283_2_alg».proof.Proof.LibColumnMatmul
import Idealize.ShloMosaic.Lib.Pipeline.Value
import Idealize.ShloMosaic.Lib.ValueLayout
import Idealize.ShloMosaic.Lib.ValueIdx

noncomputable section

namespace Cert.KernelIdeal.Reg1

open Cert.KernelIdeal Cert.KernelIdeal.Gen Cert.KernelIdeal.Facts₀ Cert.KernelIdeal.Facts
open Idealize.ShloMosaic Idealize.ShloMosaic.TcCoe Idealize.ShloMosaic.ValueIdx Idealize.SL.Sem Cert.Sage
open Idealize.ShloMosaic.Pipeline (Dat)

/-! ## The second layer's arithmetic at an index of a block of 2000 rows -/

/-- The product of a block of hidden rows with the 256 × 40 weight, into the zero accumulator, at `(p, c)`:
    Σ_k H(p,k) · W(k,c). -/
theorem matmul_at (x6 : FVec Ideal S2000x256 .f32) (x8 : FVec Ideal S256x40 .f32) (p : Fin 2000) (c : Fin 40) :
    FloatOps.matmul (F := Ideal) dot_S2000x256_S256x40_S2000x40_1_0_0_1_n_n none x6 x8 (constant (F := Ideal) S2000x40 .f32 0x00000000#32) (ix2 p c)
      = ∑ k : Fin 256, x6 (ix2 p k) * x8 (ix2 k c) := by
  refine Cert.LibColumnMatmul.matmul_zero_single dot_S2000x256_S256x40_S2000x40_1_0_0_1_n_n none 256 rfl rfl x6 x8 (ix2 p c)
    (fun k => ix2 p k) (fun k => ix2 k c) (fun k => ?_) (fun k => ?_)
  · funext a
    refine Fin.ext ?_
    match a with
    | ⟨0, _⟩ => rfl
    | ⟨1, _⟩ =>
      refine (DotDims.lhsIdx_val_of_single dot_S2000x256_S256x40_S2000x40_1_0_0_1_n_n (cl := 1) rfl (ix2 p c) _).trans ?_
      exact contrEquiv1_symm_val dot_S2000x256_S256x40_S2000x40_1_0_0_1_n_n 256 rfl rfl k
  · funext a
    refine Fin.ext ?_
    match a with
    | ⟨0, _⟩ =>
      refine (DotDims.rhsIdx_val_of_single dot_S2000x256_S256x40_S2000x40_1_0_0_1_n_n (cr := 0) rfl (ix2 p c) _).trans ?_
      exact contrEquiv1_symm_val dot_S2000x256_S256x40_S2000x40_1_0_0_1_n_n 256 rfl rfl k
    | ⟨1, _⟩ => rfl

/-- The body's value at `(p, c)` of its block: (A2(p,c) · I(p,0) + Σ_k H(p,k) · Wr(k,c)) + B(0,c). -/
theorem pay_at (x0 : Vec Ideal S2000x40 .f32) (x2 : Vec Ideal S2000x1 .f32) (x6 : Vec Ideal S2000x256 .f32)
    (x8 : Vec Ideal S256x40 .f32) (x11 : Vec Ideal S1x40 .f32) (p : Fin 2000) (c : Fin 40) :
    k1_pay1 x0 x2 x6 x8 x11 (ix2 p c)
      = (x0 (ix2 p c) * x2 (ix2 p (0 : Fin 1)) + ∑ k : Fin 256, x6 (ix2 p k) * x8 (ix2 k c)) + x11 (ix2 (0 : Fin 1) c) := by
  unfold k1_pay1
  simp only [shapeCast_self]
  show (x0 (ix2 p c) * broadcastTo S2000x40 x2 Facts₀.broadcasts_S2000x1_S2000x40 (ix2 p c)
      + FloatOps.matmul (F := Ideal) (φ₁ := .f32) (φ₂ := .f32) dot_S2000x256_S256x40_S2000x40_1_0_0_1_n_n none x6 x8 (constant (F := Ideal) S2000x40 .f32 0x00000000#32) (ix2 p c))
      + broadcastTo S2000x40 x11 Facts₀.broadcasts_S1x40_S2000x40 (ix2 p c) = _
  rw [matmul_at, Cert.LibColumnMatmul.broadcastTo_a1_ab_apply, broadcastTo_1b_ab_apply]

/-! ## The blocks: block `t` of a row-blocked array is its rows `2000 t … 2000 t + 1999`; the weight and the bias row are whole -/

variable (V : (c : Dev nD) → (b : Ref sig .tc) → Buf (Elt Ideal) ((c : Thread nD τ).loc b))

/-- The zero offsets of a whole-block access, as a constant function. -/
theorem hz : (![0, 0] : Fin 2 → Nat) = fun _ => 0 := funext fun a => by fin_cases a <;> rfl

/-- The index maps, decided over the 25 grid points: the four row-blocked windows are at row block `t`, column block 0;
    the weight's and the bias row's windows are at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 25 points. -/
theorem lt25 (t : Fin cfg1.N) : t.val < 25 := lt_of_lt_of_eq t.isLt N_1

/-- Block `t` of the aggregated projected rows, at `(p, q)`: the array at row `2000 t + p`. -/
theorem blk0_at (c : Dev nD) (t : Fin cfg1.N) (p : Fin 2000) (q : Fin 40) (n : Fin 50000) (hn : n.val = t.val * 2000 + p.val) :
    (iblk1 V c 0 t : Vec Ideal S2000x40 .f32) (ix2 p q) = (V c main_v34 : S50000x40.Idx → EReal) (ix2 n q) := by
  obtain ⟨e0, e1, -⟩ := idx_facts t
  unfold iblk1
  rw [View.read_apply]
  show V c main_v34 (((cfg1.win 0).blk t).view.emb (ix2 p q)) = V c main_v34 (ix2 n q)
  congr 1
  funext a
  apply Fin.ext
  match a with
  | ⟨0, _⟩ => show win1_0.index t (0 : Fin 2) * 2000 + 1 * p.val = n.val; omega
  | ⟨1, _⟩ => show win1_0.index t (1 : Fin 2) * 40 + 1 * q.val = q.val; omega

/-- Block `t` of the reciprocal degree column, at `(p, 0)`: the column at row `2000 t + p`. -/
theorem blk1_at (c : Dev nD) (t : Fin cfg1.N) (p : Fin 2000) (n : Fin 50000) (hn : n.val = t.val * 2000 + p.val) :
    (iblk1 V c 1 t : Vec Ideal S2000x1 .f32) (ix2 p (0 : Fin 1)) = (V c main_v12 : S50000x1.Idx → EReal) (ix2 n (0 : Fin 1)) := by
  obtain ⟨-, -, e0, e1, -⟩ := idx_facts t
  unfold iblk1
  rw [View.read_apply]
  show V c main_v12 (((cfg1.win 1).blk t).view.emb (ix2 p (0 : Fin 1))) = V c main_v12 (ix2 n (0 : Fin 1))
  congr 1
  funext a
  apply Fin.ext
  match a with
  | ⟨0, _⟩ => show win1_1.index t (0 : Fin 2) * 2000 + 1 * p.val = n.val; omega
  | ⟨1, _⟩ => show win1_1.index t (1 : Fin 2) * 1 + 1 * 0 = 0; omega

/-- Block `t` of the hidden rows, at `(p, k)`: the array at row `2000 t + p`. -/
theorem blk2_at (c : Dev nD) (t : Fin cfg1.N) (p : Fin 2000) (k : Fin 256) (n : Fin 50000) (hn : n.val = t.val * 2000 + p.val) :
    (iblk1 V c 2 t : Vec Ideal S2000x256 .f32) (ix2 p k) = (V c main_v24_0 : S50000x256.Idx → EReal) (ix2 n k) := by
  obtain ⟨-, -, -, -, e0, e1, -⟩ := idx_facts t
  unfold iblk1
  rw [View.read_apply]
  show V c main_v24_0 (((cfg1.win 2).blk t).view.emb (ix2 p k)) = V c main_v24_0 (ix2 n k)
  congr 1
  funext a
  apply Fin.ext
  match a with
  | ⟨0, _⟩ => show win1_2.index t (0 : Fin 2) * 2000 + 1 * p.val = n.val; omega
  | ⟨1, _⟩ => show win1_2.index t (1 : Fin 2) * 256 + 1 * k.val = k.val; omega

/-- The weight's one block is the weight. -/
theorem blk3_at (c : Dev nD) (t : Fin cfg1.N) (k : Fin 256) (q : Fin 40) :
    (iblk1 V c 3 t : Vec Ideal S256x40 .f32) (ix2 k q) = (V c main_arg7 : S256x40.Idx → EReal) (ix2 k q) := by
  obtain ⟨-, -, -, -, -, -, e0, e1, -⟩ := idx_facts t
  unfold iblk1
  rw [View.read_apply]
  show V c main_arg7 (((cfg1.win 3).blk t).view.emb (ix2 k q)) = V c main_arg7 (ix2 k q)
  congr 1
  funext a
  apply Fin.ext
  match a with
  | ⟨0, _⟩ => show win1_3.index t (0 : Fin 2) * 256 + 1 * k.val = k.val; omega
  | ⟨1, _⟩ => show win1_3.index t (1 : Fin 2) * 40 + 1 * q.val = q.val; omega

/-- The bias row's one block is the bias row. -/
theorem blk4_at (c : Dev nD) (t : Fin cfg1.N) (q : Fin 40) :
    (iblk1 V c 4 t : Vec Ideal S1x40 .f32) (ix2 (0 : Fin 1) q) = (V c main_v35 : S1x40.Idx → EReal) (ix2 (0 : Fin 1) q) := by
  obtain ⟨-, -, -, -, -, -, -, -, e0, e1, -⟩ := idx_facts t
  unfold iblk1
  rw [View.read_apply]
  show V c main_v35 (((cfg1.win 4).blk t).view.emb (ix2 (0 : Fin 1) q)) = V c main_v35 (ix2 (0 : Fin 1) q)
  congr 1
  funext a
  apply Fin.ext
  match a with
  | ⟨0, _⟩ => show win1_4.index t (0 : Fin 2) * 1 + 1 * 0 = 0; omega
  | ⟨1, _⟩ => show win1_4.index t (1 : Fin 2) * 40 + 1 * q.val = q.val; omega

/-- Element `(p, q)` of the output's block `t` sits at row `2000 t + p` of the output array. -/
theorem emb5_at (t : Fin cfg1.N) (p : Fin 2000) (q : Fin 40) (n : Fin 50000) (hn : n.val = t.val * 2000 + p.val) :
    ((cfg1.win 5).blk t).view.emb (ix2 p q) = (ix2 n q : S50000x40.Idx) := by
  obtain ⟨-, -, -, -, -, -, -, -, -, -, e0, e1⟩ := idx_facts t
  funext a
  apply Fin.ext
  match a with
  | ⟨0, _⟩ => show win1_5.index t (0 : Fin 2) * 2000 + 1 * p.val = n.val; omega
  | ⟨1, _⟩ => show win1_5.index t (1 : Fin 2) * 40 + 1 * q.val = q.val; omega

/-- Congruence of the second layer's expression in its five readings. -/
theorem outK_congr {a a' b b' d d' : EReal} {f f' g g' : Fin 256 → EReal} (ha : a = a') (hb : b = b')
    (hf : ∀ k, f k = f' k) (hg : ∀ k, g k = g' k) (hd : d = d') :
    (a * b + ∑ k : Fin 256, f k * g k) + d = (a' * b' + ∑ k : Fin 256, f' k * g' k) + d' := by
  obtain rfl : f = f' := funext hf
  obtain rfl : g = g' := funext hg
  rw [ha, hb, hd]

/-! ## What a point writes back, the cover, and the output array -/

/-- The second layer's output as one array of the five arrays the region reads. -/
abbrev outArr (c : Dev nD) : S50000x40.Idx → EReal :=
  of2 (outK (V c main_v34) (V c main_v12) (V c main_v24_0) (V c main_arg7) (V c main_v35))

/-- WHAT POINT `t` WRITES BACK is block `t` of that array. -/
theorem flushed_eq (c : Dev nD) (t : Fin cfg1.N) :
    (dat1 (F := Ideal) V c).flushed 5 t = ((cfg1.win 5).blk t).view.read (Elt Ideal) (outArr V c) := by
  show (cfg1.win 5).cut (grid1.coords t) ((dat1 (F := Ideal) V c).after 5 t) = _
  rw [after1_5]
  unfold out1_5
  rw [View.canon_unit_zero hz]
  simp only [View.ld_unit_zero (S := S2000x40) hz, View.ld_unit_zero (S := S2000x1) hz, View.ld_unit_zero (S := S2000x256) hz,
    View.ld_unit_zero (S := S256x40) hz, View.ld_unit_zero (S := S1x40) hz]
  funext j
  obtain ⟨p, q, rfl⟩ : ∃ (p : Fin 2000) (q : Fin 40), j = ix2 p q := ⟨j 0, j 1, eq_ix2 j⟩
  have hp : p.val < 2000 := p.isLt
  have ht : t.val < 25 := lt25 t
  have hn : t.val * 2000 + p.val < 50000 := by omega
  rw [View.read_apply, emb5_at t p q ⟨t.val * 2000 + p.val, hn⟩ rfl]
  show k1_pay1 (iblk1 V c 0 t) (iblk1 V c 1 t) (iblk1 V c 2 t) (iblk1 V c 3 t) (iblk1 V c 4 t) (ix2 p q)
    = outK (V c main_v34) (V c main_v12) (V c main_v24_0) (V c main_arg7) (V c main_v35) ⟨t.val * 2000 + p.val, hn⟩ q
  refine (pay_at (iblk1 V c 0 t) (iblk1 V c 1 t) (iblk1 V c 2 t) (iblk1 V c 3 t) (iblk1 V c 4 t) p q).trans ?_
  unfold outK
  exact outK_congr (blk0_at V c t p q ⟨t.val * 2000 + p.val, hn⟩ rfl) (blk1_at V c t p ⟨t.val * 2000 + p.val, hn⟩ rfl)
    (fun k => blk2_at V c t p k ⟨t.val * 2000 + p.val, hn⟩ rfl) (fun k => blk3_at V c t k q) (blk4_at V c t q)

/-- An index of the output array is in point `t`'s block iff each coordinate is in the block's range on its axis. -/
theorem mem_blk (t : Fin cfg1.N) (i : S50000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v36).slice (win1_5.rect t)).set ↔ _
  rw [View.set_slice_whole, Rect.mem_set_unit]
  exact Iff.rfl

/-- Row `r` of the output array is in the block of point `r / 2000`. -/
theorem cover (i : S50000x40.Idx) : ∃ t : Fin cfg1.N, (cfg1.win 5).flush t = true ∧ i ∈ ((cfg1.win 5).blk t).view.set := by
  have hi0 : (i 0).val < 50000 := idx2_lt0 i
  have hi1 : (i 1).val < 40 := idx2_lt1 i
  refine ⟨⟨(i 0).val / 2000, lt_of_lt_of_eq (show (i 0).val / 2000 < 25 by omega) N_1.symm⟩, flush1_5 _, ?_⟩
  rw [mem_blk]
  obtain ⟨-, -, -, -, -, -, -, -, -, -, e0, e1⟩ := idx_facts ⟨(i 0).val / 2000, lt_of_lt_of_eq (show (i 0).val / 2000 < 25 by omega) N_1.symm⟩
  have e0' : win1_5.index ⟨(i 0).val / 2000, lt_of_lt_of_eq (show (i 0).val / 2000 < 25 by omega) N_1.symm⟩ (0 : Fin 2) = (i 0).val / 2000 := e0
  intro a
  match a with
  | ⟨0, _⟩ =>
    show win1_5.index _ (0 : Fin 2) * 2000 ≤ (i 0).val ∧ (i 0).val < win1_5.index _ (0 : Fin 2) * 2000 + 2000
    rw [e0']; omega
  | ⟨1, _⟩ =>
    show win1_5.index _ (1 : Fin 2) * 40 ≤ (i 1).val ∧ (i 1).val < win1_5.index _ (1 : Fin 2) * 40 + 40
    rw [e1]; omega

/-- THE OUTPUT ARRAY after the region, for any entry contents: the second layer of the five arrays it reads. -/
theorem out (c : Dev nD) :
    (Gen.dat1 (F := Ideal) V c).arrAt 5 cfg1.N
      = Cert.Sage.of2 (Cert.Sage.outK (V c main_v34) (V c main_v12) (V c main_v24_0) (V c main_arg7) (V c main_v35)) :=
  (dat1 (F := Ideal) V c).arrAt_eq_of_cover 5 (outArr V c) (fun t _ => flushed_eq V c t) cover

end Cert.KernelIdeal.Reg1

end
-- ==== Proof.RefRun.lean ====
/-
  The reference program's run.

  @main is a straight line of array operations; the activation it calls, and the two selections that one calls, are
  private functions whose bodies run in place of the calls, each value in a buffer of its own.  `ops` is that line:
  @main's operations in order with the activation's fifteen (the two selections' among them) where the call stands.
  Every weakly fair execution terminates with each buffer at the fold of the line over the launch contents (`run_main`);
  the fold at the result buffer is the composed term `Cert.RefTerm.out` of the eight argument arrays it reads
  (`out_eq`), and at an argument buffer it is the argument (`arg_eq0` … `arg_eq8`): no operation writes one.
-/
import proofs.«113936_j65163243815283_2_alg».proof.Proof.Gen.ReferenceIdeal
import proofs.«113936_j65163243815283_2_alg».proof.Proof.RefTerm
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 4000000 in
/-- @main's operations in order; the activation's (a zero and the comparison against it twice, the first selection's
    three — the zero at its own type, spread, the clamp of the argument —, `exp(·) − 1`, the one and the product, the
    second selection) stand where it is called, over the call's own buffers. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst (constant S_ .f32 0x00000000#32),
    unary main_cst main_v11 (broadcastInDim S50000x256 ![] bcast_S_S50000x256 : (⟨S_, .f32⟩ : BufTy).Contents (Elt F) → (⟨S50000x256, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x256 ![0, 1] bcast_S50000x1_S50000x256_0_1 : (⟨S50000x1, .f32⟩ : BufTy).Contents (Elt F) → (⟨S50000x256, .f32⟩ : BufTy).Contents (Elt F)),
    binary main_v13 main_v21 main_v22 (Host.divf : (⟨S50000x256, .f32⟩ : BufTy).Contents (Elt F) → (⟨S50000x256, .f32⟩ : BufTy).Contents (Elt F) → (⟨S50000x256, .f32⟩ : BufTy).Contents (Elt F)),
    binary main_v22 main_arg2 main_v23 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg3 main_v24 (broadcastInDim S1x256 ![1] bcast_S256_S1x256_1 : (⟨S256, .f32⟩ : BufTy).Contents (Elt F) → (⟨S1x256, .f32⟩ : BufTy).Contents (Elt F)),
    unary main_v24 main_v25 (broadcastInDim S50000x256 ![0, 1] bcast_S1x256_S50000x256_0_1 : (⟨S1x256, .f32⟩ : BufTy).Contents (Elt F) → (⟨S50000x256, .f32⟩ : BufTy).Contents (Elt F)),
    binary main_v23 main_v25 main_v26 (addf : (⟨S50000x256, .f32⟩ : BufTy).Contents (Elt F) → (⟨S50000x256, .f32⟩ : BufTy).Contents (Elt F) → (⟨S50000x256, .f32⟩ : BufTy).Contents (Elt F)),
    binary main_arg0 main_arg4 main_v27 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    binary main_v26 main_v27 main_v28 (addf : (⟨S50000x256, .f32⟩ : BufTy).Contents (Elt F) → (⟨S50000x256, .f32⟩ : BufTy).Contents (Elt F) → (⟨S50000x256, .f32⟩ : BufTy).Contents (Elt F)),
    nullary main_call0_cst (constant S_ .f32 0x00000000#32),
    unary main_call0_cst main_call0_v0 (broadcastInDim S50000x256 ![] bcast_S_S50000x256 : (⟨S_, .f32⟩ : BufTy).Contents (Elt F) → (⟨S50000x256, .f32⟩ : BufTy).Contents (Elt F)),
    binary main_v28 main_call0_v0 main_call0_v1 (cmpf .ogt : (⟨S50000x256, .f32⟩ : BufTy).Contents (Elt F) → (⟨S50000x256, .f32⟩ : BufTy).Contents (Elt F) → (⟨S50000x256, .i1⟩ : BufTy).Contents (Elt F)),
    nullary main_call0_cst_0 (constant S_ .f32 0x00000000#32),
    unary main_call0_cst_0 main_call0_v2 (broadcastInDim S50000x256 ![] bcast_S_S50000x256 : (⟨S_, .f32⟩ : BufTy).Contents (Elt F) → (⟨S50000x256, .f32⟩ : BufTy).Contents (Elt F)),
    binary main_v28 main_call0_v2 main_call0_v3 (cmpf .ogt : (⟨S50000x256, .f32⟩ : BufTy).Contents (Elt F) → (⟨S50000x256, .f32⟩ : BufTy).Contents (Elt F) → (⟨S50000x256, .i1⟩ : BufTy).Contents (Elt F)),
    nullary main_call0_cst_1 (constant S_ .f32 0x00000000#32),
    unary main_call0_cst_1 main_call0_call0_v0 (id : (⟨S_, .f32⟩ : BufTy).Contents (Elt F) → (⟨S_, .f32⟩ : BufTy).Contents (Elt F)),
    unary main_call0_call0_v0 main_call0_call0_v1 (broadcastInDim S50000x256 ![] bcast_S_S50000x256 : (⟨S_, .f32⟩ : BufTy).Contents (Elt F) → (⟨S50000x256, .f32⟩ : BufTy).Contents (Elt F)),
    ternary main_call0_v3 main_call0_call0_v1 main_v28 main_call0_v4 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    unary main_call0_v4 main_call0_v5 (Host.expm1 : (⟨S50000x256, .f32⟩ : BufTy).Contents (Elt F) → (⟨S50000x256, .f32⟩ : BufTy).Contents (Elt F)),
    nullary main_call0_cst_2 (constant S_ .f32 0x3F800000#32),
    unary main_call0_cst_2 main_call0_v6 (broadcastInDim S50000x256 ![] bcast_S_S50000x256 : (⟨S_, .f32⟩ : BufTy).Contents (Elt F) → (⟨S50000x256, .f32⟩ : BufTy).Contents (Elt F)),
    binary main_call0_v6 main_call0_v5 main_call0_v7 (mulf : (⟨S50000x256, .f32⟩ : BufTy).Contents (Elt F) → (⟨S50000x256, .f32⟩ : BufTy).Contents (Elt F) → (⟨S50000x256, .f32⟩ : BufTy).Contents (Elt F)),
    ternary main_call0_v1 main_v28 main_call0_v7 main_v29 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    nullary main_c_4 (constantI S_ 32 0#32),
    unary main_c_4 main_v30 (broadcastInDim S800000 ![] bcast_S_S800000 : (⟨S_, .i32⟩ : BufTy).Contents (Elt F) → (⟨S800000, .i32⟩ : BufTy).Contents (Elt F)),
    binary main_v1 main_v30 main_v31 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v32 (broadcastInDim S800000 ![] bcast_S_S800000 : (⟨S_, .i32⟩ : BufTy).Contents (Elt F) → (⟨S800000, .i32⟩ : BufTy).Contents (Elt F)),
    binary main_v1 main_v32 main_v33 (addi : (⟨S800000, .i32⟩ : BufTy).Contents (Elt F) → (⟨S800000, .i32⟩ : BufTy).Contents (Elt F) → (⟨S800000, .i32⟩ : BufTy).Contents (Elt F)),
    ternary main_v31 main_v33 main_v1 main_v34 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v34 main_v35 (broadcastInDim S800000x1 ![0] bcast_S800000_S800000x1_0 : (⟨S800000, .i32⟩ : BufTy).Contents (Elt F) → (⟨S800000x1, .i32⟩ : BufTy).Contents (Elt F)),
    binary main_v29 main_v35 main_v36 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_6 (constant S_ .f32 0x00000000#32),
    unary main_cst_6 main_v37 (broadcastInDim S50000x256 ![] bcast_S_S50000x256 : (⟨S_, .f32⟩ : BufTy).Contents (Elt F) → (⟨S50000x256, .f32⟩ : BufTy).Contents (Elt F)),
    unary main_v3 main_v38 (broadcastInDim S800000x1 ![0] bcast_S800000_S800000x1_0 : (⟨S800000, .i32⟩ : BufTy).Contents (Elt F) → (⟨S800000x1, .i32⟩ : BufTy).Contents (Elt F)),
    ternary main_v37 main_v38 main_v36 main_v39 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    nullary main_cst_7 (constant S_ .f32 0x3F800000#32),
    unary main_cst_7 main_v40 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v41 (broadcastInDim S50000 ![] bcast_S_S50000 : (⟨S_, .f32⟩ : BufTy).Contents (Elt F) → (⟨S50000, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v44 (broadcastInDim S50000 ![] bcast_S_S50000 : (⟨S_, .f32⟩ : BufTy).Contents (Elt F) → (⟨S50000, .f32⟩ : BufTy).Contents (Elt F)),
    binary main_v43 main_v44 main_v45 (maximumf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x256 ![0, 1] bcast_S50000x1_S50000x256_0_1 : (⟨S50000x1, .f32⟩ : BufTy).Contents (Elt F) → (⟨S50000x256, .f32⟩ : BufTy).Contents (Elt F)),
    binary main_v39 main_v47 main_v48 (Host.divf : (⟨S50000x256, .f32⟩ : BufTy).Contents (Elt F) → (⟨S50000x256, .f32⟩ : BufTy).Contents (Elt F) → (⟨S50000x256, .f32⟩ : BufTy).Contents (Elt F)),
    binary main_v48 main_arg5 main_v49 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_arg6 main_v50 (broadcastInDim S1x40 ![1] bcast_S40_S1x40_1 : (⟨S40, .f32⟩ : BufTy).Contents (Elt F) → (⟨S1x40, .f32⟩ : BufTy).Contents (Elt F)),
    unary main_v50 main_v51 (broadcastInDim S50000x40 ![0, 1] bcast_S1x40_S50000x40_0_1 : (⟨S1x40, .f32⟩ : BufTy).Contents (Elt F) → (⟨S50000x40, .f32⟩ : BufTy).Contents (Elt F)),
    binary main_v49 main_v51 main_v52 (addf : (⟨S50000x40, .f32⟩ : BufTy).Contents (Elt F) → (⟨S50000x40, .f32⟩ : BufTy).Contents (Elt F) → (⟨S50000x40, .f32⟩ : BufTy).Contents (Elt F)),
    binary main_v29 main_arg7 main_v53 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    binary main_v52 main_v53 main_v54 (addf : (⟨S50000x40, .f32⟩ : BufTy).Contents (Elt F) → (⟨S50000x40, .f32⟩ : BufTy).Contents (Elt F) → (⟨S50000x40, .f32⟩ : BufTy).Contents (Elt F)) ]

set_option maxRecDepth 65536 in
set_option maxHeartbeats 4000000 in
/-- @main is that straight line: its two windows and the three functions unfolded at their calls, both sides are one
    chain of steps once sequencing is reassociated. -/
theorem main_eq (c : Dev nD) : main (F := F) c = seq ops := by
  simp only [main, main_part0, main_part1, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., nullary_bufs_sub .., unary_bufs_sub .., nullary_bufs_sub ..,
    unary_bufs_sub .., unary_bufs_sub .., ternary_bufs_sub .., nullary_bufs_sub .., unary_bufs_sub .., binary_bufs_sub ..,
    unary_bufs_sub .., unary_bufs_sub .., binary_bufs_sub .., binary_bufs_sub .., unary_bufs_sub .., unary_bufs_sub ..,
    binary_bufs_sub .., binary_bufs_sub .., binary_bufs_sub ..⟩

/-- From any memory with zero counters every weakly fair execution of @main terminates, and every final state has each
    TensorCore buffer at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.scatterAdd Host.divf Host.expm1 in
set_option maxRecDepth 65536 in
set_option maxHeartbeats 4000000 in
/-- The fold at the result buffer is the composed term: each operation's result at its own buffer is its function of
    its operands' contents, at any other buffer what was there; what is left is the term's stages unfolded. -/
theorem out_eq (V : Valuation τ sig (Elt Ideal)) :
    after ops V (main_v54 : DevRef τ sig)
      = Cert.RefTerm.out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  rfl

set_option maxRecDepth 65536 in
set_option maxHeartbeats 4000000 in
/-- No operation writes argument 0's buffer. -/
theorem arg_eq0 (V : Valuation τ sig (Elt F)) :
    after ops V (main_arg0 : DevRef τ sig) = V (main_arg0 : DevRef τ sig) := by
  after_results_simp

set_option maxRecDepth 65536 in
set_option maxHeartbeats 4000000 in
/-- No operation writes argument 1's buffer. -/
theorem arg_eq1 (V : Valuation τ sig (Elt F)) :
    after ops V (main_arg1 : DevRef τ sig) = V (main_arg1 : DevRef τ sig) := by
  after_results_simp

set_option maxRecDepth 65536 in
set_option maxHeartbeats 4000000 in
/-- No operation writes argument 2's buffer. -/
theorem arg_eq2 (V : Valuation τ sig (Elt F)) :
    after ops V (main_arg2 : DevRef τ sig) = V (main_arg2 : DevRef τ sig) := by
  after_results_simp

set_option maxRecDepth 65536 in
set_option maxHeartbeats 4000000 in
/-- No operation writes argument 3's buffer. -/
theorem arg_eq3 (V : Valuation τ sig (Elt F)) :
    after ops V (main_arg3 : DevRef τ sig) = V (main_arg3 : DevRef τ sig) := by
  after_results_simp

set_option maxRecDepth 65536 in
set_option maxHeartbeats 4000000 in
/-- No operation writes argument 4's buffer. -/
theorem arg_eq4 (V : Valuation τ sig (Elt F)) :
    after ops V (main_arg4 : DevRef τ sig) = V (main_arg4 : DevRef τ sig) := by
  after_results_simp

set_option maxRecDepth 65536 in
set_option maxHeartbeats 4000000 in
/-- No operation writes argument 5's buffer. -/
theorem arg_eq5 (V : Valuation τ sig (Elt F)) :
    after ops V (main_arg5 : DevRef τ sig) = V (main_arg5 : DevRef τ sig) := by
  after_results_simp

set_option maxRecDepth 65536 in
set_option maxHeartbeats 4000000 in
/-- No operation writes argument 6's buffer. -/
theorem arg_eq6 (V : Valuation τ sig (Elt F)) :
    after ops V (main_arg6 : DevRef τ sig) = V (main_arg6 : DevRef τ sig) := by
  after_results_simp

set_option maxRecDepth 65536 in
set_option maxHeartbeats 4000000 in
/-- No operation writes argument 7's buffer. -/
theorem arg_eq7 (V : Valuation τ sig (Elt F)) :
    after ops V (main_arg7 : DevRef τ sig) = V (main_arg7 : DevRef τ sig) := by
  after_results_simp

set_option maxRecDepth 65536 in
set_option maxHeartbeats 4000000 in
/-- No operation writes argument 8's buffer. -/
theorem arg_eq8 (V : Valuation τ sig (Elt F)) :
    after ops V (main_arg8 : DevRef τ sig) = V (main_arg8 : DevRef τ sig) := by
  after_results_simp

/-- On every device, from any memory with zero counters: every weakly fair execution of @main terminates with the
    result buffer at the composed term of the arguments' launch contents, and the nine argument buffers unchanged
    (the ninth is also the program's second result). -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v54)
          = Cert.RefTerm.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg8) = m ((c.tc : Thread nD τ).loc main_arg8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v54).trans (out_eq (launchContents m c)),
       (h c main_arg8).trans (arg_eq8 (launchContents m c)),
       (h c main_arg0).trans (arg_eq0 (launchContents m c)),
       (h c main_arg1).trans (arg_eq1 (launchContents m c)),
       (h c main_arg2).trans (arg_eq2 (launchContents m c)),
       (h c main_arg3).trans (arg_eq3 (launchContents m c)),
       (h c main_arg4).trans (arg_eq4 (launchContents m c)),
       (h c main_arg5).trans (arg_eq5 (launchContents m c)),
       (h c main_arg6).trans (arg_eq6 (launchContents m c)),
       (h c main_arg7).trans (arg_eq7 (launchContents m c)),
       (h c main_arg8).trans (arg_eq8 (launchContents m c))⟩)
    (run_main m ρ)

end Cert.RefRun

end
-- ==== Proof.Finite.lean ====
import proofs.«113936_j65163243815283_2_alg».proof.Pre_finite_inputs
import proofs.«113936_j65163243815283_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

/-!
# From "every |a| < +∞" to "every entry is a real number"

The precondition compares the absolute value of every entry of each float input with the
word `0x7F800000` (which denotes `+∞`), reduces each array of comparison bits by `and`, and
conjoins the eight results. Over the extended reals `|x| < ⊤` excludes exactly `⊤` and `⊥`,
so every entry is the image of a real number.
-/

namespace Cert.Finite

open Cert.Pre_finite_inputs Idealize.ShloMosaic

/-- The result shape of a reduction over all axes has one index only. -/
theorem subsingleton_scalar_idx : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- One entry: if `max x (-x) < +∞` answers 1 then `x` is neither `⊤` nor `⊥`, so it is a real. -/
theorem real_of_abs_lt_inf (x : EReal)
    (h : Ideal.cmp .olt (max x (-x)) (Ideal.ofBits .f32 0x7F800000#32) = 1#1) :
    ∃ r : ℝ, x = (r : EReal) := by
  rw [inf_word] at h
  unfold Ideal.cmp at h
  induction x using EReal.rec with
  | bot => simp at h
  | coe r => exact ⟨r, rfl⟩
  | top => simp at h

/-- One input array of any shape: if the `and` over all entries of `|a| < c` is 1, where every
    entry of `c` is the word of `+∞`, then every entry of `a` is a real number. -/
theorem real_of_all {s u : Shape} {axes : List (Fin s.rank)} (a c : FVec Ideal s .f32)
    (hc : ∀ i, c i = Ideal.ofBits .f32 0x7F800000#32)
    (init : u.Idx → BitVec 1) (hr : s.ReducesTo axes S_) (hu : 0 < u.numel) (j : S_.Idx)
    (e : Host.reduce IntOp.andi (cmpf .olt (Host.absf a) c) init hr hu j = 1#1) :
    ∀ i, ∃ r : ℝ, a i = (r : EReal) := by
  intro i
  haveI := subsingleton_scalar_idx
  have hi := Host.reduce_andi_all (cmpf .olt (Host.absf a) c) init hr hu j e i
  refine real_of_abs_lt_inf (a i) ?_
  rw [← hc i]
  exact hi

variable [Cert.Pre_finite_inputs.Facts]

theorem of_pre (x : FVec Ideal S50000x256 .f32) (ei : IVec S2x800000 32) (W1l : FVec Ideal S256x256 .f32) (b1 : FVec Ideal S256 .f32)
    (W1r : FVec Ideal S256x256 .f32) (W2l : FVec Ideal S256x40 .f32) (b2 : FVec Ideal S40 .f32) (W2r : FVec Ideal S256x40 .f32) (Q : FVec Ideal S400000x40 .f32)
    (h : Cert.Pre_finite_inputs.fn (F := Ideal) x ei W1l b1 W1r W2l b2 W2r Q = (fun _ => 1#1)) :
    (∀ i, ∃ r : ℝ, x i = (r : EReal)) ∧ (∀ i, ∃ r : ℝ, W1l i = (r : EReal)) ∧ (∀ i, ∃ r : ℝ, b1 i = (r : EReal))
      ∧ (∀ i, ∃ r : ℝ, W1r i = (r : EReal)) ∧ (∀ i, ∃ r : ℝ, W2l i = (r : EReal)) := by
  have h0 := congrFun h ValueIdx.ix0
  dsimp only [fn, fn_part1, fn_part2, andi] at h0
  simp only [IntOp.andi_eq_one] at h0
  obtain ⟨⟨⟨⟨⟨⟨⟨hx, hW1l⟩, hb1⟩, hW1r⟩, hW2l⟩, -⟩, -⟩, -⟩ := h0
  exact ⟨real_of_all _ _ (fun _ => rfl) _ _ _ _ hx, real_of_all _ _ (fun _ => rfl) _ _ _ _ hW1l,
    real_of_all _ _ (fun _ => rfl) _ _ _ _ hb1, real_of_all _ _ (fun _ => rfl) _ _ _ _ hW1r,
    real_of_all _ _ (fun _ => rfl) _ _ _ _ hW2l⟩

end Cert.Finite
-- ==== Proof.lean ====
/-
  A two-layer graph convolution with mean aggregation, computed two ways, gives one result on finite inputs.

  Both programs aggregate, for every node, the feature rows of the sources of its incoming edges, and divide by the
  node's in-degree (raised to at least one).  One program multiplies by the reciprocal of the degree inside two tiled
  calls and, for the second layer, aggregates the 40-column projection of the hidden rows; the other divides by the
  degree and projects after aggregating.  Scaling by 1/d is dividing by d for a nonzero real d; the activation
  (x for x > 0, exp x − 1 otherwise) is one function spelt twice; and projecting before or after a sum over edges is
  distributivity, which holds because the hidden rows and the weights are real numbers when the inputs are finite.

  The three runs: each of the two tiled programs by its frame; the plain program by its list of host operations.
  Nothing was rewritten between the word-level and the idealized tiled program, so that claim is trivial.
-/
import proofs.«113936_j65163243815283_2_alg».proof.Defs
import proofs.«113936_j65163243815283_2_alg».proof.Proof.Gen.Kernel
import proofs.«113936_j65163243815283_2_alg».proof.Proof.Gen.Kernel.Frame
import proofs.«113936_j65163243815283_2_alg».proof.Proof.Gen.KernelIdeal
import proofs.«113936_j65163243815283_2_alg».proof.Proof.Gen.KernelIdeal.Frame
import proofs.«113936_j65163243815283_2_alg».proof.Proof.Gen.ReferenceIdeal
import proofs.«113936_j65163243815283_2_alg».proof.Proof.Gen.Pre_finite_inputs
import proofs.«113936_j65163243815283_2_alg».proof.Proof.KRun
import proofs.«113936_j65163243815283_2_alg».proof.Proof.Bridge
import proofs.«113936_j65163243815283_2_alg».proof.Proof.Value
import proofs.«113936_j65163243815283_2_alg».proof.Proof.Reg0
import proofs.«113936_j65163243815283_2_alg».proof.Proof.Reg1
import proofs.«113936_j65163243815283_2_alg».proof.Proof.RefRun
import proofs.«113936_j65163243815283_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's run, its result forgotten. -/
theorem frame_ri : Cert.frame_ReferenceIdeal := fun m ρ _ =>
  (θ_run Cert.ReferenceIdeal.defs _ _).mono (fun _ h c => (h c).2.2) (Cert.RefRun.run m ρ)

theorem preserves : Cert.preserves_Kernel_KernelIdeal := trivial

/-- The tiled program's result buffer after its run is the plain program's composed term of the same arguments. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W4 m ρ c (Proc.devRef .tc Cert.KernelIdeal.main_v36)
      = Cert.RefTerm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨hx, hW1l, hb1, hW1r, hW2l⟩ := Cert.Finite.of_pre _ _ _ _ _ _ _ _ _ (hpre c)
  exact (Cert.Bridge.kernel_array_of m ρ c (Cert.KernelIdeal.Reg1.out _ c) (Cert.KernelIdeal.Reg0.hid _ c) (Cert.KernelIdeal.Reg0.proj _ c)).trans
    (Cert.Value.value_eq _ _ _ _ _ _ _ _ hx hW1l hb1 hW1r hW2l)

theorem algebraic : Cert.algebraic_KernelIdeal_ReferenceIdeal := by
  intro m ρ m' ρ' hpre hagree
  refine ⟨fun c => Cert.RefTerm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => (m ((c.tc : Thread Cert.KernelIdeal.nD Cert.KernelIdeal.τ).loc Cert.KernelIdeal.main_arg8)), ?_, ?_⟩
  · exact (θ_run Cert.KernelIdeal.defs _ _).mono
      (fun r h c => ⟨(h c).1.trans (kernel_value m ρ hpre c), (h c).2⟩) (Cert.KernelIdeal.KRun.run_named m ρ)
  · refine (θ_run Cert.ReferenceIdeal.defs _ _).mono (fun r h c => ⟨?_, ?_, (h c).2.2⟩) (Cert.RefRun.run m' ρ')
    · rw [(h c).1, (hagree c).1, (hagree c).2.1, (hagree c).2.2.1, (hagree c).2.2.2.1, (hagree c).2.2.2.2.1,
        (hagree c).2.2.2.2.2.1, (hagree c).2.2.2.2.2.2.1, (hagree c).2.2.2.2.2.2.2.1]
    · rw [(h c).2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
